-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v137)) (v1 : (c : Dev Cert.KernelIdeal.nD) → Buf (Elt Ideal) ((c.tc : Thread Cert.KernelIdeal.nD Cert.KernelIdeal.τ).loc Cert.KernelIdeal.main_v122)) (v2 : (c : Dev Cert.KernelIdeal.nD) → Buf (Elt Ideal) ((c.tc : Thread Cert.KernelIdeal.nD Cert.KernelIdeal.τ).loc Cert.KernelIdeal.main_v112_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_v122) = v1 c
          ∧ r.2.mem ((c.tc : Thread Cert.KernelIdeal.nD Cert.KernelIdeal.τ).loc Cert.KernelIdeal.main_v112_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000 : Shape := ⟨1, ![50000]⟩
abbrev S8x128 : Shape := ⟨2, ![8, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S64 .f32) (main_arg15 : FVec F S64x1 .f32) (main_arg16 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg15
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg10 : FVec F S128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg13
  let main_cst_18 : FVec F S_ .f32 := constant S_ .f32 0x7F800000#32
  let main_v50 : FVec F S128x64 .f32 := broadcastInDim S128x64 ![] bcast_S_S128x64 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : IVec S800000 32) (main_arg1 : IVec S800000 32) (main_arg2 : IVec S50000 32) (main_arg3 : FVec F S8x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x64 .f32) (main_arg14 : FVec F S64 .f32) (main_arg15 : FVec F S64x1 .f32) (main_arg16 : FVec F S1 .f32) : IVec S_ 1 :=
  let main_v0 : FVec F S8x128 .f32 := Host.absf main_arg3
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_v13 main_v16
-- ==== Kernel.lean ====
abbrev S800000 : Shape := ⟨1, ![800000]⟩
abbrev S50000 : Shape := ⟨1, ![50000]⟩
abbrev S8x128 : Shape := ⟨2, ![8, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S50000x8 : Shape := ⟨2, ![50000, 8]⟩
abbrev S800000x8 : Shape := ⟨2, ![800000, 8]⟩
abbrev S1x128 : Shape := ⟨2, ![1, 128]⟩
abbrev S50000x128 : Shape := ⟨2, ![50000, 128]⟩
abbrev S2000x8 : Shape := ⟨2, ![2000, 8]⟩
abbrev S2000x1 : Shape := ⟨2, ![2000, 1]⟩
abbrev S2000x128 : Shape := ⟨2, ![2000, 128]⟩
abbrev S800000x128 : Shape := ⟨2, ![800000, 128]⟩
abbrev S50 : Shape := ⟨1, ![50]⟩
abbrev S50x128 : Shape := ⟨2, ![50, 128]⟩
abbrev S50x1 : Shape := ⟨2, ![50, 1]⟩
abbrev S50x64 : Shape := ⟨2, ![50, 64]⟩
abbrev S1x64 : Shape := ⟨2, ![1, 64]⟩
abbrev S1x1 : Shape := ⟨2, ![1, 1]⟩

abbrev nBuf : Space → Nat
  | .hbm => 192
  | .vmem => 60
  | .smem => 0
  | _ => 0

abbrev hbmTy0_0 (i : Nat) : BufTy := match i % 128 with
  | 0 => ⟨S800000, .i32⟩
  | 1 => ⟨S800000, .i32⟩
  | 2 => ⟨S50000, .i32⟩
  | 3 => ⟨S8x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S800000x1, .i32⟩
  | 26 => ⟨S50000, .f32⟩
  | 27 => ⟨S50000x1, .f32⟩
  | 28 => ⟨S_, .f32⟩
  | 29 => ⟨S50000, .f32⟩
  | 30 => ⟨S50000, .i1⟩
  | 31 => ⟨S50000, .f32⟩
  | 32 => ⟨S50000x1, .f32⟩
  | 33 => ⟨S_, .f32⟩
  | 34 => ⟨S50000x1, .f32⟩
  | 35 => ⟨S50000x1, .f32⟩
  | 36 => ⟨S_, .f32⟩
  | 37 => ⟨S50000, .f32⟩
  | 38 => ⟨S50000, .i1⟩
  | 39 => ⟨S50000, .f32⟩
  | 40 => ⟨S50000x1, .f32⟩
  | 41 => ⟨S50000x1, .f32⟩
  | 42 => ⟨S50000x1, .f32⟩
  | 43 => ⟨S50000x1, .f32⟩
  | 44 => ⟨S50000x1, .f32⟩
  | 45 => ⟨S50000x8, .f32⟩
  | 46 => ⟨S_, .f32⟩
  | 47 => ⟨S50000, .f32⟩
  | 48 => ⟨S50000, .f32⟩
  | 49 => ⟨S_, .f32⟩
  | 50 => ⟨S50000, .f32⟩
  | 51 => ⟨S50000, .f32⟩
  | 52 => ⟨S_, .f32⟩
  | 53 => ⟨S50000, .f32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x8, .f32⟩
  | 60 => ⟨S50000x8, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x8, .f32⟩
  | 70 => ⟨S_, .f32⟩
  | 71 => ⟨S50000x8, .f32⟩
  | 72 => ⟨S800000x1, .i32⟩
  | 73 => ⟨S50000x8, .f32⟩
  | 74 => ⟨S50000x1, .f32⟩
  | 75 => ⟨S50000x1, .f32⟩
  | 76 => ⟨S8x128, .bf16⟩
  | 77 => ⟨S1x128, .f32⟩
  | 78 => ⟨S50000x128, .f32⟩
  | 79 => ⟨S50000x128, .bf16⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .bf16⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x1, .f32⟩
  | 95 => ⟨S50000x1, .f32⟩
  | 96 => ⟨S128x128, .bf16⟩
  | 97 => ⟨S1x128, .f32⟩
  | 98 => ⟨S50000x128, .f32⟩
  | 99 => ⟨S50000x128, .bf16⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .bf16⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000x1, .f32⟩
  | 115 => ⟨S50000x1, .f32⟩
  | 116 => ⟨S128x128, .bf16⟩
  | 117 => ⟨S1x128, .f32⟩
  | 118 => ⟨S50000x128, .f32⟩
  | 119 => ⟨S50000x128, .bf16⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S800000, .i32⟩

abbrev hbmTy0_1 (i : Nat) : BufTy := match i % 128 with
  | 0 => ⟨S800000x128, .bf16⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S50000x1, .f32⟩
  | 7 => ⟨S50000x1, .f32⟩
  | 8 => ⟨S128x128, .bf16⟩
  | 9 => ⟨S1x128, .f32⟩
  | 10 => ⟨S50000x128, .f32⟩
  | 11 => ⟨S50000x128, .bf16⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .bf16⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x1, .f32⟩
  | 27 => ⟨S50000x1, .f32⟩
  | 28 => ⟨S128x128, .bf16⟩
  | 29 => ⟨S1x128, .f32⟩
  | 30 => ⟨S50000x128, .f32⟩
  | 31 => ⟨S50000x128, .bf16⟩
  | 32 => ⟨S_, .f32⟩
  | 33 => ⟨S50000, .f32⟩
  | 34 => ⟨S_, .f32⟩
  | 35 => ⟨S50, .f32⟩
  | 36 => ⟨S50000x1, .i32⟩
  | 37 => ⟨S50, .f32⟩
  | 38 => ⟨S_, .f32⟩
  | 39 => ⟨S50x128, .f32⟩
  | 40 => ⟨S50000x1, .i32⟩
  | 41 => ⟨S50x128, .f32⟩
  | 42 => ⟨S50x1, .f32⟩
  | 43 => ⟨S50x128, .f32⟩
  | 44 => ⟨S50x128, .f32⟩
  | 45 => ⟨S50x64, .f32⟩
  | 46 => ⟨S1x64, .f32⟩
  | 47 => ⟨S50x64, .f32⟩
  | 48 => ⟨S50x64, .f32⟩
  | 49 => ⟨S_, .f32⟩
  | 50 => ⟨S50x64, .f32⟩
  | 51 => ⟨S50x64, .f32⟩
  | 52 => ⟨S50x1, .f32⟩
  | 53 => ⟨S1x1, .f32⟩
  | 54 => ⟨S50x1, .f32⟩
  | 55 => ⟨S50x1, .f32⟩
  | 56 => ⟨S50x1, .f32⟩
  | 57 => ⟨S50x1, .f32⟩
  | 58 => ⟨S_, .f32⟩
  | 59 => ⟨S50x1, .f32⟩
  | 60 => ⟨S50x1, .f32⟩
  | 61 => ⟨S_, .f32⟩
  | 62 => ⟨S50x1, .f32⟩
  | 63 => ⟨S50x1, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | .local _ .vmem, ⟨0, _⟩ => ⟨S2000x8, .f32⟩
  | .local _ .vmem, ⟨1, _⟩ => ⟨S2000x8, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S8x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S2000x1, .f32⟩
  | .local _ .vmem, ⟨18, _⟩ => ⟨S128x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .bf16⟩
  | .local _ .vmem, ⟨23, _⟩ => ⟨S2000x128, .bf16⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | .local _ .vmem, ⟨30, _⟩ => ⟨S128x128, .bf16⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .bf16⟩
  | .local _ .vmem, ⟨35, _⟩ => ⟨S2000x128, .bf16⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S2000x1, .f32⟩
  | .local _ .vmem, ⟨41, _⟩ => ⟨S2000x1, .f32⟩
  | .local _ .vmem, ⟨42, _⟩ => ⟨S128x128, .bf16⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .bf16⟩
  | .local _ .vmem, ⟨47, _⟩ => ⟨S2000x128, .bf16⟩
  | .local _ .vmem, ⟨48, _⟩ => ⟨S2000x128, .f32⟩
  | .local _ .vmem, ⟨49, _⟩ => ⟨S2000x128, .f32⟩
  | .local _ .vmem, ⟨50, _⟩ => ⟨S2000x1, .f32⟩
  | .local _ .vmem, ⟨51, _⟩ => ⟨S2000x1, .f32⟩
  | .local _ .vmem, ⟨52, _⟩ => ⟨S2000x1, .f32⟩
  | .local _ .vmem, ⟨53, _⟩ => ⟨S2000x1, .f32⟩
  | .local _ .vmem, ⟨54, _⟩ => ⟨S128x128, .bf16⟩
  | .local _ .vmem, ⟨55, _⟩ => ⟨S1x128, .f32⟩
  | .local _ .vmem, ⟨56, _⟩ => ⟨S2000x128, .f32⟩
  | .local _ .vmem, ⟨57, _⟩ => ⟨S2000x128, .f32⟩
  | .local _ .vmem, ⟨58, _⟩ => ⟨S2000x128, .bf16⟩
  | .local _ .vmem, ⟨59, _⟩ => ⟨S2000x128, .bf16⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48_0 : Ref sig .tc := ⟨.hbm, 78, rfl⟩
abbrev main_v48_1 : Ref sig .tc := ⟨.hbm, 79, rfl⟩
abbrev main_c_11 : Ref sig .tc := ⟨.hbm, 80, rfl⟩
abbrev main_v49 : Ref sig .tc := ⟨.hbm, 81, rfl⟩
abbrev main_v50 : Ref sig .tc := ⟨.hbm, 82, rfl⟩
abbrev main_c_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64_0 : Ref sig .tc := ⟨.hbm, 98, rfl⟩
abbrev main_v64_1 : Ref sig .tc := ⟨.hbm, 99, rfl⟩
abbrev main_c_14 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_16 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80_0 : Ref sig .tc := ⟨.hbm, 118, rfl⟩
abbrev main_v80_1 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_c_18 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96_0 : Ref sig .tc := ⟨.hbm, 138, rfl⟩
abbrev main_v96_1 : Ref sig .tc := ⟨.hbm, 139, rfl⟩
abbrev main_c_20 : Ref sig .tc := ⟨.hbm, 140, rfl⟩
abbrev main_v97 : Ref sig .tc := ⟨.hbm, 141, rfl⟩
abbrev main_v98 : Ref sig .tc := ⟨.hbm, 142, rfl⟩
abbrev main_c_21 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_22 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112_0 : Ref sig .tc := ⟨.hbm, 158, rfl⟩
abbrev main_v112_1 : Ref sig .tc := ⟨.hbm, 159, rfl⟩
abbrev main_cst_23 : Ref sig .tc := ⟨.hbm, 160, rfl⟩
abbrev main_v113 : Ref sig .tc := ⟨.hbm, 161, rfl⟩
abbrev main_cst_24 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_25 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_call0_cst : Ref sig .tc := ⟨.hbm, 177, rfl⟩
abbrev main_call0_v0 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_26 : Ref sig .tc := ⟨.hbm, 186, rfl⟩
abbrev main_v134 : Ref sig .tc := ⟨.hbm, 187, rfl⟩
abbrev main_v135 : Ref sig .tc := ⟨.hbm, 188, rfl⟩
abbrev main_cst_27 : Ref sig .tc := ⟨.hbm, 189, rfl⟩
abbrev main_v136 : Ref sig .tc := ⟨.hbm, 190, rfl⟩
abbrev main_v137 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg5_1 : Ref sig .tc := ⟨.vmem, 57, rfl⟩
abbrev cc4_stg6_0 : Ref sig .tc := ⟨.vmem, 58, rfl⟩
abbrev cc4_stg6_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem5_1 : DmaSem sig := 45
abbrev cc3_sem6_0 : DmaSem sig := 46
abbrev cc3_sem6_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem5_1 : DmaSem sig := 57
abbrev cc4_sem6_0 : DmaSem sig := 58
abbrev cc4_sem6_1 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S2000x128 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  concatenates_S50000x1_S50000x1_S50000x1_S50000x1_S50000x1_S50000x1_S50000x1_S50000x1_S50000x8_d1 : Shape.Concatenates [S50000x1, S50000x1, S50000x1, S50000x1, S50000x1, S50000x1, S50000x1, S50000x1] S50000x8 1
  bcast_S50000x1_S50000x8_0_1 : S50000x1.BroadcastsInDim S50000x8 (![0, 1] : Fin 2 → Fin S50000x8.rank)
  bcast_S_S50000x8 : S_.BroadcastsInDim S50000x8 (![] : Fin 0 → Fin S50000x8.rank)
  shapeCasts_S50000_S50000x1 : S50000.ShapeCasts S50000x1
  bitsLt_bf16_f32 : FTy.bits .bf16 < FTy.bits .f32
  shapeCasts_S128_S1x128 : S128.ShapeCasts S1x128
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x8 : S2000x1.Broadcasts S2000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S50 : S_.BroadcastsInDim S50 (![] : Fin 0 → Fin S50.rank)
  bcast_S_S50x128 : S_.BroadcastsInDim S50x128 (![] : Fin 0 → Fin S50x128.rank)
  bcast_S50_S50x1_0 : S50.BroadcastsInDim S50x1 (![0] : Fin 1 → Fin S50x1.rank)
  bcast_S50x1_S50x128_0_1 : S50x1.BroadcastsInDim S50x128 (![0, 1] : Fin 2 → Fin S50x128.rank)
  bcast_S64_S1x64_1 : S64.BroadcastsInDim S1x64 (![1] : Fin 1 → Fin S1x64.rank)
  bcast_S1x64_S50x64_0_1 : S1x64.BroadcastsInDim S50x64 (![0, 1] : Fin 2 → Fin S50x64.rank)
  bcast_S_S50x64 : S_.BroadcastsInDim S50x64 (![] : Fin 0 → Fin S50x64.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  bcast_S_S50x1 : S_.BroadcastsInDim S50x1 (![] : Fin 0 → Fin S50x1.rank)
  scatter_S50000_S800000x1_S800000_n_0_0_1_wf : ScatterDims.WF S50000 S800000x1 S800000 [] [0] [0] 1
  gather_S50000x8_S800000x1_S800000x8_1_0_n_n_0_1_18_wf : GatherDims.WF S50000x8 S800000x1 S800000x8 [1] [0] [] [0] [] 1 ![1, 8]
  scatter_S50000x8_S800000x1_S800000x8_1_0_0_1_wf : ScatterDims.WF S50000x8 S800000x1 S800000x8 [1] [0] [0] 1
  dot_S2000x8_S8x128_S2000x128_1_0_0_1_n_n_wf : DotDims.WF S2000x8 S8x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  scatter_S50_S50000x1_S50000_n_0_0_1_wf : ScatterDims.WF S50 S50000x1 S50000 [] [0] [0] 1
  scatter_S50x128_S50000x1_S50000x128_1_0_0_1_wf : ScatterDims.WF S50x128 S50000x1 S50000x128 [1] [0] [0] 1
  dot_S50x128_S128x64_S50x64_1_0_0_1_n_n_wf : DotDims.WF S50x128 S128x64 S50x64 [1] [0] [0] [1] [] []
  dot_S50x64_S64x1_S50x1_1_0_0_1_n_n_wf : DotDims.WF S50x64 S64x1 S50x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S50000x8.size a
  hwx0_0 : ∀ i : grid0.Coords, EltTy.bits .f32 = 32 ∨ (Rect.block (s := S50000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .bf16 = 32 ∨ (Rect.block (s := S8x128) S8x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .bf16 = 32 ∨ (Rect.block (s := S50000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .bf16 = 32 ∨ (Rect.block (s := S50000x128) S2000x128.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .bf16 = 32 ∨ (Rect.block (s := S50000x128) S2000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .bf16 = 32 ∨ (Rect.block (s := S50000x128) S2000x128.size (cc4_transform_6 i) (hinb4_6 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x8_S800000x1_S800000x8_1_0_n_n_0_1_18 : GatherDims S50000x8 S800000x1 S800000x8 where
  offsetDims := [1]
  collapsedSliceDims := [0]
  operandBatchingDims := []
  startIndicesBatchingDims := []
  startIndexMap := [0]
  indexVectorDim := 1
  sliceSizes := ![1, 8]
  wf := gather_S50000x8_S800000x1_S800000x8_1_0_n_n_0_1_18_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x1_S50x1_1_0_0_1_n_n : DotDims S50x64 S64x1 S50x1 where
  lhsContracting := [1]
  rhsContracting := [0]
  lhsNonContracting := [0]
  rhsNonContracting := [1]
  lhsBatch := []
  rhsBatch := []
  wf := dot_S50x64_S64x1_S50x1_1_0_0_1_n_n_wf

abbrev win0_0 : Pipeline.Window sig grid0 :=
  Pipeline.Window.ofSpec (Memref.whole main_v43) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v48_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v59) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v64_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v64_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v75) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v80_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v91) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v92) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v93) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v94) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v96_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v107) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v108) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v110) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112_0) S2000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v112_1) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S800000 : Shape := ⟨1, ![800000]⟩
abbrev S50000 : Shape := ⟨1, ![50000]⟩
abbrev S8x128 : Shape := ⟨2, ![8, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S800000x1 : Shape := ⟨2, ![800000, 1]⟩
abbrev S50000x1 : Shape := ⟨2, ![50000, 1]⟩
abbrev S50000x8 : Shape := ⟨2, ![50000, 8]⟩
abbrev S800000x8 : Shape := ⟨2, ![800000, 8]⟩
abbrev S50000x128 : Shape := ⟨2, ![50000, 128]⟩
abbrev S1x128 : Shape := ⟨2, ![1, 128]⟩
abbrev S800000x128 : Shape := ⟨2, ![800000, 128]⟩
abbrev S50 : Shape := ⟨1, ![50]⟩
abbrev S50x128 : Shape := ⟨2, ![50, 128]⟩
abbrev S50x1 : Shape := ⟨2, ![50, 1]⟩
abbrev S50x64 : Shape := ⟨2, ![50, 64]⟩
abbrev S1x64 : Shape := ⟨2, ![1, 64]⟩
abbrev S1x1 : Shape := ⟨2, ![1, 1]⟩

abbrev nBuf : Space → Nat
  | .hbm => 220
  | .vmem => 0
  | .smem => 0
  | _ => 0

abbrev hbmTy0_0 (i : Nat) : BufTy := match i % 128 with
  | 0 => ⟨S800000, .i32⟩
  | 1 => ⟨S800000, .i32⟩
  | 2 => ⟨S50000, .i32⟩
  | 3 => ⟨S8x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S800000x1, .i32⟩
  | 26 => ⟨S50000, .f32⟩
  | 27 => ⟨S50000x1, .f32⟩
  | 28 => ⟨S_, .f32⟩
  | 29 => ⟨S50000, .f32⟩
  | 30 => ⟨S50000, .i1⟩
  | 31 => ⟨S50000, .f32⟩
  | 32 => ⟨S50000x1, .f32⟩
  | 33 => ⟨S_, .f32⟩
  | 34 => ⟨S50000x1, .f32⟩
  | 35 => ⟨S50000x1, .f32⟩
  | 36 => ⟨S_, .f32⟩
  | 37 => ⟨S50000, .f32⟩
  | 38 => ⟨S50000, .i1⟩
  | 39 => ⟨S50000, .f32⟩
  | 40 => ⟨S50000x1, .f32⟩
  | 41 => ⟨S50000x1, .f32⟩
  | 42 => ⟨S50000x1, .f32⟩
  | 43 => ⟨S50000x1, .f32⟩
  | 44 => ⟨S50000x1, .f32⟩
  | 45 => ⟨S50000x8, .f32⟩
  | 46 => ⟨S_, .f32⟩
  | 47 => ⟨S50000, .f32⟩
  | 48 => ⟨S50000, .f32⟩
  | 49 => ⟨S_, .f32⟩
  | 50 => ⟨S50000, .f32⟩
  | 51 => ⟨S50000, .f32⟩
  | 52 => ⟨S_, .f32⟩
  | 53 => ⟨S50000, .f32⟩
  | 54 => ⟨S50000, .f32⟩
  | 55 => ⟨S_, .f32⟩
  | 56 => ⟨S50000, .f32⟩
  | 57 => ⟨S50000, .f32⟩
  | 58 => ⟨S50000x1, .f32⟩
  | 59 => ⟨S50000x8, .f32⟩
  | 60 => ⟨S50000x8, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x8, .f32⟩
  | 70 => ⟨S_, .f32⟩
  | 71 => ⟨S50000x8, .f32⟩
  | 72 => ⟨S800000x1, .i32⟩
  | 73 => ⟨S50000x8, .f32⟩
  | 74 => ⟨S50000x1, .f32⟩
  | 75 => ⟨S50000x8, .f32⟩
  | 76 => ⟨S50000x8, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x1, .f32⟩
  | 85 => ⟨S50000x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x1, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x1, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x1, .f32⟩
  | 127 => ⟨S50000x128, .f32⟩
  | _ => ⟨S800000, .i32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x1, .f32⟩
  | 9 => ⟨S50000x128, .f32⟩
  | 10 => ⟨S50000x128, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x1, .f32⟩
  | 25 => ⟨S50000x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x1, .f32⟩
  | 35 => ⟨S50000x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x1, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S_, .f32⟩
  | 61 => ⟨S50000, .f32⟩
  | 62 => ⟨S_, .f32⟩
  | 63 => ⟨S50, .f32⟩
  | 64 => ⟨S50000x1, .i32⟩
  | 65 => ⟨S50, .f32⟩
  | 66 => ⟨S_, .f32⟩
  | 67 => ⟨S50x128, .f32⟩
  | 68 => ⟨S50000x1, .i32⟩
  | 69 => ⟨S50x128, .f32⟩
  | 70 => ⟨S50x1, .f32⟩
  | 71 => ⟨S50x128, .f32⟩
  | 72 => ⟨S50x128, .f32⟩
  | 73 => ⟨S50x64, .f32⟩
  | 74 => ⟨S1x64, .f32⟩
  | 75 => ⟨S50x64, .f32⟩
  | 76 => ⟨S50x64, .f32⟩
  | 77 => ⟨S_, .f32⟩
  | 78 => ⟨S50x64, .f32⟩
  | 79 => ⟨S50x64, .f32⟩
  | 80 => ⟨S50x1, .f32⟩
  | 81 => ⟨S1x1, .f32⟩
  | 82 => ⟨S50x1, .f32⟩
  | 83 => ⟨S50x1, .f32⟩
  | 84 => ⟨S50x1, .f32⟩
  | 85 => ⟨S50x1, .f32⟩
  | 86 => ⟨S_, .f32⟩
  | 87 => ⟨S50x1, .f32⟩
  | 88 => ⟨S50x1, .f32⟩
  | 89 => ⟨S_, .f32⟩
  | 90 => ⟨S50x1, .f32⟩
  | 91 => ⟨S50x1, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_cst_7 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call0_cst : Ref sig .tc := ⟨.hbm, 81, rfl⟩
abbrev main_call0_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_11 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call1_cst : Ref sig .tc := ⟨.hbm, 107, rfl⟩
abbrev main_call1_v0 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_16 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call2_cst : Ref sig .tc := ⟨.hbm, 133, rfl⟩
abbrev main_call2_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_17 : Ref sig .tc := ⟨.hbm, 139, rfl⟩
abbrev main_v97 : Ref sig .tc := ⟨.hbm, 140, rfl⟩
abbrev main_v98 : Ref sig .tc := ⟨.hbm, 141, rfl⟩
abbrev main_c_18 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_19 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_call3_cst : Ref sig .tc := ⟨.hbm, 159, rfl⟩
abbrev main_call3_v0 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_20 : Ref sig .tc := ⟨.hbm, 165, rfl⟩
abbrev main_v118 : Ref sig .tc := ⟨.hbm, 166, rfl⟩
abbrev main_v119 : Ref sig .tc := ⟨.hbm, 167, rfl⟩
abbrev main_c_21 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_22 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_call4_cst : Ref sig .tc := ⟨.hbm, 185, rfl⟩
abbrev main_call4_v0 : Ref sig .tc := ⟨.hbm, 186, rfl⟩
abbrev main_v135 : Ref sig .tc := ⟨.hbm, 187, rfl⟩
abbrev main_cst_23 : Ref sig .tc := ⟨.hbm, 188, rfl⟩
abbrev main_v136 : Ref sig .tc := ⟨.hbm, 189, rfl⟩
abbrev main_cst_24 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_25 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call5_cst : Ref sig .tc := ⟨.hbm, 205, rfl⟩
abbrev main_call5_v0 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_26 : Ref sig .tc := ⟨.hbm, 214, rfl⟩
abbrev main_v157 : Ref sig .tc := ⟨.hbm, 215, rfl⟩
abbrev main_v158 : Ref sig .tc := ⟨.hbm, 216, rfl⟩
abbrev main_cst_27 : Ref sig .tc := ⟨.hbm, 217, rfl⟩
abbrev main_v159 : Ref sig .tc := ⟨.hbm, 218, rfl⟩
abbrev main_v160 : Ref sig .tc := ⟨.hbm, 219, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  concatenates_S50000x1_S50000x1_S50000x1_S50000x1_S50000x1_S50000x1_S50000x1_S50000x1_S50000x8_d1 : Shape.Concatenates [S50000x1, S50000x1, S50000x1, S50000x1, S50000x1, S50000x1, S50000x1, S50000x1] S50000x8 1
  bcast_S50000x1_S50000x8_0_1 : S50000x1.BroadcastsInDim S50000x8 (![0, 1] : Fin 2 → Fin S50000x8.rank)
  bcast_S_S50000x8 : S_.BroadcastsInDim S50000x8 (![] : Fin 0 → Fin S50000x8.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S50 : S_.BroadcastsInDim S50 (![] : Fin 0 → Fin S50.rank)
  bcast_S_S50x128 : S_.BroadcastsInDim S50x128 (![] : Fin 0 → Fin S50x128.rank)
  bcast_S50_S50x1_0 : S50.BroadcastsInDim S50x1 (![0] : Fin 1 → Fin S50x1.rank)
  bcast_S50x1_S50x128_0_1 : S50x1.BroadcastsInDim S50x128 (![0, 1] : Fin 2 → Fin S50x128.rank)
  bcast_S64_S1x64_1 : S64.BroadcastsInDim S1x64 (![1] : Fin 1 → Fin S1x64.rank)
  bcast_S1x64_S50x64_0_1 : S1x64.BroadcastsInDim S50x64 (![0, 1] : Fin 2 → Fin S50x64.rank)
  bcast_S_S50x64 : S_.BroadcastsInDim S50x64 (![] : Fin 0 → Fin S50x64.rank)
  bcast_S1_S1x1_1 : S1.BroadcastsInDim S1x1 (![1] : Fin 1 → Fin S1x1.rank)
  bcast_S1x1_S50x1_0_1 : S1x1.BroadcastsInDim S50x1 (![0, 1] : Fin 2 → Fin S50x1.rank)
  bcast_S_S50x1 : S_.BroadcastsInDim S50x1 (![] : Fin 0 → Fin S50x1.rank)
  scatter_S50000_S800000x1_S800000_n_0_0_1_wf : ScatterDims.WF S50000 S800000x1 S800000 [] [0] [0] 1
  gather_S50000x8_S800000x1_S800000x8_1_0_n_n_0_1_18_wf : GatherDims.WF S50000x8 S800000x1 S800000x8 [1] [0] [] [0] [] 1 ![1, 8]
  scatter_S50000x8_S800000x1_S800000x8_1_0_0_1_wf : ScatterDims.WF S50000x8 S800000x1 S800000x8 [1] [0] [0] 1
  dot_S50000x8_S8x128_S50000x128_1_0_0_1_n_n_wf : DotDims.WF S50000x8 S8x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S50_S50000x1_S50000_n_0_0_1_wf : ScatterDims.WF S50 S50000x1 S50000 [] [0] [0] 1
  scatter_S50x128_S50000x1_S50000x128_1_0_0_1_wf : ScatterDims.WF S50x128 S50000x1 S50000x128 [1] [0] [0] 1
  dot_S50x128_S128x64_S50x64_1_0_0_1_n_n_wf : DotDims.WF S50x128 S128x64 S50x64 [1] [0] [0] [1] [] []
  dot_S50x64_S64x1_S50x1_1_0_0_1_n_n_wf : DotDims.WF S50x64 S64x1 S50x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x8_S800000x1_S800000x8_1_0_n_n_0_1_18 : GatherDims S50000x8 S800000x1 S800000x8 where
  offsetDims := [1]
  collapsedSliceDims := [0]
  operandBatchingDims := []
  startIndicesBatchingDims := []
  startIndexMap := [0]
  indexVectorDim := 1
  sliceSizes := ![1, 8]
  wf := gather_S50000x8_S800000x1_S800000x8_1_0_n_n_0_1_18_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf
def dot_S50000x8_S8x128_S50000x128_1_0_0_1_n_n : DotDims S50000x8 S8x128 S50000x128 where
  lhsContracting := [1]
  rhsContracting := [0]
  lhsNonContracting := [0]
  rhsNonContracting := [1]
  lhsBatch := []
  rhsBatch := []
  wf := dot_S50000x8_S8x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x1_S50x1_1_0_0_1_n_n : DotDims S50x64 S64x1 S50x1 where
  lhsContracting := [1]
  rhsContracting := [0]
  lhsNonContracting := [0]
  rhsNonContracting := [1]
  lhsBatch := []
  rhsBatch := []
  wf := dot_S50x64_S64x1_S50x1_1_0_0_1_n_n_wf

class Facts : Prop extends Facts₀ where

variable [Facts]
-- ==== Proof.Kernel.Conv0.lean ====
import proofs.«142413_j67980742361104_2_alg».proof.Proof.Gen.Kernel.Launch
import proofs.«142413_j67980742361104_2_alg».proof.Proof.Gen.Kernel.Skeleton
import proofs.«142413_j67980742361104_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 1: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.Kernel.Conv0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0 is in its staging buffer at every point, fetched there or kept from the point before (an operand
    whose block index does not move is fetched once). -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x8 := Rect.unit (s := S2000x8) ![0, 0] S2000x8.size inb_S2000x8_S2000x8_0_0
abbrev rN : Rect S2000x1 := Rect.unit (s := S2000x1) ![0, 0] S2000x1.size inb_S2000x1_S2000x1_0_0
abbrev rW : Rect S8x128 := Rect.unit (s := S8x128) ![0, 0] S8x128.size inb_S8x128_S8x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x8 .f32) (x1 : Vec F S2000x1 .f32) (x3 : Vec F S8x128 .bf16) (x4 : Vec F S1x128 .f32) : Vec F S2000x128 .f32 :=
  View.canon [⟨rO, k0_pay1 (View.ld x0 rA) (View.ld x1 rN) (View.ld x3 rW) (View.ld x4 rB)⟩]

/-- The rectified block scaled row by row by `n_src`, as the body's second whole-block store leaves it. -/
def outMsg (x0 : Vec F S2000x8 .f32) (x1 : Vec F S2000x1 .f32) (x2 : Vec F S2000x1 .f32) (x3 : Vec F S8x128 .bf16) (x4 : Vec F S1x128 .f32) : Vec F S2000x128 .bf16 :=
  View.canon [⟨rO, k0_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid0.Coords)
    (arg1 : Memref sig .tc .vmem S2000x8 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S8x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x8 .f32) (x1 : Vec F S2000x1 .f32) (x2 : Vec F S2000x1 .f32) (x3 : Vec F S8x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc0__dense_conv_kernel i arg1 harg1 arg2 harg2 arg3 harg3 arg4 harg4 arg5 harg5 arg6 harg6 arg7 harg7) K := by
  simp only [cc0__dense_conv_kernel_eq_skeleton]; unfold cc0__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outRelu (iblk V c 0 t) (iblk V c 1 t) (iblk V c 3 t) (iblk V c 4 t) := by dsimp only [dat]
theorem after_6 (c : Dev nD) (t : Fin cfg0.N) : (dat V c).after 6 t = outMsg (iblk V c 0 t) (iblk V c 1 t) (iblk V c 2 t) (iblk V c 3 t) (iblk V c 4 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d

/-! ## The body at a generic grid point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the input buffers hold their blocks, so the body's run applies; the launch's invariant
    passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W0, bigSep_W0]
  exact sound_body V c t

end Cert.Kernel.Conv0

end
-- ==== Proof.Kernel.Conv1.lean ====
import proofs.«142413_j67980742361104_2_alg».proof.Proof.Gen.Kernel.Launch
import proofs.«142413_j67980742361104_2_alg».proof.Proof.Gen.Kernel.Skeleton
import proofs.«142413_j67980742361104_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 2: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.Kernel.Conv1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0 is in its staging buffer at every point, fetched there or kept from the point before (an operand
    whose block index does not move is fetched once). -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k1_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k1_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid1.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc1__dense_conv_kernel i arg1 harg1 arg2 harg2 arg3 harg3 arg4 harg4 arg5 harg5 arg6 harg6 arg7 harg7) K := by
  simp only [cc1__dense_conv_kernel_eq_skeleton]; unfold cc1__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outRelu (iblk V c 0 t) (iblk V c 1 t) (iblk V c 3 t) (iblk V c 4 t) := by dsimp only [dat]
theorem after_6 (c : Dev nD) (t : Fin cfg1.N) : (dat V c).after 6 t = outMsg (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

/-! ## The body at a generic grid point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the input buffers hold their blocks, so the body's run applies; the launch's invariant
    passes through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W1, bigSep_W1]
  exact sound_body V c t

end Cert.Kernel.Conv1

end
-- ==== Proof.Kernel.Conv2.lean ====
import proofs.«142413_j67980742361104_2_alg».proof.Proof.Gen.Kernel.Launch
import proofs.«142413_j67980742361104_2_alg».proof.Proof.Gen.Kernel.Skeleton
import proofs.«142413_j67980742361104_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 3: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.Kernel.Conv2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input 0 is in its staging buffer at every point, fetched there or kept from the point before (an operand
    whose block index does not move is fetched once). -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k2_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k2_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid2.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc2__dense_conv_kernel i arg1 harg1 arg2 harg2 arg3 harg3 arg4 harg4 arg5 harg5 arg6 harg6 arg7 harg7) K := by
  simp only [cc2__dense_conv_kernel_eq_skeleton]; unfold cc2__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outRelu (iblk V c 0 t) (iblk V c 1 t) (iblk V c 3 t) (iblk V c 4 t) := by dsimp only [dat]
theorem after_6 (c : Dev nD) (t : Fin cfg2.N) : (dat V c).after 6 t = outMsg (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d

/-! ## The body at a generic grid point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the input buffers hold their blocks, so the body's run applies; the launch's invariant
    passes through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W2, bigSep_W2]
  exact sound_body V c t

end Cert.Kernel.Conv2

end
-- ==== Proof.Kernel.Conv3.lean ====
import proofs.«142413_j67980742361104_2_alg».proof.Proof.Gen.Kernel.Launch
import proofs.«142413_j67980742361104_2_alg».proof.Proof.Gen.Kernel.Skeleton
import proofs.«142413_j67980742361104_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 4: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.Kernel.Conv3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input 0 is in its staging buffer at every point, fetched there or kept from the point before (an operand
    whose block index does not move is fetched once). -/
theorem before_of_0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k3_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k3_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid3.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc3__dense_conv_kernel i arg1 harg1 arg2 harg2 arg3 harg3 arg4 harg4 arg5 harg5 arg6 harg6 arg7 harg7) K := by
  simp only [cc3__dense_conv_kernel_eq_skeleton]; unfold cc3__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = outRelu (iblk V c 0 t) (iblk V c 1 t) (iblk V c 3 t) (iblk V c 4 t) := by dsimp only [dat]
theorem after_6 (c : Dev nD) (t : Fin cfg3.N) : (dat V c).after 6 t = outMsg (iblk V c 0 t) (iblk V c 1 t) (iblk V c 2 t) (iblk V c 3 t) (iblk V c 4 t) := by dsimp only [dat]

theorem before_0 (c : Dev nD) (t : Fin cfg3.N) (d) : (dat V c).before 0 t d = iblk V c 0 t :=
  before_of_0 V (dat V c) (A_eq V c 0) (after_0 V c) t d
theorem before_1 (c : Dev nD) (t : Fin cfg3.N) (d) : (dat V c).before 1 t d = iblk V c 1 t :=
  before_of_1 V (dat V c) (A_eq V c 1) (after_1 V c) t d
theorem before_2 (c : Dev nD) (t : Fin cfg3.N) (d) : (dat V c).before 2 t d = iblk V c 2 t :=
  before_of_2 V (dat V c) (A_eq V c 2) (after_2 V c) t d
theorem before_3 (c : Dev nD) (t : Fin cfg3.N) (d) : (dat V c).before 3 t d = iblk V c 3 t :=
  before_of_3 V (dat V c) (A_eq V c 3) (after_3 V c) t d
theorem before_4 (c : Dev nD) (t : Fin cfg3.N) (d) : (dat V c).before 4 t d = iblk V c 4 t :=
  before_of_4 V (dat V c) (A_eq V c 4) (after_4 V c) t d

/-! ## The body at a generic grid point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

/-- The body at any point: the input buffers hold their blocks, so the body's run applies; the launch's invariant
    passes through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W3, bigSep_W3]
  exact sound_body V c t

end Cert.Kernel.Conv3

end
-- ==== Proof.Kernel.Conv4.lean ====
import proofs.«142413_j67980742361104_2_alg».proof.Proof.Gen.Kernel.Launch
import proofs.«142413_j67980742361104_2_alg».proof.Proof.Gen.Kernel.Skeleton
import proofs.«142413_j67980742361104_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 5: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.Kernel.Conv4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input 0 is in its staging buffer at every point, fetched there or kept from the point before (an operand
    whose block index does not move is fetched once). -/
theorem before_of_0 {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k4_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k4_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid4.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc4__dense_conv_kernel i arg1 harg1 arg2 harg2 arg3 harg3 arg4 harg4 arg5 harg5 arg6 harg6 arg7 harg7) K := by
  simp only [cc4__dense_conv_kernel_eq_skeleton]; unfold cc4__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec4 c
  q _ := fullShare
  owed _ := 0

theorem A_eq (c : Dev nD) (w : Fin cfg4.W) : (dat V c).A w = V c (Pipeline.arrRef spec4 w) := by
  dsimp only [dat]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = iblk V c 4 t := by dsimp only [dat]
theorem after_5 (c : Dev nD) (t : Fin cfg4.N) : (dat V c).after 5 t = outRelu (iblk V c 0 t) (iblk V c 1 t) (iblk V c 3 t) (iblk V c 4 t) := by dsimp only [dat]
theorem after_6 (c : Dev nD) (t : Fin cfg4.N) : (dat V c).after 6 t = outMsg (iblk V c 0 t) (iblk V c 1 t) (iblk V c 2 t) (iblk V c 3 t) (iblk V c 4 t) := by dsimp only [dat]

theorem before_0 (c : Dev nD) (t : Fin cfg4.N) (d) : (dat V c).before 0 t d = iblk V c 0 t :=
  before_of_0 V (dat V c) (A_eq V c 0) (after_0 V c) t d
theorem before_1 (c : Dev nD) (t : Fin cfg4.N) (d) : (dat V c).before 1 t d = iblk V c 1 t :=
  before_of_1 V (dat V c) (A_eq V c 1) (after_1 V c) t d
theorem before_2 (c : Dev nD) (t : Fin cfg4.N) (d) : (dat V c).before 2 t d = iblk V c 2 t :=
  before_of_2 V (dat V c) (A_eq V c 2) (after_2 V c) t d
theorem before_3 (c : Dev nD) (t : Fin cfg4.N) (d) : (dat V c).before 3 t d = iblk V c 3 t :=
  before_of_3 V (dat V c) (A_eq V c 3) (after_3 V c) t d
theorem before_4 (c : Dev nD) (t : Fin cfg4.N) (d) : (dat V c).before 4 t d = iblk V c 4 t :=
  before_of_4 V (dat V c) (A_eq V c 4) (after_4 V c) t d

/-! ## The body at a generic grid point -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t))

/-- The body at any point: the input buffers hold their blocks, so the body's run applies; the launch's invariant
    passes through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W4, bigSep_W4]
  exact sound_body V c t

end Cert.Kernel.Conv4

end
-- ==== Proof.Kernel.Chain.lean ====
import proofs.«142413_j67980742361104_2_alg».proof.Proof.Gen.Kernel.Regions
import proofs.«142413_j67980742361104_2_alg».proof.Proof.Kernel.Conv0
import proofs.«142413_j67980742361104_2_alg».proof.Proof.Kernel.Conv1
import proofs.«142413_j67980742361104_2_alg».proof.Proof.Kernel.Conv2
import proofs.«142413_j67980742361104_2_alg».proof.Proof.Kernel.Conv3
import proofs.«142413_j67980742361104_2_alg».proof.Proof.Kernel.Conv4

/-!
# The whole program as a chain of host stretches and five dense-step launches

The program alternates stretches of host operations (degree counts, the gather of scaled features along edges and
their scatter-add into nodes, casts) with the five launches of the dense step. This module names the contents of
every buffer at each boundary of that chain — `W0` at launch, `W13` at the end — and proves that every fair
execution terminates without fault in a state whose buffers hold `W13`. At a launch's exit its seven operand arrays
hold what its 25 grid points wrote back (the five inputs unchanged), every other buffer what it held at entry.
-/

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the exit of launch 0: its operand arrays at what the launch leaves, every other buffer as at entry. -/
def W2 (c : Dev nD) : Valuation τ sig (Elt F) :=
  Pipeline.withArrays spec0 c (W1 m ρ c) fun w => (Conv0.dat (V1 m ρ) c).arrAt w cfg0.N
theorem W2_arr (c : Dev nD) (w : Fin cfg0.W) :
    W2 m ρ c (Proc.devRef .tc (Pipeline.arrRef spec0 w)) = (Conv0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Conv0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the exit of launch 1: its operand arrays at what the launch leaves, every other buffer as at entry. -/
def W4 (c : Dev nD) : Valuation τ sig (Elt F) :=
  Pipeline.withArrays spec1 c (W3 m ρ c) fun w => (Conv1.dat (V3 m ρ) c).arrAt w cfg1.N
theorem W4_arr (c : Dev nD) (w : Fin cfg1.W) :
    W4 m ρ c (Proc.devRef .tc (Pipeline.arrRef spec1 w)) = (Conv1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Conv1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the exit of launch 2: its operand arrays at what the launch leaves, every other buffer as at entry. -/
def W6 (c : Dev nD) : Valuation τ sig (Elt F) :=
  Pipeline.withArrays spec2 c (W5 m ρ c) fun w => (Conv2.dat (V5 m ρ) c).arrAt w cfg2.N
theorem W6_arr (c : Dev nD) (w : Fin cfg2.W) :
    W6 m ρ c (Proc.devRef .tc (Pipeline.arrRef spec2 w)) = (Conv2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Conv2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At the exit of launch 3: its operand arrays at what the launch leaves, every other buffer as at entry. -/
def W8 (c : Dev nD) : Valuation τ sig (Elt F) :=
  Pipeline.withArrays spec3 c (W7 m ρ c) fun w => (Conv3.dat (V7 m ρ) c).arrAt w cfg3.N
theorem W8_arr (c : Dev nD) (w : Fin cfg3.W) :
    W8 m ρ c (Proc.devRef .tc (Pipeline.arrRef spec3 w)) = (Conv3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (Conv3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At the exit of launch 4: its operand arrays at what the launch leaves, every other buffer as at entry. -/
def W10 (c : Dev nD) : Valuation τ sig (Elt F) :=
  Pipeline.withArrays spec4 c (W9 m ρ c) fun w => (Conv4.dat (V9 m ρ) c).arrAt w cfg4.N
theorem W10_arr (c : Dev nD) (w : Fin cfg4.W) :
    W10 m ρ c (Proc.devRef .tc (Pipeline.arrRef spec4 w)) = (Conv4.dat (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (Conv4.dat (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After the host stretch `hostOps5_1`. -/
abbrev W12 : Dev nD → Valuation τ sig (Elt F) := fun c => StableHlo.after hostOps5_1 (W11 m ρ c)
abbrev V12 : (c : Dev nD) → (b : Ref sig .tc) → Buf (Elt F) ((c : Thread nD τ).loc b) := fun c b => W12 m ρ c b
/-- After the host stretch `hostOps5_2`. -/
abbrev W13 : Dev nD → Valuation τ sig (Elt F) := fun c => StableHlo.after hostOps5_2 (W12 m ρ c)
abbrev V13 : (c : Dev nD) → (b : Ref sig .tc) → Buf (Elt F) ((c : Thread nD τ).loc b) := fun c b => W13 m ρ c b

/-! ## The proof data of the five launches, and what rides along -/

/-- Each launch's proof data at its entry contents. -/
def pdats : (p : Fin 5) → (c : Dev nD) → Dat τ (Elt F) Unit ℕ (UR sig nD τ) ℕ (Pipeline.pin (pcfgs (F := F)) adm p) c
  | ⟨0, _⟩ => fun c => Conv0.dat (V1 m ρ) c
  | ⟨1, _⟩ => fun c => Conv1.dat (V3 m ρ) c
  | ⟨2, _⟩ => fun c => Conv2.dat (V5 m ρ) c
  | ⟨3, _⟩ => fun c => Conv3.dat (V7 m ρ) c
  | ⟨4, _⟩ => fun c => Conv4.dat (V9 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The launches as segments -/

set_option backward.isDefEq.respectTransparency.types false in
/-- Launch 0: entered with every unscoped buffer at `W1`, left with them at `W2`. Its operand arrays are split out
    of the buffers at entry and put back at exit; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Conv0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered with every unscoped buffer at `W3`, left with them at `W4`. Its operand arrays are split out
    of the buffers at entry and put back at exit; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Conv1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered with every unscoped buffer at `W5`, left with them at `W6`. Its operand arrays are split out
    of the buffers at entry and put back at exit; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Conv2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered with every unscoped buffer at `W7`, left with them at `W8`. Its operand arrays are split out
    of the buffers at entry and put back at exit; nothing is owed and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Conv3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered with every unscoped buffer at `W9`, left with them at `W10`. Its operand arrays are split out
    of the buffers at entry and put back at exit; nothing is owed and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Conv4.body_obligation (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .host (hseg hostOps5_1 hostOps5_1_sub hostOps5_1_fresh (W11 m ρ)),
    .host (hseg hostOps5_2 hostOps5_2_sub hostOps5_2_fresh (W12 m ρ)) ]

/-- The program is the run of these segments in order. -/
theorem main_run (c : Dev nD) : main (F := F) c = Pipeline.Seg.run (segs m ρ) := (main_chain c).trans (by chain_rfl)

set_option backward.isDefEq.respectTransparency.types false in
/-- Every fair execution from memory `m` with all counters at zero terminates without fault, and the final memory
    holds `W13` at every unscoped buffer of every core; any property `Q` of final states that follows from that holds. -/
theorem run {Q : PUnit × MemSt nD τ sig (Elt F) → Prop}
    (hQ : ∀ s : MemSt nD τ sig (Elt F), (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

end Cert.Kernel.Chain

end
-- ==== Proof.Kernel.Frame.lean ====
import proofs.«142413_j67980742361104_2_alg».proof.Proof.Kernel.Chain

/-!
# The argument arrays end as launched

No host operation writes an argument array and no launch has one among its operand arrays, so walking the chain of
boundary contents back from the end to the launch leaves each argument array untouched.
-/

set_option maxRecDepth 16384

noncomputable section

namespace Cert.Kernel.Chain

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ) (ρ : Dev nD → PrngReg)

/-- A buffer that no host stretch writes and that is no launch's operand array holds at the end what it held at launch. -/
theorem W13_keep (c : Dev nD) (b : Ref sig .tc)
    (h_hostOps0 : b ∉ hostOps0_W) (h_hostOps1 : b ∉ hostOps1_W) (h_hostOps2 : b ∉ hostOps2_W) (h_hostOps3 : b ∉ hostOps3_W) (h_hostOps4 : b ∉ hostOps4_W) (h_hostOps5 : b ∉ hostOps5_W) (h_hostOps5_1 : b ∉ hostOps5_1_W) (h_hostOps5_2 : b ∉ hostOps5_2_W)
    (r0 : ∀ w, Pipeline.arrRef spec0 w ≠ b) (r1 : ∀ w, Pipeline.arrRef spec1 w ≠ b) (r2 : ∀ w, Pipeline.arrRef spec2 w ≠ b) (r3 : ∀ w, Pipeline.arrRef spec3 w ≠ b) (r4 : ∀ w, Pipeline.arrRef spec4 w ≠ b) :
    W13 m ρ c (Proc.devRef .tc b) = m ((c : Thread nD τ).loc b) :=
  calc W13 m ρ c (Proc.devRef .tc b)
    _ = W12 m ρ c (Proc.devRef .tc b) := StableHlo.after_of_writes_sub hostOps5_2 _ hostOps5_2_writes h_hostOps5_2
    _ = W11 m ρ c (Proc.devRef .tc b) := StableHlo.after_of_writes_sub hostOps5_1 _ hostOps5_1_writes h_hostOps5_1
    _ = W10 m ρ c (Proc.devRef .tc b) := StableHlo.after_of_writes_sub hostOps5 _ hostOps5_writes h_hostOps5
    _ = W9 m ρ c (Proc.devRef .tc b) := W10_of_ne m ρ c b r4
    _ = W8 m ρ c (Proc.devRef .tc b) := StableHlo.after_of_writes_sub hostOps4 _ hostOps4_writes h_hostOps4
    _ = W7 m ρ c (Proc.devRef .tc b) := W8_of_ne m ρ c b r3
    _ = W6 m ρ c (Proc.devRef .tc b) := StableHlo.after_of_writes_sub hostOps3 _ hostOps3_writes h_hostOps3
    _ = W5 m ρ c (Proc.devRef .tc b) := W6_of_ne m ρ c b r2
    _ = W4 m ρ c (Proc.devRef .tc b) := StableHlo.after_of_writes_sub hostOps2 _ hostOps2_writes h_hostOps2
    _ = W3 m ρ c (Proc.devRef .tc b) := W4_of_ne m ρ c b r1
    _ = W2 m ρ c (Proc.devRef .tc b) := StableHlo.after_of_writes_sub hostOps1 _ hostOps1_writes h_hostOps1
    _ = W1 m ρ c (Proc.devRef .tc b) := W2_of_ne m ρ c b r0
    _ = W0 m ρ c (Proc.devRef .tc b) := StableHlo.after_of_writes_sub hostOps0 _ hostOps0_writes h_hostOps0
    _ = m ((c : Thread nD τ).loc b) := rfl

local macro "dd" : term => `(by decide)

/-- Every fair execution terminates without fault with the seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run m ρ (fun s h c =>
    ⟨(h c _ (mem_uc main_arg0 (by decide))).trans (W13_keep m ρ c main_arg0 dd dd dd dd dd dd dd dd dd dd dd dd dd),
     (h c _ (mem_uc main_arg1 (by decide))).trans (W13_keep m ρ c main_arg1 dd dd dd dd dd dd dd dd dd dd dd dd dd),
     (h c _ (mem_uc main_arg2 (by decide))).trans (W13_keep m ρ c main_arg2 dd dd dd dd dd dd dd dd dd dd dd dd dd),
     (h c _ (mem_uc main_arg3 (by decide))).trans (W13_keep m ρ c main_arg3 dd dd dd dd dd dd dd dd dd dd dd dd dd),
     (h c _ (mem_uc main_arg4 (by decide))).trans (W13_keep m ρ c main_arg4 dd dd dd dd dd dd dd dd dd dd dd dd dd),
     (h c _ (mem_uc main_arg5 (by decide))).trans (W13_keep m ρ c main_arg5 dd dd dd dd dd dd dd dd dd dd dd dd dd),
     (h c _ (mem_uc main_arg6 (by decide))).trans (W13_keep m ρ c main_arg6 dd dd dd dd dd dd dd dd dd dd dd dd dd),
     (h c _ (mem_uc main_arg7 (by decide))).trans (W13_keep m ρ c main_arg7 dd dd dd dd dd dd dd dd dd dd dd dd dd),
     (h c _ (mem_uc main_arg8 (by decide))).trans (W13_keep m ρ c main_arg8 dd dd dd dd dd dd dd dd dd dd dd dd dd),
     (h c _ (mem_uc main_arg9 (by decide))).trans (W13_keep m ρ c main_arg9 dd dd dd dd dd dd dd dd dd dd dd dd dd),
     (h c _ (mem_uc main_arg10 (by decide))).trans (W13_keep m ρ c main_arg10 dd dd dd dd dd dd dd dd dd dd dd dd dd),
     (h c _ (mem_uc main_arg11 (by decide))).trans (W13_keep m ρ c main_arg11 dd dd dd dd dd dd dd dd dd dd dd dd dd),
     (h c _ (mem_uc main_arg12 (by decide))).trans (W13_keep m ρ c main_arg12 dd dd dd dd dd dd dd dd dd dd dd dd dd),
     (h c _ (mem_uc main_arg13 (by decide))).trans (W13_keep m ρ c main_arg13 dd dd dd dd dd dd dd dd dd dd dd dd dd),
     (h c _ (mem_uc main_arg14 (by decide))).trans (W13_keep m ρ c main_arg14 dd dd dd dd dd dd dd dd dd dd dd dd dd),
     (h c _ (mem_uc main_arg15 (by decide))).trans (W13_keep m ρ c main_arg15 dd dd dd dd dd dd dd dd dd dd dd dd dd),
     (h c _ (mem_uc main_arg16 (by decide))).trans (W13_keep m ρ c main_arg16 dd dd dd dd dd dd dd dd dd dd dd dd dd)⟩)

end Cert.Kernel.Chain

end
-- ==== Proof.KernelIdeal.Conv0.lean ====
import proofs.«142413_j67980742361104_2_alg».proof.Proof.Gen.KernelIdeal.Launch
import proofs.«142413_j67980742361104_2_alg».proof.Proof.Gen.KernelIdeal.Skeleton
import proofs.«142413_j67980742361104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 1: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.KernelIdeal.Conv0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0 is in its staging buffer at every point, fetched there or kept from the point before (an operand
    whose block index does not move is fetched once). -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x8 := Rect.unit (s := S2000x8) ![0, 0] S2000x8.size inb_S2000x8_S2000x8_0_0
abbrev rN : Rect S2000x1 := Rect.unit (s := S2000x1) ![0, 0] S2000x1.size inb_S2000x1_S2000x1_0_0
abbrev rW : Rect S8x128 := Rect.unit (s := S8x128) ![0, 0] S8x128.size inb_S8x128_S8x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x8 .f32) (x1 : Vec F S2000x1 .f32) (x3 : Vec F S8x128 .bf16) (x4 : Vec F S1x128 .f32) : Vec F S2000x128 .f32 :=
  View.canon [⟨rO, k0_pay1 (View.ld x0 rA) (View.ld x1 rN) (View.ld x3 rW) (View.ld x4 rB)⟩]

/-- The rectified block scaled row by row by `n_src`, as the body's second whole-block store leaves it. -/
def outMsg (x0 : Vec F S2000x8 .f32) (x1 : Vec F S2000x1 .f32) (x2 : Vec F S2000x1 .f32) (x3 : Vec F S8x128 .bf16) (x4 : Vec F S1x128 .f32) : Vec F S2000x128 .bf16 :=
  View.canon [⟨rO, k0_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid0.Coords)
    (arg1 : Memref sig .tc .vmem S2000x8 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S8x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x8 .f32) (x1 : Vec F S2000x1 .f32) (x2 : Vec F S2000x1 .f32) (x3 : Vec F S8x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc0__dense_conv_kernel i arg1 harg1 arg2 harg2 arg3 harg3 arg4 harg4 arg5 harg5 arg6 harg6 arg7 harg7) K := by
  simp only [cc0__dense_conv_kernel_eq_skeleton]; unfold cc0__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outRelu (iblk V c 0 t) (iblk V c 1 t) (iblk V c 3 t) (iblk V c 4 t) := by dsimp only [dat]
theorem after_6 (c : Dev nD) (t : Fin cfg0.N) : (dat V c).after 6 t = outMsg (iblk V c 0 t) (iblk V c 1 t) (iblk V c 2 t) (iblk V c 3 t) (iblk V c 4 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d
theorem before_4 (c : Dev nD) (t : Fin cfg0.N) (d) : (dat V c).before 4 t d = iblk V c 4 t :=
  before_of_4 V (dat V c) (A_eq V c 4) (after_4 V c) t d

/-! ## The body at a generic grid point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the input buffers hold their blocks, so the body's run applies; the launch's invariant
    passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W0, bigSep_W0]
  exact sound_body V c t

end Cert.KernelIdeal.Conv0

end
-- ==== Proof.KernelIdeal.Conv1.lean ====
import proofs.«142413_j67980742361104_2_alg».proof.Proof.Gen.KernelIdeal.Launch
import proofs.«142413_j67980742361104_2_alg».proof.Proof.Gen.KernelIdeal.Skeleton
import proofs.«142413_j67980742361104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 2: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.KernelIdeal.Conv1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0 is in its staging buffer at every point, fetched there or kept from the point before (an operand
    whose block index does not move is fetched once). -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k1_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k1_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid1.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc1__dense_conv_kernel i arg1 harg1 arg2 harg2 arg3 harg3 arg4 harg4 arg5 harg5 arg6 harg6 arg7 harg7) K := by
  simp only [cc1__dense_conv_kernel_eq_skeleton]; unfold cc1__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outRelu (iblk V c 0 t) (iblk V c 1 t) (iblk V c 3 t) (iblk V c 4 t) := by dsimp only [dat]
theorem after_6 (c : Dev nD) (t : Fin cfg1.N) : (dat V c).after 6 t = outMsg (iblk V c 0 t) (iblk V c 1 t) (iblk V c 2 t) (iblk V c 3 t) (iblk V c 4 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d

/-! ## The body at a generic grid point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the input buffers hold their blocks, so the body's run applies; the launch's invariant
    passes through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W1, bigSep_W1]
  exact sound_body V c t

end Cert.KernelIdeal.Conv1

end
-- ==== Proof.KernelIdeal.Conv2.lean ====
import proofs.«142413_j67980742361104_2_alg».proof.Proof.Gen.KernelIdeal.Launch
import proofs.«142413_j67980742361104_2_alg».proof.Proof.Gen.KernelIdeal.Skeleton
import proofs.«142413_j67980742361104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 3: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.KernelIdeal.Conv2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input 0 is in its staging buffer at every point, fetched there or kept from the point before (an operand
    whose block index does not move is fetched once). -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k2_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k2_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid2.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc2__dense_conv_kernel i arg1 harg1 arg2 harg2 arg3 harg3 arg4 harg4 arg5 harg5 arg6 harg6 arg7 harg7) K := by
  simp only [cc2__dense_conv_kernel_eq_skeleton]; unfold cc2__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = outRelu (iblk V c 0 t) (iblk V c 1 t) (iblk V c 3 t) (iblk V c 4 t) := by dsimp only [dat]
theorem after_6 (c : Dev nD) (t : Fin cfg2.N) : (dat V c).after 6 t = outMsg (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_of_0 V (dat V c) (A_eq V c 0) (after_0 V c) t d
theorem before_1 (c : Dev nD) (t : Fin cfg2.N) (d) : (dat V c).before 1 t d = iblk V c 1 t :=
  before_of_1 V (dat V c) (A_eq V c 1) (after_1 V c) t d
theorem before_2 (c : Dev nD) (t : Fin cfg2.N) (d) : (dat V c).before 2 t d = iblk V c 2 t :=
  before_of_2 V (dat V c) (A_eq V c 2) (after_2 V c) t d
theorem before_3 (c : Dev nD) (t : Fin cfg2.N) (d) : (dat V c).before 3 t d = iblk V c 3 t :=
  before_of_3 V (dat V c) (A_eq V c 3) (after_3 V c) t d
theorem before_4 (c : Dev nD) (t : Fin cfg2.N) (d) : (dat V c).before 4 t d = iblk V c 4 t :=
  before_of_4 V (dat V c) (A_eq V c 4) (after_4 V c) t d

/-! ## The body at a generic grid point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the input buffers hold their blocks, so the body's run applies; the launch's invariant
    passes through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W2, bigSep_W2]
  exact sound_body V c t

end Cert.KernelIdeal.Conv2

end
-- ==== Proof.KernelIdeal.Conv3.lean ====
import proofs.«142413_j67980742361104_2_alg».proof.Proof.Gen.KernelIdeal.Launch
import proofs.«142413_j67980742361104_2_alg».proof.Proof.Gen.KernelIdeal.Skeleton
import proofs.«142413_j67980742361104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 4: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.KernelIdeal.Conv3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input 0 is in its staging buffer at every point, fetched there or kept from the point before (an operand
    whose block index does not move is fetched once). -/
theorem before_of_0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k3_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k3_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid3.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc3__dense_conv_kernel i arg1 harg1 arg2 harg2 arg3 harg3 arg4 harg4 arg5 harg5 arg6 harg6 arg7 harg7) K := by
  simp only [cc3__dense_conv_kernel_eq_skeleton]; unfold cc3__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = outRelu (iblk V c 0 t) (iblk V c 1 t) (iblk V c 3 t) (iblk V c 4 t) := by dsimp only [dat]
theorem after_6 (c : Dev nD) (t : Fin cfg3.N) : (dat V c).after 6 t = outMsg (iblk V c 0 t) (iblk V c 1 t) (iblk V c 2 t) (iblk V c 3 t) (iblk V c 4 t) := by dsimp only [dat]

theorem before_0 (c : Dev nD) (t : Fin cfg3.N) (d) : (dat V c).before 0 t d = iblk V c 0 t :=
  before_of_0 V (dat V c) (A_eq V c 0) (after_0 V c) t d
theorem before_1 (c : Dev nD) (t : Fin cfg3.N) (d) : (dat V c).before 1 t d = iblk V c 1 t :=
  before_of_1 V (dat V c) (A_eq V c 1) (after_1 V c) t d
theorem before_2 (c : Dev nD) (t : Fin cfg3.N) (d) : (dat V c).before 2 t d = iblk V c 2 t :=
  before_of_2 V (dat V c) (A_eq V c 2) (after_2 V c) t d
theorem before_3 (c : Dev nD) (t : Fin cfg3.N) (d) : (dat V c).before 3 t d = iblk V c 3 t :=
  before_of_3 V (dat V c) (A_eq V c 3) (after_3 V c) t d
theorem before_4 (c : Dev nD) (t : Fin cfg3.N) (d) : (dat V c).before 4 t d = iblk V c 4 t :=
  before_of_4 V (dat V c) (A_eq V c 4) (after_4 V c) t d

/-! ## The body at a generic grid point -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t))

/-- The body at any point: the input buffers hold their blocks, so the body's run applies; the launch's invariant
    passes through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W3, bigSep_W3]
  exact sound_body V c t

end Cert.KernelIdeal.Conv3

end
-- ==== Proof.KernelIdeal.Conv4.lean ====
import proofs.«142413_j67980742361104_2_alg».proof.Proof.Gen.KernelIdeal.Launch
import proofs.«142413_j67980742361104_2_alg».proof.Proof.Gen.KernelIdeal.Skeleton
import proofs.«142413_j67980742361104_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Graph-convolution layer 5: one grid point of the dense step

The layer's dense step works on 25 row blocks of 2000 nodes. At a block it reads the aggregated features
(2000 × d_in), the two degree normalisations as columns (2000 × 1), the whole weight matrix (d_in × 128) and the
bias row (1 × 128), and writes two blocks of 2000 × 128: the rectified value
`max((agg · n_dst) · W + b, 0)` and that value scaled row by row by `n_src`.

This module states, for any contents `V` of the buffers when the layer is entered: the block of each operand at a
grid point, what one run of the body leaves in the two output blocks (as a function of the five input blocks),
that the body indeed runs to that state, and the resulting per-point obligation of the pipelined launch.
-/

set_option maxRecDepth 16384

noncomputable section

namespace Cert.KernelIdeal.Conv4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of operand `w` at grid point `t`: rows `2000·t … 2000·t + 1999` of a row-blocked operand, the whole
    array for the weights and the bias. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input 0 is in its staging buffer at every point, fetched there or kept from the point before (an operand
    whose block index does not move is fetched once). -/
theorem before_of_0 {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input 1 is in its staging buffer at every point, fetched there or kept from the point before (an operand
    whose block index does not move is fetched once). -/
theorem before_of_1 {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input 2 is in its staging buffer at every point, fetched there or kept from the point before (an operand
    whose block index does not move is fetched once). -/
theorem before_of_2 {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input 3 is in its staging buffer at every point, fetched there or kept from the point before (an operand
    whose block index does not move is fetched once). -/
theorem before_of_3 {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input 4 is in its staging buffer at every point, fetched there or kept from the point before (an operand
    whose block index does not move is fetched once). -/
theorem before_of_4 {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The whole-block rectangles the body reads and writes -/

abbrev rA : Rect S2000x128 := Rect.unit (s := S2000x128) ![0, 0] S2000x128.size inb_S2000x128_S2000x128_0_0
abbrev rN : Rect S2000x1 := Rect.unit (s := S2000x1) ![0, 0] S2000x1.size inb_S2000x1_S2000x1_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S2000x128 := Rect.unit (s := S2000x128) ![0, 0] S2000x128.size inb_S2000x128_S2000x128_0_0

/-- The rectified block `max((agg · n_dst) · W + b, 0)` as the body's one whole-block store leaves it. -/
def outRelu (x0 : Vec F S2000x128 .f32) (x1 : Vec F S2000x1 .f32) (x3 : Vec F S128x128 .bf16) (x4 : Vec F S1x128 .f32) : Vec F S2000x128 .f32 :=
  View.canon [⟨rO, k4_pay1 (View.ld x0 rA) (View.ld x1 rN) (View.ld x3 rW) (View.ld x4 rB)⟩]

/-- The rectified block scaled row by row by `n_src`, as the body's second whole-block store leaves it. -/
def outMsg (x0 : Vec F S2000x128 .f32) (x1 : Vec F S2000x1 .f32) (x2 : Vec F S2000x1 .f32) (x3 : Vec F S128x128 .bf16) (x4 : Vec F S1x128 .f32) : Vec F S2000x128 .bf16 :=
  View.canon [⟨rO, k4_pay2 (View.ld x0 rA) (View.ld x1 rN) (View.ld x3 rW) (View.ld x4 rB) (View.ld x2 rN)⟩]

/-- One whole-block store covers the block. -/
theorem cover_f32 (p0 : Vec F S2000x128 .f32) (y : S2000x128.Idx) :
    ∃ pc ∈ ([⟨rO, p0⟩] : List (View.Piece (Elt F) S2000x128 .f32)), y ∈ pc.1.set :=
  View.cover_of_tiled [⟨rO, p0⟩] S2000x128.size (by rfl) y
theorem cover_bf16 (p0 : Vec F S2000x128 .bf16) (y : S2000x128.Idx) :
    ∃ pc ∈ ([⟨rO, p0⟩] : List (View.Piece (Elt F) S2000x128 .bf16)), y ∈ pc.1.set :=
  View.cover_of_tiled [⟨rO, p0⟩] S2000x128.size (by rfl) y

set_option maxHeartbeats 1000000 in
/-- The body on whole staging buffers: the five inputs are read and kept, the two outputs end at `outRelu` and
    `outMsg` of the inputs, whatever they held before. -/
theorem sound_kernel (c : Dev nD) (E : Set ℕ) (i : grid4.Coords)
    (arg1 : Memref sig .tc .vmem S2000x128 .f32) (harg1 : arg1.IsWhole) (arg2 : Memref sig .tc .vmem S2000x1 .f32) (harg2 : arg2.IsWhole)
    (arg3 : Memref sig .tc .vmem S2000x1 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S2000x128 .f32) (harg6 : arg6.IsWhole)
    (arg7 : Memref sig .tc .vmem S2000x128 .bf16) (harg7 : arg7.IsWhole)
    (x0 : Vec F S2000x128 .f32) (x1 : Vec F S2000x1 .f32) (x2 : Vec F S2000x1 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outRelu x0 x1 x3 x4) ∗ owns (c : Thread nD τ) arg7 fullShare (outMsg x0 x1 x2 x3 x4)) -∗ K ⟨⟩))
      ⊢ wp frame (wpE (defs₀ (F := F)) Variants.none c none) E (cc4__dense_conv_kernel i arg1 harg1 arg2 harg2 arg3 harg3 arg4 harg4 arg5 harg5 arg6 harg6 arg7 harg7) K := by
  simp only [cc4__dense_conv_kernel_eq_skeleton]; unfold cc4__dense_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_f32 _)
  iexists _; isplitr
  swap; · iexact H6
  ipureintro
  exact View.read_writes_eq_canon _ _ _ (cover_bf16 _)

/-! ## The launch's proof data -/

/-- On core `c`: the arrays as the layer finds them; after the body at point `t` every input buffer still holds its
    block and the two output buffers hold `outRelu` and `outMsg` of the input blocks. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outRelu (iblk V c 0 t) (iblk V c 1 t) (iblk V c 3 t) (iblk V c 4 t)
    | ⟨6, _⟩ => outMsg (iblk V c 0 t) (iblk V c 1 t) (iblk V c 2 t) (iblk V c 3 t) (iblk V c 4 t)
  Φ _ := Pipeline.ΦA spec4 c
  q _ := fullShare
  owed _ := 0

theorem A_eq (c : Dev nD) (w : Fin cfg4.W) : (dat V c).A w = V c (Pipeline.arrRef spec4 w) := by
  dsimp only [dat]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t = iblk V c 4 t := by dsimp only [dat]
theorem after_5 (c : Dev nD) (t : Fin cfg4.N) : (dat V c).after 5 t = outRelu (iblk V c 0 t) (iblk V c 1 t) (iblk V c 3 t) (iblk V c 4 t) := by dsimp only [dat]
theorem after_6 (c : Dev nD) (t : Fin cfg4.N) : (dat V c).after 6 t = outMsg (iblk V c 0 t) (iblk V c 1 t) (iblk V c 2 t) (iblk V c 3 t) (iblk V c 4 t) := by dsimp only [dat]

theorem before_0 (c : Dev nD) (t : Fin cfg4.N) (d) : (dat V c).before 0 t d = iblk V c 0 t :=
  before_of_0 V (dat V c) (A_eq V c 0) (after_0 V c) t d
theorem before_1 (c : Dev nD) (t : Fin cfg4.N) (d) : (dat V c).before 1 t d = iblk V c 1 t :=
  before_of_1 V (dat V c) (A_eq V c 1) (after_1 V c) t d
theorem before_2 (c : Dev nD) (t : Fin cfg4.N) (d) : (dat V c).before 2 t d = iblk V c 2 t :=
  before_of_2 V (dat V c) (A_eq V c 2) (after_2 V c) t d
theorem before_3 (c : Dev nD) (t : Fin cfg4.N) (d) : (dat V c).before 3 t d = iblk V c 3 t :=
  before_of_3 V (dat V c) (A_eq V c 3) (after_3 V c) t d
theorem before_4 (c : Dev nD) (t : Fin cfg4.N) (d) : (dat V c).before 4 t d = iblk V c 4 t :=
  before_of_4 V (dat V c) (A_eq V c 4) (after_4 V c) t d

/-! ## The body at a generic grid point -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t))

/-- The body at any point: the input buffers hold their blocks, so the body's run applies; the launch's invariant
    passes through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's per-point obligation. -/
theorem body_obligation (c : Dev nD) : BodyObligation (dat (F := F) V c) (defs₀ (F := F)) Variants.none () Set.univ := fun t => by
  rw [bigSep_W4, bigSep_W4]
  exact sound_body V c t

end Cert.KernelIdeal.Conv4

end
-- ==== Proof.KernelIdeal.Chain.lean ====
import proofs.«142413_j67980742361104_2_alg».proof.Proof.Gen.KernelIdeal.Regions
import proofs.«142413_j67980742361104_2_alg».proof.Proof.KernelIdeal.Conv0
import proofs.«142413_j67980742361104_2_alg».proof.Proof.KernelIdeal.Conv1
import proofs.«142413_j67980742361104_2_alg».proof.Proof.KernelIdeal.Conv2
import proofs.«142413_j67980742361104_2_alg».proof.Proof.KernelIdeal.Conv3
import proofs.«142413_j67980742361104_2_alg».proof.Proof.KernelIdeal.Conv4

/-!
# The whole program as a chain of host stretches and five dense-step launches

The program alternates stretches of host operations (degree counts, the gather of scaled features along edges and
their scatter-add into nodes, casts) with the five launches of the dense step. This module names the contents of
every buffer at each boundary of that chain — `W0` at launch, `W13` at the end — and proves that every fair
execution terminates without fault in a state whose buffers hold `W13`. At a launch's exit its seven operand arrays
hold what its 25 grid points wrote back (the five inputs unchanged), every other buffer what it held at entry.
-/

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the exit of launch 0: its operand arrays at what the launch leaves, every other buffer as at entry. -/
def W2 (c : Dev nD) : Valuation τ sig (Elt F) :=
  Pipeline.withArrays spec0 c (W1 m ρ c) fun w => (Conv0.dat (V1 m ρ) c).arrAt w cfg0.N
theorem W2_arr (c : Dev nD) (w : Fin cfg0.W) :
    W2 m ρ c (Proc.devRef .tc (Pipeline.arrRef spec0 w)) = (Conv0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Conv0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the exit of launch 1: its operand arrays at what the launch leaves, every other buffer as at entry. -/
def W4 (c : Dev nD) : Valuation τ sig (Elt F) :=
  Pipeline.withArrays spec1 c (W3 m ρ c) fun w => (Conv1.dat (V3 m ρ) c).arrAt w cfg1.N
theorem W4_arr (c : Dev nD) (w : Fin cfg1.W) :
    W4 m ρ c (Proc.devRef .tc (Pipeline.arrRef spec1 w)) = (Conv1.dat (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (Conv1.dat (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the exit of launch 2: its operand arrays at what the launch leaves, every other buffer as at entry. -/
def W6 (c : Dev nD) : Valuation τ sig (Elt F) :=
  Pipeline.withArrays spec2 c (W5 m ρ c) fun w => (Conv2.dat (V5 m ρ) c).arrAt w cfg2.N
theorem W6_arr (c : Dev nD) (w : Fin cfg2.W) :
    W6 m ρ c (Proc.devRef .tc (Pipeline.arrRef spec2 w)) = (Conv2.dat (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (Conv2.dat (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the host stretch `hostOps3`. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At the exit of launch 3: its operand arrays at what the launch leaves, every other buffer as at entry. -/
def W8 (c : Dev nD) : Valuation τ sig (Elt F) :=
  Pipeline.withArrays spec3 c (W7 m ρ c) fun w => (Conv3.dat (V7 m ρ) c).arrAt w cfg3.N
theorem W8_arr (c : Dev nD) (w : Fin cfg3.W) :
    W8 m ρ c (Proc.devRef .tc (Pipeline.arrRef spec3 w)) = (Conv3.dat (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (Conv3.dat (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After the host stretch `hostOps4`. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At the exit of launch 4: its operand arrays at what the launch leaves, every other buffer as at entry. -/
def W10 (c : Dev nD) : Valuation τ sig (Elt F) :=
  Pipeline.withArrays spec4 c (W9 m ρ c) fun w => (Conv4.dat (V9 m ρ) c).arrAt w cfg4.N
theorem W10_arr (c : Dev nD) (w : Fin cfg4.W) :
    W10 m ρ c (Proc.devRef .tc (Pipeline.arrRef spec4 w)) = (Conv4.dat (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (Conv4.dat (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After the host stretch `hostOps5_1`. -/
abbrev W12 : Dev nD → Valuation τ sig (Elt F) := fun c => StableHlo.after hostOps5_1 (W11 m ρ c)
abbrev V12 : (c : Dev nD) → (b : Ref sig .tc) → Buf (Elt F) ((c : Thread nD τ).loc b) := fun c b => W12 m ρ c b
/-- After the host stretch `hostOps5_2`. -/
abbrev W13 : Dev nD → Valuation τ sig (Elt F) := fun c => StableHlo.after hostOps5_2 (W12 m ρ c)
abbrev V13 : (c : Dev nD) → (b : Ref sig .tc) → Buf (Elt F) ((c : Thread nD τ).loc b) := fun c b => W13 m ρ c b

/-! ## The proof data of the five launches, and what rides along -/

/-- Each launch's proof data at its entry contents. -/
def pdats : (p : Fin 5) → (c : Dev nD) → Dat τ (Elt F) Unit ℕ (UR sig nD τ) ℕ (Pipeline.pin (pcfgs (F := F)) adm p) c
  | ⟨0, _⟩ => fun c => Conv0.dat (V1 m ρ) c
  | ⟨1, _⟩ => fun c => Conv1.dat (V3 m ρ) c
  | ⟨2, _⟩ => fun c => Conv2.dat (V5 m ρ) c
  | ⟨3, _⟩ => fun c => Conv3.dat (V7 m ρ) c
  | ⟨4, _⟩ => fun c => Conv4.dat (V9 m ρ) c
abbrev 𝒱₀ : Variants := Variants.none
abbrev L : GSem nD τ sig → Finset Unit := fun _ => ∅
abbrev lv : GSem nD τ sig → Unit → ℕ := fun _ _ => 0
/-- Beside the buffers, through every segment: the core's generator register at some state, and nothing owed. -/
abbrev R (c : Dev nD) : sProp 𝕄 := iprop((∃ r, prngReg c r) ∗ ∃ W, owes (c : Thread nD τ) (0 : CellTallies nD τ sig Unit) W)
/-- A host stretch from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state: every unscoped buffer at `W13`, the generator register at some state. -/
abbrev Tₙ (c : Dev nD) : sProp 𝕄 := iprop(StableHlo.held (c : Thread nD τ) (Pipeline.ucRefs τ sig) (W13 m ρ c) ∗ ∃ r, prngReg c r)

/-! ## The launches as segments -/

set_option backward.isDefEq.respectTransparency.types false in
/-- Launch 0: entered with every unscoped buffer at `W1`, left with them at `W2`. Its operand arrays are split out
    of the buffers at entry and put back at exit; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Conv0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1: entered with every unscoped buffer at `W3`, left with them at `W4`. Its operand arrays are split out
    of the buffers at entry and put back at exit; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Conv1.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2: entered with every unscoped buffer at `W5`, left with them at `W6`. Its operand arrays are split out
    of the buffers at entry and put back at exit; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Conv2.body_obligation (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3: entered with every unscoped buffer at `W7`, left with them at `W8`. Its operand arrays are split out
    of the buffers at entry and put back at exit; nothing is owed and the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Conv3.body_obligation (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4: entered with every unscoped buffer at `W9`, left with them at `W10`. Its operand arrays are split out
    of the buffers at entry and put back at exit; nothing is owed and the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Conv4.body_obligation (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .host (hseg hostOps5_1 hostOps5_1_sub hostOps5_1_fresh (W11 m ρ)),
    .host (hseg hostOps5_2 hostOps5_2_sub hostOps5_2_fresh (W12 m ρ)) ]

/-- The program is the run of these segments in order. -/
theorem main_run (c : Dev nD) : main (F := F) c = Pipeline.Seg.run (segs m ρ) := (main_chain c).trans (by chain_rfl)

set_option backward.isDefEq.respectTransparency.types false in
/-- Every fair execution from memory `m` with all counters at zero terminates without fault, and the final memory
    holds `W13` at every unscoped buffer of every core; any property `Q` of final states that follows from that holds. -/
theorem run {Q : PUnit × MemSt nD τ sig (Elt F) → Prop}
    (hQ : ∀ s : MemSt nD τ sig (Elt F), (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show iprop(StableHlo.held (c : Thread nD τ) (Pipeline.ucRefs τ sig) (W13 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

end Cert.KernelIdeal.Chain

end
-- ==== Proof.KernelIdeal.Frame.lean ====
import proofs.«142413_j67980742361104_2_alg».proof.Proof.KernelIdeal.Chain

/-!
# The argument arrays end as launched

No host operation writes an argument array and no launch has one among its operand arrays, so walking the chain of
boundary contents back from the end to the launch leaves each argument array untouched.
-/

set_option maxRecDepth 16384

noncomputable section

namespace Cert.KernelIdeal.Chain

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- A buffer that no host stretch writes and that is no launch's operand array holds at the end what it held at launch. -/
theorem W13_keep (c : Dev nD) (b : Ref sig .tc)
    (h_hostOps0 : b ∉ hostOps0_W) (h_hostOps1 : b ∉ hostOps1_W) (h_hostOps2 : b ∉ hostOps2_W) (h_hostOps3 : b ∉ hostOps3_W) (h_hostOps4 : b ∉ hostOps4_W) (h_hostOps5 : b ∉ hostOps5_W) (h_hostOps5_1 : b ∉ hostOps5_1_W) (h_hostOps5_2 : b ∉ hostOps5_2_W)
    (r0 : ∀ w, Pipeline.arrRef spec0 w ≠ b) (r1 : ∀ w, Pipeline.arrRef spec1 w ≠ b) (r2 : ∀ w, Pipeline.arrRef spec2 w ≠ b) (r3 : ∀ w, Pipeline.arrRef spec3 w ≠ b) (r4 : ∀ w, Pipeline.arrRef spec4 w ≠ b) :
    W13 m ρ c (Proc.devRef .tc b) = m ((c : Thread nD τ).loc b) :=
  calc W13 m ρ c (Proc.devRef .tc b)
    _ = W12 m ρ c (Proc.devRef .tc b) := StableHlo.after_of_writes_sub hostOps5_2 _ hostOps5_2_writes h_hostOps5_2
    _ = W11 m ρ c (Proc.devRef .tc b) := StableHlo.after_of_writes_sub hostOps5_1 _ hostOps5_1_writes h_hostOps5_1
    _ = W10 m ρ c (Proc.devRef .tc b) := StableHlo.after_of_writes_sub hostOps5 _ hostOps5_writes h_hostOps5
    _ = W9 m ρ c (Proc.devRef .tc b) := W10_of_ne m ρ c b r4
    _ = W8 m ρ c (Proc.devRef .tc b) := StableHlo.after_of_writes_sub hostOps4 _ hostOps4_writes h_hostOps4
    _ = W7 m ρ c (Proc.devRef .tc b) := W8_of_ne m ρ c b r3
    _ = W6 m ρ c (Proc.devRef .tc b) := StableHlo.after_of_writes_sub hostOps3 _ hostOps3_writes h_hostOps3
    _ = W5 m ρ c (Proc.devRef .tc b) := W6_of_ne m ρ c b r2
    _ = W4 m ρ c (Proc.devRef .tc b) := StableHlo.after_of_writes_sub hostOps2 _ hostOps2_writes h_hostOps2
    _ = W3 m ρ c (Proc.devRef .tc b) := W4_of_ne m ρ c b r1
    _ = W2 m ρ c (Proc.devRef .tc b) := StableHlo.after_of_writes_sub hostOps1 _ hostOps1_writes h_hostOps1
    _ = W1 m ρ c (Proc.devRef .tc b) := W2_of_ne m ρ c b r0
    _ = W0 m ρ c (Proc.devRef .tc b) := StableHlo.after_of_writes_sub hostOps0 _ hostOps0_writes h_hostOps0
    _ = m ((c : Thread nD τ).loc b) := rfl

local macro "dd" : term => `(by decide)

/-- Every fair execution terminates without fault with the seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  run m ρ (fun s h c =>
    ⟨(h c _ (mem_uc main_arg0 (by decide))).trans (W13_keep m ρ c main_arg0 dd dd dd dd dd dd dd dd dd dd dd dd dd),
     (h c _ (mem_uc main_arg1 (by decide))).trans (W13_keep m ρ c main_arg1 dd dd dd dd dd dd dd dd dd dd dd dd dd),
     (h c _ (mem_uc main_arg2 (by decide))).trans (W13_keep m ρ c main_arg2 dd dd dd dd dd dd dd dd dd dd dd dd dd),
     (h c _ (mem_uc main_arg3 (by decide))).trans (W13_keep m ρ c main_arg3 dd dd dd dd dd dd dd dd dd dd dd dd dd),
     (h c _ (mem_uc main_arg4 (by decide))).trans (W13_keep m ρ c main_arg4 dd dd dd dd dd dd dd dd dd dd dd dd dd),
     (h c _ (mem_uc main_arg5 (by decide))).trans (W13_keep m ρ c main_arg5 dd dd dd dd dd dd dd dd dd dd dd dd dd),
     (h c _ (mem_uc main_arg6 (by decide))).trans (W13_keep m ρ c main_arg6 dd dd dd dd dd dd dd dd dd dd dd dd dd),
     (h c _ (mem_uc main_arg7 (by decide))).trans (W13_keep m ρ c main_arg7 dd dd dd dd dd dd dd dd dd dd dd dd dd),
     (h c _ (mem_uc main_arg8 (by decide))).trans (W13_keep m ρ c main_arg8 dd dd dd dd dd dd dd dd dd dd dd dd dd),
     (h c _ (mem_uc main_arg9 (by decide))).trans (W13_keep m ρ c main_arg9 dd dd dd dd dd dd dd dd dd dd dd dd dd),
     (h c _ (mem_uc main_arg10 (by decide))).trans (W13_keep m ρ c main_arg10 dd dd dd dd dd dd dd dd dd dd dd dd dd),
     (h c _ (mem_uc main_arg11 (by decide))).trans (W13_keep m ρ c main_arg11 dd dd dd dd dd dd dd dd dd dd dd dd dd),
     (h c _ (mem_uc main_arg12 (by decide))).trans (W13_keep m ρ c main_arg12 dd dd dd dd dd dd dd dd dd dd dd dd dd),
     (h c _ (mem_uc main_arg13 (by decide))).trans (W13_keep m ρ c main_arg13 dd dd dd dd dd dd dd dd dd dd dd dd dd),
     (h c _ (mem_uc main_arg14 (by decide))).trans (W13_keep m ρ c main_arg14 dd dd dd dd dd dd dd dd dd dd dd dd dd),
     (h c _ (mem_uc main_arg15 (by decide))).trans (W13_keep m ρ c main_arg15 dd dd dd dd dd dd dd dd dd dd dd dd dd),
     (h c _ (mem_uc main_arg16 (by decide))).trans (W13_keep m ρ c main_arg16 dd dd dd dd dd dd dd dd dd dd dd dd dd)⟩)

end Cert.KernelIdeal.Chain

end
-- ==== Proof.Spec.lean ====
import proofs.«142413_j67980742361104_2_alg».proof.Proof.Gen.ReferenceIdeal

/-!
# The five-layer graph network as the reference spells it, in named pieces

With `src`, `dst` the edges' endpoints: `normS`, `normD` are the degree normalisations `max(deg, 1)^(-1/2)` of the
out- and in-degrees; `feats` the eight degree features; `agg` gathers a node array along `src` and scatter-adds the
rows into `dst`; `core` is one dense step `max((A · n_dst) · W + b, 0)`; `msgOf` scales the rows by `n_src`; `pool`
is the per-graph mean and `head` the two-layer read-out. The reference's three results are `h5`, `pool` of it, and
`head` of that.
-/

noncomputable section

namespace Cert.Spec

open Idealize.ShloMosaic Cert.ReferenceIdeal Cert.ReferenceIdeal.Gen

variable {F : FTy → Type} [FloatOps F]

/-- `max(in-degree, 1)^(-1/2)`, per node. -/
def normD (dst : (⟨S800000, .i32⟩ : BufTy).Contents (Elt F)) : (⟨S50000, .f32⟩ : BufTy).Contents (Elt F) :=
  (Host.powf (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32))) (broadcastInDim S50000 ![] bcast_S_S50000 (constant S_ .f32 0xBF000000#32)))
/-- `max(out-degree, 1)^(-1/2)`, per node. -/
def normS (src : (⟨S800000, .i32⟩ : BufTy).Contents (Elt F)) : (⟨S50000, .f32⟩ : BufTy).Contents (Elt F) :=
  (Host.powf (maximumf (Host.scatterAdd scatter_S50000_S800000x1_S800000_n_0_0_1 (broadcastInDim S50000 ![] bcast_S_S50000 (constant S_ .f32 0x00000000#32)) (broadcastInDim S800000x1 ![0] bcast_S800000_S800000x1_0 src) (broadcastInDim S800000 ![] bcast_S_S800000 (constant S_ .f32 0x3F800000#32))) (broadcastInDim S50000 ![] bcast_S_S50000 (constant S_ .f32 0x3F800000#32))) (broadcastInDim S50000 ![] bcast_S_S50000 (constant S_ .f32 0xBF000000#32)))
/-- The gather's row indices: `src`, a negative entry wrapped once by the number of nodes. -/
def idxB (src : (⟨S800000, .i32⟩ : BufTy).Contents (Elt F)) : (⟨S800000x1, .i32⟩ : BufTy).Contents (Elt F) :=
  (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))
/-- The scatter's row indices: `dst` as a column. -/
def dstB (dst : (⟨S800000, .i32⟩ : BufTy).Contents (Elt F)) : (⟨S800000x1, .i32⟩ : BufTy).Contents (Elt F) :=
  (broadcastInDim S800000x1 ![0] bcast_S800000_S800000x1_0 dst)
/-- The eight degree features of every node. -/
def feats (dst : (⟨S800000, .i32⟩ : BufTy).Contents (Elt F)) : (⟨S50000x8, .f32⟩ : BufTy).Contents (Elt F) :=
  (concatenate S50000x8 1 [⟨S50000x1, (broadcastInDim S50000x1 ![0] bcast_S50000_S50000x1_0 (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))))⟩, ⟨S50000x1, (broadcastInDim S50000x1 ![0] bcast_S50000_S50000x1_0 (uitofp .f32 (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x40400000#32)))))⟩, ⟨S50000x1, (Host.divf (broadcastInDim S50000x1 ![] bcast_S_S50000x1 (constant S_ .f32 0x40400000#32)) (broadcastInDim S50000x1 ![0] bcast_S50000_S50000x1_0 (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32)))))⟩, ⟨S50000x1, (broadcastInDim S50000x1 ![0] bcast_S50000_S50000x1_0 (uitofp .f32 (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x40800000#32)))))⟩, ⟨S50000x1, (Host.negf (broadcastInDim S50000x1 ![0] bcast_S50000_S50000x1_0 (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32)))))⟩, ⟨S50000x1, (Host.negf (broadcastInDim S50000x1 ![0] bcast_S50000_S50000x1_0 (uitofp .f32 (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x40400000#32))))))⟩, ⟨S50000x1, (Host.negf (Host.divf (broadcastInDim S50000x1 ![] bcast_S_S50000x1 (constant S_ .f32 0x40400000#32)) (broadcastInDim S50000x1 ![0] bcast_S50000_S50000x1_0 (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))))))⟩, ⟨S50000x1, (Host.negf (broadcastInDim S50000x1 ![0] bcast_S50000_S50000x1_0 (uitofp .f32 (cmpf (F := F) .ogt (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x40800000#32))))))⟩] concatenates_S50000x1_S50000x1_S50000x1_S50000x1_S50000x1_S50000x1_S50000x1_S50000x1_S50000x8_d1)
/-- The first layer's messages: the features scaled by `n_src`. -/
def x0 (src dst : (⟨S800000, .i32⟩ : BufTy).Contents (Elt F)) : (⟨S50000x8, .f32⟩ : BufTy).Contents (Elt F) :=
  (mulf (feats dst) (broadcastInDim S50000x8 ![0, 1] bcast_S50000x1_S50000x8_0_1 (broadcastInDim S50000x1 ![0] bcast_S50000_S50000x1_0 (normS src))))
/-- The first layer's aggregation. -/
def agg8 (src dst : (⟨S800000, .i32⟩ : BufTy).Contents (Elt F)) : (⟨S50000x8, .f32⟩ : BufTy).Contents (Elt F) :=
  (Host.scatterAdd scatter_S50000x8_S800000x1_S800000x8_1_0_0_1 (broadcastInDim S50000x8 ![] bcast_S_S50000x8 (constant S_ .f32 0x00000000#32)) (dstB dst) (Host.gather gather_S50000x8_S800000x1_S800000x8_1_0_n_n_0_1_18 (x0 src dst) (idxB src)))
/-- A later layer's aggregation of the messages `M`. -/
def agg128 (src dst : (⟨S800000, .i32⟩ : BufTy).Contents (Elt F)) (M : (⟨S50000x128, .f32⟩ : BufTy).Contents (Elt F)) : (⟨S50000x128, .f32⟩ : BufTy).Contents (Elt F) :=
  (Host.scatterAdd scatter_S50000x128_S800000x1_S800000x128_1_0_0_1 (broadcastInDim S50000x128 ![] bcast_S_S50000x128 (constant S_ .f32 0x00000000#32)) (dstB dst) (Host.gather gather_S50000x128_S800000x1_S800000x128_1_0_n_n_0_1_1128 M (idxB src)))
/-- The first dense step on aggregated features `A`. -/
def core8 (A : (⟨S50000x8, .f32⟩ : BufTy).Contents (Elt F)) (nd : (⟨S50000, .f32⟩ : BufTy).Contents (Elt F)) (W : (⟨S8x128, .f32⟩ : BufTy).Contents (Elt F)) (b : (⟨S128, .f32⟩ : BufTy).Contents (Elt F)) : (⟨S50000x128, .f32⟩ : BufTy).Contents (Elt F) :=
  (maximumf (addf (Host.dotGeneral dot_S50000x8_S8x128_S50000x128_1_0_0_1_n_n none (mulf A (broadcastInDim S50000x8 ![0, 1] bcast_S50000x1_S50000x8_0_1 (broadcastInDim S50000x1 ![0] bcast_S50000_S50000x1_0 nd))) W) (broadcastInDim S50000x128 ![0, 1] bcast_S1x128_S50000x128_0_1 (broadcastInDim S1x128 ![1] bcast_S128_S1x128_1 b))) (broadcastInDim S50000x128 ![] bcast_S_S50000x128 (constant S_ .f32 0x00000000#32)))
/-- A later dense step on aggregated features `A`. -/
def core128 (A : (⟨S50000x128, .f32⟩ : BufTy).Contents (Elt F)) (nd : (⟨S50000, .f32⟩ : BufTy).Contents (Elt F)) (W : (⟨S128x128, .f32⟩ : BufTy).Contents (Elt F)) (b : (⟨S128, .f32⟩ : BufTy).Contents (Elt F)) : (⟨S50000x128, .f32⟩ : BufTy).Contents (Elt F) :=
  (maximumf (addf (Host.dotGeneral dot_S50000x128_S128x128_S50000x128_1_0_0_1_n_n none (mulf A (broadcastInDim S50000x128 ![0, 1] bcast_S50000x1_S50000x128_0_1 (broadcastInDim S50000x1 ![0] bcast_S50000_S50000x1_0 nd))) W) (broadcastInDim S50000x128 ![0, 1] bcast_S1x128_S50000x128_0_1 (broadcastInDim S1x128 ![1] bcast_S128_S1x128_1 b))) (broadcastInDim S50000x128 ![] bcast_S_S50000x128 (constant S_ .f32 0x00000000#32)))
/-- A layer's output scaled row by row by `n_src`. -/
def msgOf (H : (⟨S50000x128, .f32⟩ : BufTy).Contents (Elt F)) (ns : (⟨S50000, .f32⟩ : BufTy).Contents (Elt F)) : (⟨S50000x128, .f32⟩ : BufTy).Contents (Elt F) :=
  (mulf H (broadcastInDim S50000x128 ![0, 1] bcast_S50000x1_S50000x128_0_1 (broadcastInDim S50000x1 ![0] bcast_S50000_S50000x1_0 ns)))

/-- Layer 1. -/
def h1 (src dst : (⟨S800000, .i32⟩ : BufTy).Contents (Elt F)) (W : (⟨S8x128, .f32⟩ : BufTy).Contents (Elt F)) (b : (⟨S128, .f32⟩ : BufTy).Contents (Elt F)) : (⟨S50000x128, .f32⟩ : BufTy).Contents (Elt F) :=
  core8 (agg8 src dst) (normD dst) W b
/-- A later layer on the previous layer's output `H`. -/
def hNext (src dst : (⟨S800000, .i32⟩ : BufTy).Contents (Elt F)) (W : (⟨S128x128, .f32⟩ : BufTy).Contents (Elt F)) (b : (⟨S128, .f32⟩ : BufTy).Contents (Elt F)) (H : (⟨S50000x128, .f32⟩ : BufTy).Contents (Elt F)) : (⟨S50000x128, .f32⟩ : BufTy).Contents (Elt F) :=
  core128 (agg128 src dst (msgOf H (normS src))) (normD dst) W b
/-- The node embeddings after five layers. -/
def h5 (src dst : (⟨S800000, .i32⟩ : BufTy).Contents (Elt F)) (W1 : (⟨S8x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) (W4 : (⟨S128x128, .f32⟩ : BufTy).Contents (Elt F)) (b4 : (⟨S128, .f32⟩ : BufTy).Contents (Elt F)) (W5 : (⟨S128x128, .f32⟩ : BufTy).Contents (Elt F)) (b5 : (⟨S128, .f32⟩ : BufTy).Contents (Elt F)) : (⟨S50000x128, .f32⟩ : BufTy).Contents (Elt F) :=
  hNext src dst W5 b5 (hNext src dst W4 b4 (hNext src dst W3 b3 (hNext src dst W2 b2 (h1 src dst W1 b1))))
/-- The per-graph mean of node embeddings `H`. -/
def pool (gid : (⟨S50000, .i32⟩ : BufTy).Contents (Elt F)) (H : (⟨S50000x128, .f32⟩ : BufTy).Contents (Elt F)) : (⟨S50x128, .f32⟩ : BufTy).Contents (Elt F) :=
  (Host.divf (Host.scatterAdd scatter_S50x128_S50000x1_S50000x128_1_0_0_1 (broadcastInDim S50x128 ![] bcast_S_S50x128 (constant S_ .f32 0x00000000#32)) (broadcastInDim S50000x1 ![0] bcast_S50000_S50000x1_0 gid) H) (broadcastInDim S50x128 ![0, 1] bcast_S50x1_S50x128_0_1 (broadcastInDim S50x1 ![0] bcast_S50_S50x1_0 (Host.scatterAdd scatter_S50_S50000x1_S50000_n_0_0_1 (broadcastInDim S50 ![] bcast_S_S50 (constant S_ .f32 0x00000000#32)) (broadcastInDim S50000x1 ![0] bcast_S50000_S50000x1_0 gid) (broadcastInDim S50000 ![] bcast_S_S50000 (constant S_ .f32 0x3F800000#32))))))
/-- The read-out on graph embeddings `E`. -/
def head (E : (⟨S50x128, .f32⟩ : BufTy).Contents (Elt F)) (lw1 : (⟨S128x64, .f32⟩ : BufTy).Contents (Elt F)) (lb1 : (⟨S64, .f32⟩ : BufTy).Contents (Elt F)) (lw2 : (⟨S64x1, .f32⟩ : BufTy).Contents (Elt F)) (lb2 : (⟨S1, .f32⟩ : BufTy).Contents (Elt F)) : (⟨S50x1, .f32⟩ : BufTy).Contents (Elt F) :=
  (Host.divf (broadcastInDim S50x1 ![] bcast_S_S50x1 (constant S_ .f32 0x3F800000#32)) (addf (broadcastInDim S50x1 ![] bcast_S_S50x1 (constant S_ .f32 0x3F800000#32)) (Host.exp (Host.negf (addf (Host.dotGeneral dot_S50x64_S64x1_S50x1_1_0_0_1_n_n none (maximumf (addf (Host.dotGeneral dot_S50x128_S128x64_S50x64_1_0_0_1_n_n none E lw1) (broadcastInDim S50x64 ![0, 1] bcast_S1x64_S50x64_0_1 (broadcastInDim S1x64 ![1] bcast_S64_S1x64_1 lb1))) (broadcastInDim S50x64 ![] bcast_S_S50x64 (constant S_ .f32 0x00000000#32))) lw2) (broadcastInDim S50x1 ![0, 1] bcast_S1x1_S50x1_0_1 (broadcastInDim S1x1 ![1] bcast_S1_S1x1_1 lb2)))))))

end Cert.Spec

end
-- ==== Proof.KernelIdeal.HostRead.lean ====
import proofs.«142413_j67980742361104_2_alg».proof.Proof.Gen.KernelIdeal.Launch
import proofs.«142413_j67980742361104_2_alg».proof.Proof.Spec
import Idealize.ShloMosaic.Lib.StableHlo.Run
import Idealize.ShloMosaic.PureOps.Ideal.Laws

/-!
# What the host stretches compute, from any contents of the buffers before them

Before the first launch the host counts degrees, builds the eight features, scales them, aggregates them along the
edges, and lays out the normalisations as columns, the weights rounded to bf16 and the bias as a row. Before each later
launch it aggregates the previous launch's message output and lays out that layer's operands the same way. After the
last launch it pools the node embeddings per graph and applies the read-out. Each is the named piece of the network
applied to the buffers' contents before the stretch (over the extended reals a change of float format is the identity).
-/

set_option maxRecDepth 16384

noncomputable section

namespace Cert.KernelIdeal.HostRead

open Idealize.ShloMosaic Idealize.ShloMosaic.TcCoe Idealize.SL Idealize.SL.Sem
open Cert.KernelIdeal Cert.KernelIdeal.Gen

variable (U : Valuation τ sig (Elt Ideal))

/-- Joining eight arrays of one shape: equal pieces give equal joins. -/
theorem concat8 {α : Type} {t : Shape} {a : Fin t.rank} {s : Shape} {p0 p1 p2 p3 p4 p5 p6 p7 q0 q1 q2 q3 q4 q5 q6 q7 : s.Idx → α}
    (h : Shape.Concatenates (([⟨s, p0⟩, ⟨s, p1⟩, ⟨s, p2⟩, ⟨s, p3⟩, ⟨s, p4⟩, ⟨s, p5⟩, ⟨s, p6⟩, ⟨s, p7⟩] : List ((s : Shape) × (s.Idx → α))).map (·.1)) t a)
    (h' : Shape.Concatenates (([⟨s, q0⟩, ⟨s, q1⟩, ⟨s, q2⟩, ⟨s, q3⟩, ⟨s, q4⟩, ⟨s, q5⟩, ⟨s, q6⟩, ⟨s, q7⟩] : List ((s : Shape) × (s.Idx → α))).map (·.1)) t a)
    (e0 : p0 = q0) (e1 : p1 = q1) (e2 : p2 = q2) (e3 : p3 = q3) (e4 : p4 = q4) (e5 : p5 = q5) (e6 : p6 = q6) (e7 : p7 = q7) :
    concatenate t a [⟨s, p0⟩, ⟨s, p1⟩, ⟨s, p2⟩, ⟨s, p3⟩, ⟨s, p4⟩, ⟨s, p5⟩, ⟨s, p6⟩, ⟨s, p7⟩] h = concatenate t a [⟨s, q0⟩, ⟨s, q1⟩, ⟨s, q2⟩, ⟨s, q3⟩, ⟨s, q4⟩, ⟨s, q5⟩, ⟨s, q6⟩, ⟨s, q7⟩] h' := by
  subst e0 e1 e2 e3 e4 e5 e6 e7; rfl

/-- The eight feature columns joined: the concatenation's result holds the join of its eight operands' contents. -/
theorem feats_result (hxs hy) (F : Valuation τ sig (Elt Ideal)) :
    (StableHlo.nary ![main_v7, main_v11, main_v13, main_v17, main_v18, main_v19, main_v20, main_v21] main_v22
        (fun u => concatenate S50000x8 1 [⟨S50000x1, u 0⟩, ⟨S50000x1, u 1⟩, ⟨S50000x1, u 2⟩, ⟨S50000x1, u 3⟩, ⟨S50000x1, u 4⟩, ⟨S50000x1, u 5⟩, ⟨S50000x1, u 6⟩, ⟨S50000x1, u 7⟩] concatenates_S50000x1_S50000x1_S50000x1_S50000x1_S50000x1_S50000x1_S50000x1_S50000x1_S50000x8_d1) hxs hy).result F (no_index (Proc.devRef .tc main_v22))
      = concatenate S50000x8 1 [⟨S50000x1, F (Proc.devRef .tc main_v7)⟩, ⟨S50000x1, F (Proc.devRef .tc main_v11)⟩, ⟨S50000x1, F (Proc.devRef .tc main_v13)⟩, ⟨S50000x1, F (Proc.devRef .tc main_v17)⟩, ⟨S50000x1, F (Proc.devRef .tc main_v18)⟩, ⟨S50000x1, F (Proc.devRef .tc main_v19)⟩, ⟨S50000x1, F (Proc.devRef .tc main_v20)⟩, ⟨S50000x1, F (Proc.devRef .tc main_v21)⟩] concatenates_S50000x1_S50000x1_S50000x1_S50000x1_S50000x1_S50000x1_S50000x1_S50000x1_S50000x8_d1 :=
  StableHlo.nary_result _ _ _ hxs hy F

/-- Reads what a buffer holds after a literal list of host operations: each operation's result at its own result buffer is
    its function of its operands' contents, and any other buffer is untouched. -/
local macro "host_results" : tactic =>
  `(tactic| (simp (disch := decide) only [StableHlo.after_cons, StableHlo.after_nil,
      StableHlo.nullary_result', StableHlo.unary_result', StableHlo.binary_result', StableHlo.ternary_result', StableHlo.quaternary_result',
      StableHlo.reshape_result', feats_result, StableHlo.unaryIndexed_result', StableHlo.binaryIndexed_result',
      StableHlo.nullary_result_ne', StableHlo.unary_result_ne', StableHlo.binary_result_ne', StableHlo.ternary_result_ne', StableHlo.quaternary_result_ne',
      StableHlo.reshape_result_ne', StableHlo.nary_result_ne', StableHlo.unaryIndexed_result_ne', StableHlo.binaryIndexed_result_ne']))
/-! ## Before the first launch -/

set_option maxHeartbeats 2000000 in
theorem first_agg : (StableHlo.after hostOps0 U (Proc.devRef .tc main_v43) : S50000x8.Idx → EReal)
    = Cert.Spec.agg8 (U (Proc.devRef .tc main_arg0)) (U (Proc.devRef .tc main_arg1)) := by
  host_results
  unfold Cert.Spec.agg8 Cert.Spec.x0 Cert.Spec.feats
  refine congrArg _ (congrArg₂ _ (congrArg₂ _ (concat8 _ _ ?_ ?_ ?_ ?_ ?_ ?_ ?_ ?_) rfl) rfl) <;> (host_results <;> rfl)
theorem first_nd : (StableHlo.after hostOps0 U (Proc.devRef .tc main_v44) : S50000x1.Idx → EReal)
    = shapeCast S50000x1 (Cert.Spec.normD (F := Ideal) (U (Proc.devRef .tc main_arg1))) shapeCasts_S50000_S50000x1 := by
  host_results <;> rfl
theorem first_ns : (StableHlo.after hostOps0 U (Proc.devRef .tc main_v45) : S50000x1.Idx → EReal)
    = shapeCast S50000x1 (Cert.Spec.normS (F := Ideal) (U (Proc.devRef .tc main_arg0))) shapeCasts_S50000_S50000x1 := by
  host_results <;> rfl
theorem first_w : (StableHlo.after hostOps0 U (Proc.devRef .tc main_v46) : S8x128.Idx → EReal)
    = (truncf .bf16 (show FVec Ideal S8x128 .f32 from U (Proc.devRef .tc main_arg3)) bitsLt_bf16_f32 : FVec Ideal S8x128 .bf16) := by
  host_results <;> rfl
theorem first_b : (StableHlo.after hostOps0 U (Proc.devRef .tc main_v47) : S1x128.Idx → EReal)
    = shapeCast S1x128 (U (Proc.devRef .tc main_arg4) : FVec Ideal S128 .f32) shapeCasts_S128_S1x128 := by
  host_results <;> rfl
theorem first_normD : (StableHlo.after hostOps0 U (Proc.devRef .tc main_v30) : S50000.Idx → EReal)
    = Cert.Spec.normD (F := Ideal) (U (Proc.devRef .tc main_arg1)) := by
  host_results <;> rfl
theorem first_normS : (StableHlo.after hostOps0 U (Proc.devRef .tc main_v26) : S50000.Idx → EReal)
    = Cert.Spec.normS (F := Ideal) (U (Proc.devRef .tc main_arg0)) := by
  host_results <;> rfl

/-! ## Before each later launch -/

theorem agg_1 : (StableHlo.after hostOps1 U (Proc.devRef .tc main_v59) : S50000x128.Idx → EReal)
    = Cert.Spec.agg128 (F := Ideal) (U (Proc.devRef .tc main_arg0)) (U (Proc.devRef .tc main_arg1)) (U (Proc.devRef .tc main_v48_1)) := by
  host_results <;> rfl
theorem nd_1 : (StableHlo.after hostOps1 U (Proc.devRef .tc main_v60) : S50000x1.Idx → EReal)
    = shapeCast S50000x1 (U (Proc.devRef .tc main_v30) : FVec Ideal S50000 .f32) shapeCasts_S50000_S50000x1 := by
  host_results <;> rfl
theorem ns_1 : (StableHlo.after hostOps1 U (Proc.devRef .tc main_v61) : S50000x1.Idx → EReal)
    = shapeCast S50000x1 (U (Proc.devRef .tc main_v26) : FVec Ideal S50000 .f32) shapeCasts_S50000_S50000x1 := by
  host_results <;> rfl
theorem w_1 : (StableHlo.after hostOps1 U (Proc.devRef .tc main_v62) : S128x128.Idx → EReal)
    = (truncf .bf16 (show FVec Ideal S128x128 .f32 from U (Proc.devRef .tc main_arg5)) bitsLt_bf16_f32 : FVec Ideal S128x128 .bf16) := by
  host_results <;> rfl
theorem b_1 : (StableHlo.after hostOps1 U (Proc.devRef .tc main_v63) : S1x128.Idx → EReal)
    = shapeCast S1x128 (U (Proc.devRef .tc main_arg6) : FVec Ideal S128 .f32) shapeCasts_S128_S1x128 := by
  host_results <;> rfl

theorem agg_2 : (StableHlo.after hostOps2 U (Proc.devRef .tc main_v75) : S50000x128.Idx → EReal)
    = Cert.Spec.agg128 (F := Ideal) (U (Proc.devRef .tc main_arg0)) (U (Proc.devRef .tc main_arg1)) (U (Proc.devRef .tc main_v64_1)) := by
  host_results <;> rfl
theorem nd_2 : (StableHlo.after hostOps2 U (Proc.devRef .tc main_v76) : S50000x1.Idx → EReal)
    = shapeCast S50000x1 (U (Proc.devRef .tc main_v30) : FVec Ideal S50000 .f32) shapeCasts_S50000_S50000x1 := by
  host_results <;> rfl
theorem ns_2 : (StableHlo.after hostOps2 U (Proc.devRef .tc main_v77) : S50000x1.Idx → EReal)
    = shapeCast S50000x1 (U (Proc.devRef .tc main_v26) : FVec Ideal S50000 .f32) shapeCasts_S50000_S50000x1 := by
  host_results <;> rfl
theorem w_2 : (StableHlo.after hostOps2 U (Proc.devRef .tc main_v78) : S128x128.Idx → EReal)
    = (truncf .bf16 (show FVec Ideal S128x128 .f32 from U (Proc.devRef .tc main_arg7)) bitsLt_bf16_f32 : FVec Ideal S128x128 .bf16) := by
  host_results <;> rfl
theorem b_2 : (StableHlo.after hostOps2 U (Proc.devRef .tc main_v79) : S1x128.Idx → EReal)
    = shapeCast S1x128 (U (Proc.devRef .tc main_arg8) : FVec Ideal S128 .f32) shapeCasts_S128_S1x128 := by
  host_results <;> rfl

theorem agg_3 : (StableHlo.after hostOps3 U (Proc.devRef .tc main_v91) : S50000x128.Idx → EReal)
    = Cert.Spec.agg128 (F := Ideal) (U (Proc.devRef .tc main_arg0)) (U (Proc.devRef .tc main_arg1)) (U (Proc.devRef .tc main_v80_1)) := by
  host_results <;> rfl
theorem nd_3 : (StableHlo.after hostOps3 U (Proc.devRef .tc main_v92) : S50000x1.Idx → EReal)
    = shapeCast S50000x1 (U (Proc.devRef .tc main_v30) : FVec Ideal S50000 .f32) shapeCasts_S50000_S50000x1 := by
  host_results <;> rfl
theorem ns_3 : (StableHlo.after hostOps3 U (Proc.devRef .tc main_v93) : S50000x1.Idx → EReal)
    = shapeCast S50000x1 (U (Proc.devRef .tc main_v26) : FVec Ideal S50000 .f32) shapeCasts_S50000_S50000x1 := by
  host_results <;> rfl
theorem w_3 : (StableHlo.after hostOps3 U (Proc.devRef .tc main_v94) : S128x128.Idx → EReal)
    = (truncf .bf16 (show FVec Ideal S128x128 .f32 from U (Proc.devRef .tc main_arg9)) bitsLt_bf16_f32 : FVec Ideal S128x128 .bf16) := by
  host_results <;> rfl
theorem b_3 : (StableHlo.after hostOps3 U (Proc.devRef .tc main_v95) : S1x128.Idx → EReal)
    = shapeCast S1x128 (U (Proc.devRef .tc main_arg10) : FVec Ideal S128 .f32) shapeCasts_S128_S1x128 := by
  host_results <;> rfl

theorem agg_4 : (StableHlo.after hostOps4 U (Proc.devRef .tc main_v107) : S50000x128.Idx → EReal)
    = Cert.Spec.agg128 (F := Ideal) (U (Proc.devRef .tc main_arg0)) (U (Proc.devRef .tc main_arg1)) (U (Proc.devRef .tc main_v96_1)) := by
  host_results <;> rfl
theorem nd_4 : (StableHlo.after hostOps4 U (Proc.devRef .tc main_v108) : S50000x1.Idx → EReal)
    = shapeCast S50000x1 (U (Proc.devRef .tc main_v30) : FVec Ideal S50000 .f32) shapeCasts_S50000_S50000x1 := by
  host_results <;> rfl
theorem ns_4 : (StableHlo.after hostOps4 U (Proc.devRef .tc main_v109) : S50000x1.Idx → EReal)
    = shapeCast S50000x1 (U (Proc.devRef .tc main_v26) : FVec Ideal S50000 .f32) shapeCasts_S50000_S50000x1 := by
  host_results <;> rfl
theorem w_4 : (StableHlo.after hostOps4 U (Proc.devRef .tc main_v110) : S128x128.Idx → EReal)
    = (truncf .bf16 (show FVec Ideal S128x128 .f32 from U (Proc.devRef .tc main_arg11)) bitsLt_bf16_f32 : FVec Ideal S128x128 .bf16) := by
  host_results <;> rfl
theorem b_4 : (StableHlo.after hostOps4 U (Proc.devRef .tc main_v111) : S1x128.Idx → EReal)
    = shapeCast S1x128 (U (Proc.devRef .tc main_arg12) : FVec Ideal S128 .f32) shapeCasts_S128_S1x128 := by
  host_results <;> rfl

/-! ## After the last launch -/

theorem graphs : (StableHlo.after hostOps5 U (Proc.devRef .tc main_v122) : S50x128.Idx → EReal)
    = Cert.Spec.pool (F := Ideal) (U (Proc.devRef .tc main_arg2)) (U (Proc.devRef .tc main_v112_0)) := by
  host_results <;> rfl
theorem pred : (StableHlo.after hostOps5_2 (StableHlo.after hostOps5_1 (StableHlo.after hostOps5 U)) (Proc.devRef .tc main_v137) : S50x1.Idx → EReal)
    = Cert.Spec.head (F := Ideal) (Cert.Spec.pool (F := Ideal) (U (Proc.devRef .tc main_arg2)) (U (Proc.devRef .tc main_v112_0)))
        (U (Proc.devRef .tc main_arg13)) (U (Proc.devRef .tc main_arg14)) (U (Proc.devRef .tc main_arg15)) (U (Proc.devRef .tc main_arg16)) := by
  host_results <;> rfl

end Cert.KernelIdeal.HostRead

end
-- ==== Proof.KernelIdeal.Pay.lean ====
import proofs.«142413_j67980742361104_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The dense step's arithmetic on one block, entry by entry, over the extended reals

For a block of 2000 nodes with aggregated features `x0` (2000 × d), the column `x1` of destination normalisations,
the weights `x3` (d × 128), the bias row `x4` and the column `x2` of source normalisations, the body stores

* at `(p, q)`: `max (∑ₖ (x0 p k · x1 p) · x3 k q + x4 q, 0)`, and
* that value times `x2 p`.

Over the extended reals the roundings to bf16 on the way into and out of the matrix product are the identity.
-/

noncomputable section

namespace Cert.KernelIdeal.Pay

open Idealize.ShloMosaic Idealize.ShloMosaic.ValueIdx
open Cert.KernelIdeal Cert.KernelIdeal.Gen

/-- A column `[a, 1]` broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product at an entry -/

abbrev D8 := dot_S2000x8_S8x128_S2000x128_1_0_0_1_n_n
abbrev D128 := dot_S2000x128_S128x128_S2000x128_1_0_0_1_n_n

theorem lhs8_0 (i : S2000x128.Idx) (q : D8.contr.Idx) : (D8.lhsIdx i q 0).val = (i 0).val := by
  unfold DotDims.lhsIdx
  rw [dif_neg (show ¬(0 : Fin S2000x8.rank) ∈ D8.lhsBatch by decide), dif_pos (show (0 : Fin S2000x8.rank) ∈ D8.lhsNonContracting by decide)]
  rfl
theorem lhs8_1 (i : S2000x128.Idx) (q : D8.contr.Idx) : (D8.lhsIdx i q 1).val = (q ⟨0, by decide⟩).val :=
  D8.lhsIdx_val_of_single rfl i q
theorem rhs8_0 (i : S2000x128.Idx) (q : D8.contr.Idx) : (D8.rhsIdx i q 0).val = (q ⟨0, by decide⟩).val :=
  D8.rhsIdx_val_of_single rfl i q
theorem rhs8_1 (i : S2000x128.Idx) (q : D8.contr.Idx) : (D8.rhsIdx i q 1).val = (i 1).val := by
  unfold DotDims.rhsIdx
  rw [dif_neg (show ¬(1 : Fin S8x128.rank) ∈ D8.rhsBatch by decide), dif_pos (show (1 : Fin S8x128.rank) ∈ D8.rhsNonContracting by decide)]
  rfl

/-- The block product into a zero accumulator, at `(p, q)`: the sum over the 8 contracted positions. -/
theorem matmul8_at (l : FVec Ideal S2000x8 .bf16) (r : FVec Ideal S8x128 .bf16) (p : Fin 2000) (q : Fin 128) :
    FloatOps.matmul D8 none l r (constant S2000x128 .f32 0x00000000#32) (ix2 p q) = ∑ k : Fin 8, l (ix2 p k) * r (ix2 k q) := by
  rw [Ideal.matmul_constant_zero_apply, ← Equiv.sum_comp (ValueIdx.contrEquiv1 D8 8 rfl rfl).symm]
  refine Finset.sum_congr rfl fun k _ => ?_
  have hk := ValueIdx.contrEquiv1_symm_val D8 8 rfl rfl k
  have el : D8.lhsIdx (ix2 p q) ((ValueIdx.contrEquiv1 D8 8 rfl rfl).symm k) = ix2 p k := funext fun a => Fin.ext (by
    match a with
    | ⟨0, _⟩ => exact lhs8_0 _ _
    | ⟨1, _⟩ => exact (lhs8_1 _ _).trans hk)
  have er : D8.rhsIdx (ix2 p q) ((ValueIdx.contrEquiv1 D8 8 rfl rfl).symm k) = ix2 k q := funext fun a => Fin.ext (by
    match a with
    | ⟨0, _⟩ => exact (rhs8_0 _ _).trans hk
    | ⟨1, _⟩ => exact rhs8_1 _ _)
  rw [el, er]

theorem lhs128_0 (i : S2000x128.Idx) (q : D128.contr.Idx) : (D128.lhsIdx i q 0).val = (i 0).val := by
  unfold DotDims.lhsIdx
  rw [dif_neg (show ¬(0 : Fin S2000x128.rank) ∈ D128.lhsBatch by decide), dif_pos (show (0 : Fin S2000x128.rank) ∈ D128.lhsNonContracting by decide)]
  rfl
theorem lhs128_1 (i : S2000x128.Idx) (q : D128.contr.Idx) : (D128.lhsIdx i q 1).val = (q ⟨0, by decide⟩).val :=
  D128.lhsIdx_val_of_single rfl i q
theorem rhs128_0 (i : S2000x128.Idx) (q : D128.contr.Idx) : (D128.rhsIdx i q 0).val = (q ⟨0, by decide⟩).val :=
  D128.rhsIdx_val_of_single rfl i q
theorem rhs128_1 (i : S2000x128.Idx) (q : D128.contr.Idx) : (D128.rhsIdx i q 1).val = (i 1).val := by
  unfold DotDims.rhsIdx
  rw [dif_neg (show ¬(1 : Fin S128x128.rank) ∈ D128.rhsBatch by decide), dif_pos (show (1 : Fin S128x128.rank) ∈ D128.rhsNonContracting by decide)]
  rfl

/-- The block product into a zero accumulator, at `(p, q)`: the sum over the 128 contracted positions. -/
theorem matmul128_at (l : FVec Ideal S2000x128 .bf16) (r : FVec Ideal S128x128 .bf16) (p : Fin 2000) (q : Fin 128) :
    FloatOps.matmul D128 none l r (constant S2000x128 .f32 0x00000000#32) (ix2 p q) = ∑ k : Fin 128, l (ix2 p k) * r (ix2 k q) := by
  rw [Ideal.matmul_constant_zero_apply, ← Equiv.sum_comp (ValueIdx.contrEquiv1 D128 128 rfl rfl).symm]
  refine Finset.sum_congr rfl fun k _ => ?_
  have hk := ValueIdx.contrEquiv1_symm_val D128 128 rfl rfl k
  have el : D128.lhsIdx (ix2 p q) ((ValueIdx.contrEquiv1 D128 128 rfl rfl).symm k) = ix2 p k := funext fun a => Fin.ext (by
    match a with
    | ⟨0, _⟩ => exact lhs128_0 _ _
    | ⟨1, _⟩ => exact (lhs128_1 _ _).trans hk)
  have er : D128.rhsIdx (ix2 p q) ((ValueIdx.contrEquiv1 D128 128 rfl rfl).symm k) = ix2 k q := funext fun a => Fin.ext (by
    match a with
    | ⟨0, _⟩ => exact (rhs128_0 _ _).trans hk
    | ⟨1, _⟩ => exact rhs128_1 _ _)
  rw [el, er]

/-! ## The two stored values at an entry -/

/-- Layer 1: the rectified value at `(p, q)`. -/
theorem relu0_at (x0 : Vec Ideal S2000x8 .f32) (x1 : Vec Ideal S2000x1 .f32) (x3 : Vec Ideal S8x128 .bf16) (x4 : Vec Ideal S1x128 .f32)
    (p : Fin 2000) (q : Fin 128) :
    k0_pay1 x0 x1 x3 x4 (ix2 p q)
      = max ((∑ k : Fin 8, (x0 (ix2 p k) * x1 (ix2 p (0 : Fin 1))) * x3 (ix2 k q)) + x4 (ix2 (0 : Fin 1) q)) (Ideal.ofBits .f32 0x00000000#32) := by
  unfold k0_pay1
  simp only [shapeCast_self]
  refine congrArg₂ max (congrArg₂ (· + ·) ?_ ?_) rfl
  · refine (matmul8_at _ _ p q).trans (Finset.sum_congr rfl fun k _ => ?_)
    refine congrArg₂ (· * ·) ?_ rfl
    exact congrArg (x0 (ix2 p k) * ·) (broadcastTo_a1_ab_apply x1 _ p k)
  · exact broadcastTo_1b_ab_apply x4 _ p q

/-- Layer 1: the message value at `(p, q)`: the rectified value times the row's source normalisation. -/
theorem msg0_at (x0 : Vec Ideal S2000x8 .f32) (x1 : Vec Ideal S2000x1 .f32) (x3 : Vec Ideal S8x128 .bf16) (x4 : Vec Ideal S1x128 .f32) (x2 : Vec Ideal S2000x1 .f32)
    (p : Fin 2000) (q : Fin 128) :
    k0_pay2 x0 x1 x3 x4 x2 (ix2 p q) = k0_pay1 x0 x1 x3 x4 (ix2 p q) * x2 (ix2 p (0 : Fin 1)) := by
  unfold k0_pay2
  simp only [shapeCast_self]
  exact congrArg (k0_pay1 x0 x1 x3 x4 (ix2 p q) * ·) (broadcastTo_a1_ab_apply x2 _ p q)

/-- Layer 2: the rectified value at `(p, q)`. -/
theorem relu1_at (x0 : Vec Ideal S2000x128 .f32) (x1 : Vec Ideal S2000x1 .f32) (x3 : Vec Ideal S128x128 .bf16) (x4 : Vec Ideal S1x128 .f32)
    (p : Fin 2000) (q : Fin 128) :
    k1_pay1 x0 x1 x3 x4 (ix2 p q)
      = max ((∑ k : Fin 128, (x0 (ix2 p k) * x1 (ix2 p (0 : Fin 1))) * x3 (ix2 k q)) + x4 (ix2 (0 : Fin 1) q)) (Ideal.ofBits .f32 0x00000000#32) := by
  unfold k1_pay1
  simp only [shapeCast_self]
  refine congrArg₂ max (congrArg₂ (· + ·) ?_ ?_) rfl
  · refine (matmul128_at _ _ p q).trans (Finset.sum_congr rfl fun k _ => ?_)
    refine congrArg₂ (· * ·) ?_ rfl
    exact congrArg (x0 (ix2 p k) * ·) (broadcastTo_a1_ab_apply x1 _ p k)
  · exact broadcastTo_1b_ab_apply x4 _ p q

/-- Layer 2: the message value at `(p, q)`: the rectified value times the row's source normalisation. -/
theorem msg1_at (x0 : Vec Ideal S2000x128 .f32) (x1 : Vec Ideal S2000x1 .f32) (x3 : Vec Ideal S128x128 .bf16) (x4 : Vec Ideal S1x128 .f32) (x2 : Vec Ideal S2000x1 .f32)
    (p : Fin 2000) (q : Fin 128) :
    k1_pay2 x0 x1 x3 x4 x2 (ix2 p q) = k1_pay1 x0 x1 x3 x4 (ix2 p q) * x2 (ix2 p (0 : Fin 1)) := by
  unfold k1_pay2
  simp only [shapeCast_self]
  exact congrArg (k1_pay1 x0 x1 x3 x4 (ix2 p q) * ·) (broadcastTo_a1_ab_apply x2 _ p q)

/-- Layer 3: the rectified value at `(p, q)`. -/
theorem relu2_at (x0 : Vec Ideal S2000x128 .f32) (x1 : Vec Ideal S2000x1 .f32) (x3 : Vec Ideal S128x128 .bf16) (x4 : Vec Ideal S1x128 .f32)
    (p : Fin 2000) (q : Fin 128) :
    k2_pay1 x0 x1 x3 x4 (ix2 p q)
      = max ((∑ k : Fin 128, (x0 (ix2 p k) * x1 (ix2 p (0 : Fin 1))) * x3 (ix2 k q)) + x4 (ix2 (0 : Fin 1) q)) (Ideal.ofBits .f32 0x00000000#32) := by
  unfold k2_pay1
  simp only [shapeCast_self]
  refine congrArg₂ max (congrArg₂ (· + ·) ?_ ?_) rfl
  · refine (matmul128_at _ _ p q).trans (Finset.sum_congr rfl fun k _ => ?_)
    refine congrArg₂ (· * ·) ?_ rfl
    exact congrArg (x0 (ix2 p k) * ·) (broadcastTo_a1_ab_apply x1 _ p k)
  · exact broadcastTo_1b_ab_apply x4 _ p q

/-- Layer 3: the message value at `(p, q)`: the rectified value times the row's source normalisation. -/
theorem msg2_at (x0 : Vec Ideal S2000x128 .f32) (x1 : Vec Ideal S2000x1 .f32) (x3 : Vec Ideal S128x128 .bf16) (x4 : Vec Ideal S1x128 .f32) (x2 : Vec Ideal S2000x1 .f32)
    (p : Fin 2000) (q : Fin 128) :
    k2_pay2 x0 x1 x3 x4 x2 (ix2 p q) = k2_pay1 x0 x1 x3 x4 (ix2 p q) * x2 (ix2 p (0 : Fin 1)) := by
  unfold k2_pay2
  simp only [shapeCast_self]
  exact congrArg (k2_pay1 x0 x1 x3 x4 (ix2 p q) * ·) (broadcastTo_a1_ab_apply x2 _ p q)

/-- Layer 4: the rectified value at `(p, q)`. -/
theorem relu3_at (x0 : Vec Ideal S2000x128 .f32) (x1 : Vec Ideal S2000x1 .f32) (x3 : Vec Ideal S128x128 .bf16) (x4 : Vec Ideal S1x128 .f32)
    (p : Fin 2000) (q : Fin 128) :
    k3_pay1 x0 x1 x3 x4 (ix2 p q)
      = max ((∑ k : Fin 128, (x0 (ix2 p k) * x1 (ix2 p (0 : Fin 1))) * x3 (ix2 k q)) + x4 (ix2 (0 : Fin 1) q)) (Ideal.ofBits .f32 0x00000000#32) := by
  unfold k3_pay1
  simp only [shapeCast_self]
  refine congrArg₂ max (congrArg₂ (· + ·) ?_ ?_) rfl
  · refine (matmul128_at _ _ p q).trans (Finset.sum_congr rfl fun k _ => ?_)
    refine congrArg₂ (· * ·) ?_ rfl
    exact congrArg (x0 (ix2 p k) * ·) (broadcastTo_a1_ab_apply x1 _ p k)
  · exact broadcastTo_1b_ab_apply x4 _ p q

/-- Layer 4: the message value at `(p, q)`: the rectified value times the row's source normalisation. -/
theorem msg3_at (x0 : Vec Ideal S2000x128 .f32) (x1 : Vec Ideal S2000x1 .f32) (x3 : Vec Ideal S128x128 .bf16) (x4 : Vec Ideal S1x128 .f32) (x2 : Vec Ideal S2000x1 .f32)
    (p : Fin 2000) (q : Fin 128) :
    k3_pay2 x0 x1 x3 x4 x2 (ix2 p q) = k3_pay1 x0 x1 x3 x4 (ix2 p q) * x2 (ix2 p (0 : Fin 1)) := by
  unfold k3_pay2
  simp only [shapeCast_self]
  exact congrArg (k3_pay1 x0 x1 x3 x4 (ix2 p q) * ·) (broadcastTo_a1_ab_apply x2 _ p q)

/-- Layer 5: the rectified value at `(p, q)`. -/
theorem relu4_at (x0 : Vec Ideal S2000x128 .f32) (x1 : Vec Ideal S2000x1 .f32) (x3 : Vec Ideal S128x128 .bf16) (x4 : Vec Ideal S1x128 .f32)
    (p : Fin 2000) (q : Fin 128) :
    k4_pay1 x0 x1 x3 x4 (ix2 p q)
      = max ((∑ k : Fin 128, (x0 (ix2 p k) * x1 (ix2 p (0 : Fin 1))) * x3 (ix2 k q)) + x4 (ix2 (0 : Fin 1) q)) (Ideal.ofBits .f32 0x00000000#32) := by
  unfold k4_pay1
  simp only [shapeCast_self]
  refine congrArg₂ max (congrArg₂ (· + ·) ?_ ?_) rfl
  · refine (matmul128_at _ _ p q).trans (Finset.sum_congr rfl fun k _ => ?_)
    refine congrArg₂ (· * ·) ?_ rfl
    exact congrArg (x0 (ix2 p k) * ·) (broadcastTo_a1_ab_apply x1 _ p k)
  · exact broadcastTo_1b_ab_apply x4 _ p q

/-- Layer 5: the message value at `(p, q)`: the rectified value times the row's source normalisation. -/
theorem msg4_at (x0 : Vec Ideal S2000x128 .f32) (x1 : Vec Ideal S2000x1 .f32) (x3 : Vec Ideal S128x128 .bf16) (x4 : Vec Ideal S1x128 .f32) (x2 : Vec Ideal S2000x1 .f32)
    (p : Fin 2000) (q : Fin 128) :
    k4_pay2 x0 x1 x3 x4 x2 (ix2 p q) = k4_pay1 x0 x1 x3 x4 (ix2 p q) * x2 (ix2 p (0 : Fin 1)) := by
  unfold k4_pay2
  simp only [shapeCast_self]
  exact congrArg (k4_pay1 x0 x1 x3 x4 (ix2 p q) * ·) (broadcastTo_a1_ab_apply x2 _ p q)

end Cert.KernelIdeal.Pay

end
-- ==== Proof.KernelIdeal.Block0.lean ====
import proofs.«142413_j67980742361104_2_alg».proof.Proof.KernelIdeal.Conv0
import proofs.«142413_j67980742361104_2_alg».proof.Proof.KernelIdeal.Pay

/-!
# Layer 1: what the launch leaves in its two output arrays

The 25 grid points write back the 25 row blocks of each output, and block `t` of either output depends only on
rows `2000·t … 2000·t + 1999` of the row-blocked inputs and on the whole weight matrix and bias. So after the launch
the rectified output holds, at `(r, j)`, `max (∑ₖ (agg r k · n_dst r) · W k j + b j, 0)` of the arrays found at entry,
and the message output that value times `n_src r`.
-/

set_option maxRecDepth 16384

noncomputable section

namespace Cert.KernelIdeal.Conv0

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five operand arrays as the layer finds them, as functions into the extended reals. -/
abbrev arr0 (c : Dev nD) : S50000x8.Idx → EReal := V c main_v43
abbrev arr1 (c : Dev nD) : S50000x1.Idx → EReal := V c main_v44
abbrev arr2 (c : Dev nD) : S50000x1.Idx → EReal := V c main_v45
abbrev arr3 (c : Dev nD) : S8x128.Idx → EReal := V c main_v46
abbrev arr4 (c : Dev nD) : S1x128.Idx → EReal := V c main_v47

/-- The row and the column of an entry of a `50000 × 128` array. -/
abbrev row (i : S50000x128.Idx) : Fin 50000 := ⟨(i 0).val, (i 0).isLt⟩
abbrev col (i : S50000x128.Idx) : Fin 128 := ⟨(i 1).val, (i 1).isLt⟩

/-- The rectified output as one function of the aggregated features, the destination normalisations (a column), the
    weights and the bias (a row). -/
def reluArr (A : S50000x8.Idx → EReal) (nd : S50000x1.Idx → EReal) (W : S8x128.Idx → EReal) (b : S1x128.Idx → EReal) : S50000x128.Idx → EReal :=
  fun i => max ((∑ k : Fin 8, (A (ix2 (row i) k) * nd (ix2 (row i) (0 : Fin 1))) * W (ix2 k (col i))) + b (ix2 (0 : Fin 1) (col i)))
    (Ideal.ofBits .f32 0x00000000#32)

/-- The message output: the rectified output scaled row by row by the source normalisations (a column). -/
def msgArr (A : S50000x8.Idx → EReal) (nd : S50000x1.Idx → EReal) (W : S8x128.Idx → EReal) (b : S1x128.Idx → EReal) (ns : S50000x1.Idx → EReal) : S50000x128.Idx → EReal :=
  fun i => reluArr A nd W b i * ns (ix2 (row i) (0 : Fin 1))

/-- The block index maps over the grid: the row-blocked operands move with the outputs, on axis 0 only; the weights and the
    bias stay at block `(0, 0)`. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 24
    ∧ win0_6.index t (0 : Fin 2) = win0_5.index t (0 : Fin 2) ∧ win0_6.index t (1 : Fin 2) = 0 :=
  (by decide +kernel : ∀ t : Fin grid0.N, _)

/-- Every one of the 25 row blocks is some point's. -/
theorem idx_onto : ∀ q0 : Fin 25, ∃ t : Fin cfg0.N, win0_5.index t = ![q0.val, 0] ∧ win0_6.index t = ![q0.val, 0] :=
  (by decide +kernel : ∀ q0 : Fin 25, ∃ t : Fin grid0.N, win0_5.index t = ![q0.val, 0] ∧ win0_6.index t = ![q0.val, 0])

/-! ## Where an entry of a block sits in its array -/

theorem emb0 (t : Fin cfg0.N) (p : Fin 2000) (k : Fin 8) (i : S50000x128.Idx)
    (hi : (i 0).val = win0_5.index t (0 : Fin 2) * 2000 + p.val) :
    ((cfg0.win 0).blk t).view.emb (ix2 p k) = ix2 (row i) k := by
  obtain ⟨e00, e01, -⟩ := idx_facts t
  funext a; apply Fin.ext
  match a with
  | ⟨0, _⟩ => show win0_0.index t (0 : Fin 2) * 2000 + 1 * p.val = (i 0).val; omega
  | ⟨1, _⟩ => show win0_0.index t (1 : Fin 2) * 8 + 1 * k.val = k.val; omega
theorem emb1 (t : Fin cfg0.N) (p : Fin 2000) (i : S50000x128.Idx)
    (hi : (i 0).val = win0_5.index t (0 : Fin 2) * 2000 + p.val) :
    ((cfg0.win 1).blk t).view.emb (ix2 p (0 : Fin 1)) = ix2 (row i) (0 : Fin 1) := by
  obtain ⟨-, -, e10, e11, -⟩ := idx_facts t
  funext a; apply Fin.ext
  match a with
  | ⟨0, _⟩ => show win0_1.index t (0 : Fin 2) * 2000 + 1 * p.val = (i 0).val; omega
  | ⟨1, _⟩ => show win0_1.index t (1 : Fin 2) * 1 + 1 * 0 = 0; omega
theorem emb2 (t : Fin cfg0.N) (p : Fin 2000) (i : S50000x128.Idx)
    (hi : (i 0).val = win0_5.index t (0 : Fin 2) * 2000 + p.val) :
    ((cfg0.win 2).blk t).view.emb (ix2 p (0 : Fin 1)) = ix2 (row i) (0 : Fin 1) := by
  obtain ⟨-, -, -, -, e20, e21, -⟩ := idx_facts t
  funext a; apply Fin.ext
  match a with
  | ⟨0, _⟩ => show win0_2.index t (0 : Fin 2) * 2000 + 1 * p.val = (i 0).val; omega
  | ⟨1, _⟩ => show win0_2.index t (1 : Fin 2) * 1 + 1 * 0 = 0; omega
theorem emb3 (t : Fin cfg0.N) (k : Fin 8) (q : Fin 128) (i : S50000x128.Idx) (hi : (i 1).val = q.val) :
    ((cfg0.win 3).blk t).view.emb (ix2 k q) = ix2 k (col i) := by
  obtain ⟨-, -, -, -, -, -, e30, e31, -⟩ := idx_facts t
  funext a; apply Fin.ext
  match a with
  | ⟨0, _⟩ => show win0_3.index t (0 : Fin 2) * 8 + 1 * k.val = k.val; omega
  | ⟨1, _⟩ => show win0_3.index t (1 : Fin 2) * 128 + 1 * q.val = (i 1).val; omega
theorem emb4 (t : Fin cfg0.N) (q : Fin 128) (i : S50000x128.Idx) (hi : (i 1).val = q.val) :
    ((cfg0.win 4).blk t).view.emb (ix2 (0 : Fin 1) q) = ix2 (0 : Fin 1) (col i) := by
  obtain ⟨-, -, -, -, -, -, -, -, e40, e41, -⟩ := idx_facts t
  funext a; apply Fin.ext
  match a with
  | ⟨0, _⟩ => show win0_4.index t (0 : Fin 2) * 1 + 1 * 0 = 0; omega
  | ⟨1, _⟩ => show win0_4.index t (1 : Fin 2) * 128 + 1 * q.val = (i 1).val; omega
theorem emb5_0 (t : Fin cfg0.N) (p : Fin 2000) (q : Fin 128) :
    ((((cfg0.win 5).blk t).view.emb (ix2 p q)) 0).val = win0_5.index t (0 : Fin 2) * 2000 + p.val := by
  show win0_5.index t (0 : Fin 2) * 2000 + 1 * p.val = _; omega
theorem emb5_1 (t : Fin cfg0.N) (p : Fin 2000) (q : Fin 128) :
    ((((cfg0.win 5).blk t).view.emb (ix2 p q)) 1).val = q.val := by
  obtain ⟨-, -, -, -, -, -, -, -, -, -, e51, -⟩ := idx_facts t
  show win0_5.index t (1 : Fin 2) * 128 + 1 * q.val = _; omega
theorem emb6_0 (t : Fin cfg0.N) (p : Fin 2000) (q : Fin 128) :
    ((((cfg0.win 6).blk t).view.emb (ix2 p q)) 0).val = win0_5.index t (0 : Fin 2) * 2000 + p.val := by
  obtain ⟨-, -, -, -, -, -, -, -, -, -, -, -, e60, e61⟩ := idx_facts t
  show win0_6.index t (0 : Fin 2) * 2000 + 1 * p.val = _; omega
theorem emb6_1 (t : Fin cfg0.N) (p : Fin 2000) (q : Fin 128) :
    ((((cfg0.win 6).blk t).view.emb (ix2 p q)) 1).val = q.val := by
  obtain ⟨-, -, -, -, -, -, -, -, -, -, -, -, e60, e61⟩ := idx_facts t
  show win0_6.index t (1 : Fin 2) * 128 + 1 * q.val = _; omega

/-! ## What a point writes back -/

/-- The rectified value of the blocks at point `t`, at `(p, q)`, is the whole-array function at the entry's place. -/
theorem relu_blk (c : Dev nD) (t : Fin cfg0.N) (p : Fin 2000) (q : Fin 128) (i : S50000x128.Idx)
    (h0 : (i 0).val = win0_5.index t (0 : Fin 2) * 2000 + p.val) (h1 : (i 1).val = q.val) :
    k0_pay1 (iblk V c 0 t) (iblk V c 1 t) (iblk V c 3 t) (iblk V c 4 t) (ix2 p q)
      = reluArr (arr0 V c) (arr1 V c) (arr3 V c) (arr4 V c) i := by
  refine (Pay.relu0_at _ _ _ _ p q).trans ?_
  unfold reluArr
  refine congrArg₂ max (congrArg₂ (· + ·) (Finset.sum_congr rfl fun k _ => ?_) ?_) rfl
  · show (arr0 V c (((cfg0.win 0).blk t).view.emb (ix2 p k)) * arr1 V c (((cfg0.win 1).blk t).view.emb (ix2 p (0 : Fin 1))))
        * arr3 V c (((cfg0.win 3).blk t).view.emb (ix2 k q)) = _
    rw [emb0 t p k i h0, emb1 t p i h0, emb3 t k q i h1]
  · show arr4 V c (((cfg0.win 4).blk t).view.emb (ix2 (0 : Fin 1) q)) = _
    rw [emb4 t q i h1]

theorem flushed5_eq (c : Dev nD) (t : Fin cfg0.N) :
    (dat V c).flushed 5 t = ((cfg0.win 5).blk t).view.read (Elt Ideal) (reluArr (arr0 V c) (arr1 V c) (arr3 V c) (arr4 V c)) := by
  show (cfg0.win 5).cut (grid0.coords t) ((dat V c).after 5 t) = _
  rw [after_5]
  unfold outRelu
  rw [View.canon_unit_zero hz]
  simp only [View.ld_unit_zero (S := S2000x8) hz, View.ld_unit_zero (S := S2000x1) hz, View.ld_unit_zero (S := S8x128) hz, View.ld_unit_zero (S := S1x128) hz]
  funext j
  obtain ⟨p, q, rfl⟩ : ∃ (p : Fin 2000) (q : Fin 128), j = ix2 p q := ⟨j 0, j 1, eq_ix2 j⟩
  exact relu_blk V c t p q _ (emb5_0 t p q) (emb5_1 t p q)

theorem flushed6_eq (c : Dev nD) (t : Fin cfg0.N) :
    (dat V c).flushed 6 t = ((cfg0.win 6).blk t).view.read (Elt Ideal) (msgArr (arr0 V c) (arr1 V c) (arr3 V c) (arr4 V c) (arr2 V c)) := by
  show (cfg0.win 6).cut (grid0.coords t) ((dat V c).after 6 t) = _
  rw [after_6]
  unfold outMsg
  rw [View.canon_unit_zero hz]
  simp only [View.ld_unit_zero (S := S2000x8) hz, View.ld_unit_zero (S := S2000x1) hz, View.ld_unit_zero (S := S8x128) hz, View.ld_unit_zero (S := S1x128) hz]
  funext j
  obtain ⟨p, q, rfl⟩ : ∃ (p : Fin 2000) (q : Fin 128), j = ix2 p q := ⟨j 0, j 1, eq_ix2 j⟩
  refine (Pay.msg0_at _ _ _ _ _ p q).trans ?_
  show _ = msgArr _ _ _ _ _ (((cfg0.win 6).blk t).view.emb (ix2 p q))
  unfold msgArr
  refine congrArg₂ (· * ·) (relu_blk V c t p q _ (emb6_0 t p q) (emb6_1 t p q)) ?_
  show arr2 V c (((cfg0.win 2).blk t).view.emb (ix2 p (0 : Fin 1))) = _
  rw [emb2 t p _ (emb6_0 t p q)]

/-! ## The blocks cover the arrays -/

theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v48_0).slice (win0_5.rect t)).set ↔ _
  rw [View.set_slice_whole, Rect.mem_set_unit]
  exact Iff.rfl
theorem mem_blk6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v48_1).slice (win0_6.rect t)).set ↔ _
  rw [View.set_slice_whole, Rect.mem_set_unit]
  exact Iff.rfl

theorem cover5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht, -⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega
theorem cover6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, -, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-! ## The arrays after the launch -/

theorem final5 (c : Dev nD) : (dat V c).arrAt 5 cfg0.N = reluArr (arr0 V c) (arr1 V c) (arr3 V c) (arr4 V c) :=
  (dat V c).arrAt_eq_of_cover 5 _ (fun t _ => flushed5_eq V c t) cover5
theorem final6 (c : Dev nD) : (dat V c).arrAt 6 cfg0.N = msgArr (arr0 V c) (arr1 V c) (arr3 V c) (arr4 V c) (arr2 V c) :=
  (dat V c).arrAt_eq_of_cover 6 _ (fun t _ => flushed6_eq V c t) cover6

end Cert.KernelIdeal.Conv0

end
-- ==== Proof.KernelIdeal.Block1.lean ====
import proofs.«142413_j67980742361104_2_alg».proof.Proof.KernelIdeal.Conv1
import proofs.«142413_j67980742361104_2_alg».proof.Proof.KernelIdeal.Pay

/-!
# Layer 2: what the launch leaves in its two output arrays

The 25 grid points write back the 25 row blocks of each output, and block `t` of either output depends only on
rows `2000·t … 2000·t + 1999` of the row-blocked inputs and on the whole weight matrix and bias. So after the launch
the rectified output holds, at `(r, j)`, `max (∑ₖ (agg r k · n_dst r) · W k j + b j, 0)` of the arrays found at entry,
and the message output that value times `n_src r`.
-/

set_option maxRecDepth 16384

noncomputable section

namespace Cert.KernelIdeal.Conv1

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five operand arrays as the layer finds them, as functions into the extended reals. -/
abbrev arr0 (c : Dev nD) : S50000x128.Idx → EReal := V c main_v59
abbrev arr1 (c : Dev nD) : S50000x1.Idx → EReal := V c main_v60
abbrev arr2 (c : Dev nD) : S50000x1.Idx → EReal := V c main_v61
abbrev arr3 (c : Dev nD) : S128x128.Idx → EReal := V c main_v62
abbrev arr4 (c : Dev nD) : S1x128.Idx → EReal := V c main_v63

/-- The row and the column of an entry of a `50000 × 128` array. -/
abbrev row (i : S50000x128.Idx) : Fin 50000 := ⟨(i 0).val, (i 0).isLt⟩
abbrev col (i : S50000x128.Idx) : Fin 128 := ⟨(i 1).val, (i 1).isLt⟩

/-- The rectified output as one function of the aggregated features, the destination normalisations (a column), the
    weights and the bias (a row). -/
def reluArr (A : S50000x128.Idx → EReal) (nd : S50000x1.Idx → EReal) (W : S128x128.Idx → EReal) (b : S1x128.Idx → EReal) : S50000x128.Idx → EReal :=
  fun i => max ((∑ k : Fin 128, (A (ix2 (row i) k) * nd (ix2 (row i) (0 : Fin 1))) * W (ix2 k (col i))) + b (ix2 (0 : Fin 1) (col i)))
    (Ideal.ofBits .f32 0x00000000#32)

/-- The message output: the rectified output scaled row by row by the source normalisations (a column). -/
def msgArr (A : S50000x128.Idx → EReal) (nd : S50000x1.Idx → EReal) (W : S128x128.Idx → EReal) (b : S1x128.Idx → EReal) (ns : S50000x1.Idx → EReal) : S50000x128.Idx → EReal :=
  fun i => reluArr A nd W b i * ns (ix2 (row i) (0 : Fin 1))

/-- The block index maps over the grid: the row-blocked operands move with the outputs, on axis 0 only; the weights and the
    bias stay at block `(0, 0)`. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24
    ∧ win1_6.index t (0 : Fin 2) = win1_5.index t (0 : Fin 2) ∧ win1_6.index t (1 : Fin 2) = 0 :=
  (by decide +kernel : ∀ t : Fin grid1.N, _)

/-- Every one of the 25 row blocks is some point's. -/
theorem idx_onto : ∀ q0 : Fin 25, ∃ t : Fin cfg1.N, win1_5.index t = ![q0.val, 0] ∧ win1_6.index t = ![q0.val, 0] :=
  (by decide +kernel : ∀ q0 : Fin 25, ∃ t : Fin grid1.N, win1_5.index t = ![q0.val, 0] ∧ win1_6.index t = ![q0.val, 0])

/-! ## Where an entry of a block sits in its array -/

theorem emb0 (t : Fin cfg1.N) (p : Fin 2000) (k : Fin 128) (i : S50000x128.Idx)
    (hi : (i 0).val = win1_5.index t (0 : Fin 2) * 2000 + p.val) :
    ((cfg1.win 0).blk t).view.emb (ix2 p k) = ix2 (row i) k := by
  obtain ⟨e00, e01, -⟩ := idx_facts t
  funext a; apply Fin.ext
  match a with
  | ⟨0, _⟩ => show win1_0.index t (0 : Fin 2) * 2000 + 1 * p.val = (i 0).val; omega
  | ⟨1, _⟩ => show win1_0.index t (1 : Fin 2) * 128 + 1 * k.val = k.val; omega
theorem emb1 (t : Fin cfg1.N) (p : Fin 2000) (i : S50000x128.Idx)
    (hi : (i 0).val = win1_5.index t (0 : Fin 2) * 2000 + p.val) :
    ((cfg1.win 1).blk t).view.emb (ix2 p (0 : Fin 1)) = ix2 (row i) (0 : Fin 1) := by
  obtain ⟨-, -, e10, e11, -⟩ := idx_facts t
  funext a; apply Fin.ext
  match a with
  | ⟨0, _⟩ => show win1_1.index t (0 : Fin 2) * 2000 + 1 * p.val = (i 0).val; omega
  | ⟨1, _⟩ => show win1_1.index t (1 : Fin 2) * 1 + 1 * 0 = 0; omega
theorem emb2 (t : Fin cfg1.N) (p : Fin 2000) (i : S50000x128.Idx)
    (hi : (i 0).val = win1_5.index t (0 : Fin 2) * 2000 + p.val) :
    ((cfg1.win 2).blk t).view.emb (ix2 p (0 : Fin 1)) = ix2 (row i) (0 : Fin 1) := by
  obtain ⟨-, -, -, -, e20, e21, -⟩ := idx_facts t
  funext a; apply Fin.ext
  match a with
  | ⟨0, _⟩ => show win1_2.index t (0 : Fin 2) * 2000 + 1 * p.val = (i 0).val; omega
  | ⟨1, _⟩ => show win1_2.index t (1 : Fin 2) * 1 + 1 * 0 = 0; omega
theorem emb3 (t : Fin cfg1.N) (k : Fin 128) (q : Fin 128) (i : S50000x128.Idx) (hi : (i 1).val = q.val) :
    ((cfg1.win 3).blk t).view.emb (ix2 k q) = ix2 k (col i) := by
  obtain ⟨-, -, -, -, -, -, e30, e31, -⟩ := idx_facts t
  funext a; apply Fin.ext
  match a with
  | ⟨0, _⟩ => show win1_3.index t (0 : Fin 2) * 128 + 1 * k.val = k.val; omega
  | ⟨1, _⟩ => show win1_3.index t (1 : Fin 2) * 128 + 1 * q.val = (i 1).val; omega
theorem emb4 (t : Fin cfg1.N) (q : Fin 128) (i : S50000x128.Idx) (hi : (i 1).val = q.val) :
    ((cfg1.win 4).blk t).view.emb (ix2 (0 : Fin 1) q) = ix2 (0 : Fin 1) (col i) := by
  obtain ⟨-, -, -, -, -, -, -, -, e40, e41, -⟩ := idx_facts t
  funext a; apply Fin.ext
  match a with
  | ⟨0, _⟩ => show win1_4.index t (0 : Fin 2) * 1 + 1 * 0 = 0; omega
  | ⟨1, _⟩ => show win1_4.index t (1 : Fin 2) * 128 + 1 * q.val = (i 1).val; omega
theorem emb5_0 (t : Fin cfg1.N) (p : Fin 2000) (q : Fin 128) :
    ((((cfg1.win 5).blk t).view.emb (ix2 p q)) 0).val = win1_5.index t (0 : Fin 2) * 2000 + p.val := by
  show win1_5.index t (0 : Fin 2) * 2000 + 1 * p.val = _; omega
theorem emb5_1 (t : Fin cfg1.N) (p : Fin 2000) (q : Fin 128) :
    ((((cfg1.win 5).blk t).view.emb (ix2 p q)) 1).val = q.val := by
  obtain ⟨-, -, -, -, -, -, -, -, -, -, e51, -⟩ := idx_facts t
  show win1_5.index t (1 : Fin 2) * 128 + 1 * q.val = _; omega
theorem emb6_0 (t : Fin cfg1.N) (p : Fin 2000) (q : Fin 128) :
    ((((cfg1.win 6).blk t).view.emb (ix2 p q)) 0).val = win1_5.index t (0 : Fin 2) * 2000 + p.val := by
  obtain ⟨-, -, -, -, -, -, -, -, -, -, -, -, e60, e61⟩ := idx_facts t
  show win1_6.index t (0 : Fin 2) * 2000 + 1 * p.val = _; omega
theorem emb6_1 (t : Fin cfg1.N) (p : Fin 2000) (q : Fin 128) :
    ((((cfg1.win 6).blk t).view.emb (ix2 p q)) 1).val = q.val := by
  obtain ⟨-, -, -, -, -, -, -, -, -, -, -, -, e60, e61⟩ := idx_facts t
  show win1_6.index t (1 : Fin 2) * 128 + 1 * q.val = _; omega

/-! ## What a point writes back -/

/-- The rectified value of the blocks at point `t`, at `(p, q)`, is the whole-array function at the entry's place. -/
theorem relu_blk (c : Dev nD) (t : Fin cfg1.N) (p : Fin 2000) (q : Fin 128) (i : S50000x128.Idx)
    (h0 : (i 0).val = win1_5.index t (0 : Fin 2) * 2000 + p.val) (h1 : (i 1).val = q.val) :
    k1_pay1 (iblk V c 0 t) (iblk V c 1 t) (iblk V c 3 t) (iblk V c 4 t) (ix2 p q)
      = reluArr (arr0 V c) (arr1 V c) (arr3 V c) (arr4 V c) i := by
  refine (Pay.relu1_at _ _ _ _ p q).trans ?_
  unfold reluArr
  refine congrArg₂ max (congrArg₂ (· + ·) (Finset.sum_congr rfl fun k _ => ?_) ?_) rfl
  · show (arr0 V c (((cfg1.win 0).blk t).view.emb (ix2 p k)) * arr1 V c (((cfg1.win 1).blk t).view.emb (ix2 p (0 : Fin 1))))
        * arr3 V c (((cfg1.win 3).blk t).view.emb (ix2 k q)) = _
    rw [emb0 t p k i h0, emb1 t p i h0, emb3 t k q i h1]
  · show arr4 V c (((cfg1.win 4).blk t).view.emb (ix2 (0 : Fin 1) q)) = _
    rw [emb4 t q i h1]

theorem flushed5_eq (c : Dev nD) (t : Fin cfg1.N) :
    (dat V c).flushed 5 t = ((cfg1.win 5).blk t).view.read (Elt Ideal) (reluArr (arr0 V c) (arr1 V c) (arr3 V c) (arr4 V c)) := by
  show (cfg1.win 5).cut (grid1.coords t) ((dat V c).after 5 t) = _
  rw [after_5]
  unfold outRelu
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact relu_blk V c t p q _ (emb5_0 t p q) (emb5_1 t p q)

theorem flushed6_eq (c : Dev nD) (t : Fin cfg1.N) :
    (dat V c).flushed 6 t = ((cfg1.win 6).blk t).view.read (Elt Ideal) (msgArr (arr0 V c) (arr1 V c) (arr3 V c) (arr4 V c) (arr2 V c)) := by
  show (cfg1.win 6).cut (grid1.coords t) ((dat V c).after 6 t) = _
  rw [after_6]
  unfold outMsg
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Pay.msg1_at _ _ _ _ _ p q).trans ?_
  show _ = msgArr _ _ _ _ _ (((cfg1.win 6).blk t).view.emb (ix2 p q))
  unfold msgArr
  refine congrArg₂ (· * ·) (relu_blk V c t p q _ (emb6_0 t p q) (emb6_1 t p q)) ?_
  show arr2 V c (((cfg1.win 2).blk t).view.emb (ix2 p (0 : Fin 1))) = _
  rw [emb2 t p _ (emb6_0 t p q)]

/-! ## The blocks cover the arrays -/

theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v64_0).slice (win1_5.rect t)).set ↔ _
  rw [View.set_slice_whole, Rect.mem_set_unit]
  exact Iff.rfl
theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v64_1).slice (win1_6.rect t)).set ↔ _
  rw [View.set_slice_whole, Rect.mem_set_unit]
  exact Iff.rfl

theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht, -⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega
theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, -, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-! ## The arrays after the launch -/

theorem final5 (c : Dev nD) : (dat V c).arrAt 5 cfg1.N = reluArr (arr0 V c) (arr1 V c) (arr3 V c) (arr4 V c) :=
  (dat V c).arrAt_eq_of_cover 5 _ (fun t _ => flushed5_eq V c t) cover5
theorem final6 (c : Dev nD) : (dat V c).arrAt 6 cfg1.N = msgArr (arr0 V c) (arr1 V c) (arr3 V c) (arr4 V c) (arr2 V c) :=
  (dat V c).arrAt_eq_of_cover 6 _ (fun t _ => flushed6_eq V c t) cover6

end Cert.KernelIdeal.Conv1

end
-- ==== Proof.KernelIdeal.Block2.lean ====
import proofs.«142413_j67980742361104_2_alg».proof.Proof.KernelIdeal.Conv2
import proofs.«142413_j67980742361104_2_alg».proof.Proof.KernelIdeal.Pay

/-!
# Layer 3: what the launch leaves in its two output arrays

The 25 grid points write back the 25 row blocks of each output, and block `t` of either output depends only on
rows `2000·t … 2000·t + 1999` of the row-blocked inputs and on the whole weight matrix and bias. So after the launch
the rectified output holds, at `(r, j)`, `max (∑ₖ (agg r k · n_dst r) · W k j + b j, 0)` of the arrays found at entry,
and the message output that value times `n_src r`.
-/

set_option maxRecDepth 16384

noncomputable section

namespace Cert.KernelIdeal.Conv2

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five operand arrays as the layer finds them, as functions into the extended reals. -/
abbrev arr0 (c : Dev nD) : S50000x128.Idx → EReal := V c main_v75
abbrev arr1 (c : Dev nD) : S50000x1.Idx → EReal := V c main_v76
abbrev arr2 (c : Dev nD) : S50000x1.Idx → EReal := V c main_v77
abbrev arr3 (c : Dev nD) : S128x128.Idx → EReal := V c main_v78
abbrev arr4 (c : Dev nD) : S1x128.Idx → EReal := V c main_v79

/-- The row and the column of an entry of a `50000 × 128` array. -/
abbrev row (i : S50000x128.Idx) : Fin 50000 := ⟨(i 0).val, (i 0).isLt⟩
abbrev col (i : S50000x128.Idx) : Fin 128 := ⟨(i 1).val, (i 1).isLt⟩

/-- The rectified output as one function of the aggregated features, the destination normalisations (a column), the
    weights and the bias (a row). -/
def reluArr (A : S50000x128.Idx → EReal) (nd : S50000x1.Idx → EReal) (W : S128x128.Idx → EReal) (b : S1x128.Idx → EReal) : S50000x128.Idx → EReal :=
  fun i => max ((∑ k : Fin 128, (A (ix2 (row i) k) * nd (ix2 (row i) (0 : Fin 1))) * W (ix2 k (col i))) + b (ix2 (0 : Fin 1) (col i)))
    (Ideal.ofBits .f32 0x00000000#32)

/-- The message output: the rectified output scaled row by row by the source normalisations (a column). -/
def msgArr (A : S50000x128.Idx → EReal) (nd : S50000x1.Idx → EReal) (W : S128x128.Idx → EReal) (b : S1x128.Idx → EReal) (ns : S50000x1.Idx → EReal) : S50000x128.Idx → EReal :=
  fun i => reluArr A nd W b i * ns (ix2 (row i) (0 : Fin 1))

/-- The block index maps over the grid: the row-blocked operands move with the outputs, on axis 0 only; the weights and the
    bias stay at block `(0, 0)`. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24
    ∧ win2_6.index t (0 : Fin 2) = win2_5.index t (0 : Fin 2) ∧ win2_6.index t (1 : Fin 2) = 0 :=
  (by decide +kernel : ∀ t : Fin grid2.N, _)

/-- Every one of the 25 row blocks is some point's. -/
theorem idx_onto : ∀ q0 : Fin 25, ∃ t : Fin cfg2.N, win2_5.index t = ![q0.val, 0] ∧ win2_6.index t = ![q0.val, 0] :=
  (by decide +kernel : ∀ q0 : Fin 25, ∃ t : Fin grid2.N, win2_5.index t = ![q0.val, 0] ∧ win2_6.index t = ![q0.val, 0])

/-! ## Where an entry of a block sits in its array -/

theorem emb0 (t : Fin cfg2.N) (p : Fin 2000) (k : Fin 128) (i : S50000x128.Idx)
    (hi : (i 0).val = win2_5.index t (0 : Fin 2) * 2000 + p.val) :
    ((cfg2.win 0).blk t).view.emb (ix2 p k) = ix2 (row i) k := by
  obtain ⟨e00, e01, -⟩ := idx_facts t
  funext a; apply Fin.ext
  match a with
  | ⟨0, _⟩ => show win2_0.index t (0 : Fin 2) * 2000 + 1 * p.val = (i 0).val; omega
  | ⟨1, _⟩ => show win2_0.index t (1 : Fin 2) * 128 + 1 * k.val = k.val; omega
theorem emb1 (t : Fin cfg2.N) (p : Fin 2000) (i : S50000x128.Idx)
    (hi : (i 0).val = win2_5.index t (0 : Fin 2) * 2000 + p.val) :
    ((cfg2.win 1).blk t).view.emb (ix2 p (0 : Fin 1)) = ix2 (row i) (0 : Fin 1) := by
  obtain ⟨-, -, e10, e11, -⟩ := idx_facts t
  funext a; apply Fin.ext
  match a with
  | ⟨0, _⟩ => show win2_1.index t (0 : Fin 2) * 2000 + 1 * p.val = (i 0).val; omega
  | ⟨1, _⟩ => show win2_1.index t (1 : Fin 2) * 1 + 1 * 0 = 0; omega
theorem emb2 (t : Fin cfg2.N) (p : Fin 2000) (i : S50000x128.Idx)
    (hi : (i 0).val = win2_5.index t (0 : Fin 2) * 2000 + p.val) :
    ((cfg2.win 2).blk t).view.emb (ix2 p (0 : Fin 1)) = ix2 (row i) (0 : Fin 1) := by
  obtain ⟨-, -, -, -, e20, e21, -⟩ := idx_facts t
  funext a; apply Fin.ext
  match a with
  | ⟨0, _⟩ => show win2_2.index t (0 : Fin 2) * 2000 + 1 * p.val = (i 0).val; omega
  | ⟨1, _⟩ => show win2_2.index t (1 : Fin 2) * 1 + 1 * 0 = 0; omega
theorem emb3 (t : Fin cfg2.N) (k : Fin 128) (q : Fin 128) (i : S50000x128.Idx) (hi : (i 1).val = q.val) :
    ((cfg2.win 3).blk t).view.emb (ix2 k q) = ix2 k (col i) := by
  obtain ⟨-, -, -, -, -, -, e30, e31, -⟩ := idx_facts t
  funext a; apply Fin.ext
  match a with
  | ⟨0, _⟩ => show win2_3.index t (0 : Fin 2) * 128 + 1 * k.val = k.val; omega
  | ⟨1, _⟩ => show win2_3.index t (1 : Fin 2) * 128 + 1 * q.val = (i 1).val; omega
theorem emb4 (t : Fin cfg2.N) (q : Fin 128) (i : S50000x128.Idx) (hi : (i 1).val = q.val) :
    ((cfg2.win 4).blk t).view.emb (ix2 (0 : Fin 1) q) = ix2 (0 : Fin 1) (col i) := by
  obtain ⟨-, -, -, -, -, -, -, -, e40, e41, -⟩ := idx_facts t
  funext a; apply Fin.ext
  match a with
  | ⟨0, _⟩ => show win2_4.index t (0 : Fin 2) * 1 + 1 * 0 = 0; omega
  | ⟨1, _⟩ => show win2_4.index t (1 : Fin 2) * 128 + 1 * q.val = (i 1).val; omega
theorem emb5_0 (t : Fin cfg2.N) (p : Fin 2000) (q : Fin 128) :
    ((((cfg2.win 5).blk t).view.emb (ix2 p q)) 0).val = win2_5.index t (0 : Fin 2) * 2000 + p.val := by
  show win2_5.index t (0 : Fin 2) * 2000 + 1 * p.val = _; omega
theorem emb5_1 (t : Fin cfg2.N) (p : Fin 2000) (q : Fin 128) :
    ((((cfg2.win 5).blk t).view.emb (ix2 p q)) 1).val = q.val := by
  obtain ⟨-, -, -, -, -, -, -, -, -, -, e51, -⟩ := idx_facts t
  show win2_5.index t (1 : Fin 2) * 128 + 1 * q.val = _; omega
theorem emb6_0 (t : Fin cfg2.N) (p : Fin 2000) (q : Fin 128) :
    ((((cfg2.win 6).blk t).view.emb (ix2 p q)) 0).val = win2_5.index t (0 : Fin 2) * 2000 + p.val := by
  obtain ⟨-, -, -, -, -, -, -, -, -, -, -, -, e60, e61⟩ := idx_facts t
  show win2_6.index t (0 : Fin 2) * 2000 + 1 * p.val = _; omega
theorem emb6_1 (t : Fin cfg2.N) (p : Fin 2000) (q : Fin 128) :
    ((((cfg2.win 6).blk t).view.emb (ix2 p q)) 1).val = q.val := by
  obtain ⟨-, -, -, -, -, -, -, -, -, -, -, -, e60, e61⟩ := idx_facts t
  show win2_6.index t (1 : Fin 2) * 128 + 1 * q.val = _; omega

/-! ## What a point writes back -/

/-- The rectified value of the blocks at point `t`, at `(p, q)`, is the whole-array function at the entry's place. -/
theorem relu_blk (c : Dev nD) (t : Fin cfg2.N) (p : Fin 2000) (q : Fin 128) (i : S50000x128.Idx)
    (h0 : (i 0).val = win2_5.index t (0 : Fin 2) * 2000 + p.val) (h1 : (i 1).val = q.val) :
    k2_pay1 (iblk V c 0 t) (iblk V c 1 t) (iblk V c 3 t) (iblk V c 4 t) (ix2 p q)
      = reluArr (arr0 V c) (arr1 V c) (arr3 V c) (arr4 V c) i := by
  refine (Pay.relu2_at _ _ _ _ p q).trans ?_
  unfold reluArr
  refine congrArg₂ max (congrArg₂ (· + ·) (Finset.sum_congr rfl fun k _ => ?_) ?_) rfl
  · show (arr0 V c (((cfg2.win 0).blk t).view.emb (ix2 p k)) * arr1 V c (((cfg2.win 1).blk t).view.emb (ix2 p (0 : Fin 1))))
        * arr3 V c (((cfg2.win 3).blk t).view.emb (ix2 k q)) = _
    rw [emb0 t p k i h0, emb1 t p i h0, emb3 t k q i h1]
  · show arr4 V c (((cfg2.win 4).blk t).view.emb (ix2 (0 : Fin 1) q)) = _
    rw [emb4 t q i h1]

theorem flushed5_eq (c : Dev nD) (t : Fin cfg2.N) :
    (dat V c).flushed 5 t = ((cfg2.win 5).blk t).view.read (Elt Ideal) (reluArr (arr0 V c) (arr1 V c) (arr3 V c) (arr4 V c)) := by
  show (cfg2.win 5).cut (grid2.coords t) ((dat V c).after 5 t) = _
  rw [after_5]
  unfold outRelu
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact relu_blk V c t p q _ (emb5_0 t p q) (emb5_1 t p q)

theorem flushed6_eq (c : Dev nD) (t : Fin cfg2.N) :
    (dat V c).flushed 6 t = ((cfg2.win 6).blk t).view.read (Elt Ideal) (msgArr (arr0 V c) (arr1 V c) (arr3 V c) (arr4 V c) (arr2 V c)) := by
  show (cfg2.win 6).cut (grid2.coords t) ((dat V c).after 6 t) = _
  rw [after_6]
  unfold outMsg
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Pay.msg2_at _ _ _ _ _ p q).trans ?_
  show _ = msgArr _ _ _ _ _ (((cfg2.win 6).blk t).view.emb (ix2 p q))
  unfold msgArr
  refine congrArg₂ (· * ·) (relu_blk V c t p q _ (emb6_0 t p q) (emb6_1 t p q)) ?_
  show arr2 V c (((cfg2.win 2).blk t).view.emb (ix2 p (0 : Fin 1))) = _
  rw [emb2 t p _ (emb6_0 t p q)]

/-! ## The blocks cover the arrays -/

theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v80_0).slice (win2_5.rect t)).set ↔ _
  rw [View.set_slice_whole, Rect.mem_set_unit]
  exact Iff.rfl
theorem mem_blk6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v80_1).slice (win2_6.rect t)).set ↔ _
  rw [View.set_slice_whole, Rect.mem_set_unit]
  exact Iff.rfl

theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht, -⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega
theorem cover6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, -, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-! ## The arrays after the launch -/

theorem final5 (c : Dev nD) : (dat V c).arrAt 5 cfg2.N = reluArr (arr0 V c) (arr1 V c) (arr3 V c) (arr4 V c) :=
  (dat V c).arrAt_eq_of_cover 5 _ (fun t _ => flushed5_eq V c t) cover5
theorem final6 (c : Dev nD) : (dat V c).arrAt 6 cfg2.N = msgArr (arr0 V c) (arr1 V c) (arr3 V c) (arr4 V c) (arr2 V c) :=
  (dat V c).arrAt_eq_of_cover 6 _ (fun t _ => flushed6_eq V c t) cover6

end Cert.KernelIdeal.Conv2

end
-- ==== Proof.KernelIdeal.Block3.lean ====
import proofs.«142413_j67980742361104_2_alg».proof.Proof.KernelIdeal.Conv3
import proofs.«142413_j67980742361104_2_alg».proof.Proof.KernelIdeal.Pay

/-!
# Layer 4: what the launch leaves in its two output arrays

The 25 grid points write back the 25 row blocks of each output, and block `t` of either output depends only on
rows `2000·t … 2000·t + 1999` of the row-blocked inputs and on the whole weight matrix and bias. So after the launch
the rectified output holds, at `(r, j)`, `max (∑ₖ (agg r k · n_dst r) · W k j + b j, 0)` of the arrays found at entry,
and the message output that value times `n_src r`.
-/

set_option maxRecDepth 16384

noncomputable section

namespace Cert.KernelIdeal.Conv3

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five operand arrays as the layer finds them, as functions into the extended reals. -/
abbrev arr0 (c : Dev nD) : S50000x128.Idx → EReal := V c main_v91
abbrev arr1 (c : Dev nD) : S50000x1.Idx → EReal := V c main_v92
abbrev arr2 (c : Dev nD) : S50000x1.Idx → EReal := V c main_v93
abbrev arr3 (c : Dev nD) : S128x128.Idx → EReal := V c main_v94
abbrev arr4 (c : Dev nD) : S1x128.Idx → EReal := V c main_v95

/-- The row and the column of an entry of a `50000 × 128` array. -/
abbrev row (i : S50000x128.Idx) : Fin 50000 := ⟨(i 0).val, (i 0).isLt⟩
abbrev col (i : S50000x128.Idx) : Fin 128 := ⟨(i 1).val, (i 1).isLt⟩

/-- The rectified output as one function of the aggregated features, the destination normalisations (a column), the
    weights and the bias (a row). -/
def reluArr (A : S50000x128.Idx → EReal) (nd : S50000x1.Idx → EReal) (W : S128x128.Idx → EReal) (b : S1x128.Idx → EReal) : S50000x128.Idx → EReal :=
  fun i => max ((∑ k : Fin 128, (A (ix2 (row i) k) * nd (ix2 (row i) (0 : Fin 1))) * W (ix2 k (col i))) + b (ix2 (0 : Fin 1) (col i)))
    (Ideal.ofBits .f32 0x00000000#32)

/-- The message output: the rectified output scaled row by row by the source normalisations (a column). -/
def msgArr (A : S50000x128.Idx → EReal) (nd : S50000x1.Idx → EReal) (W : S128x128.Idx → EReal) (b : S1x128.Idx → EReal) (ns : S50000x1.Idx → EReal) : S50000x128.Idx → EReal :=
  fun i => reluArr A nd W b i * ns (ix2 (row i) (0 : Fin 1))

/-- The block index maps over the grid: the row-blocked operands move with the outputs, on axis 0 only; the weights and the
    bias stay at block `(0, 0)`. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 24
    ∧ win3_6.index t (0 : Fin 2) = win3_5.index t (0 : Fin 2) ∧ win3_6.index t (1 : Fin 2) = 0 :=
  (by decide +kernel : ∀ t : Fin grid3.N, _)

/-- Every one of the 25 row blocks is some point's. -/
theorem idx_onto : ∀ q0 : Fin 25, ∃ t : Fin cfg3.N, win3_5.index t = ![q0.val, 0] ∧ win3_6.index t = ![q0.val, 0] :=
  (by decide +kernel : ∀ q0 : Fin 25, ∃ t : Fin grid3.N, win3_5.index t = ![q0.val, 0] ∧ win3_6.index t = ![q0.val, 0])

/-! ## Where an entry of a block sits in its array -/

theorem emb0 (t : Fin cfg3.N) (p : Fin 2000) (k : Fin 128) (i : S50000x128.Idx)
    (hi : (i 0).val = win3_5.index t (0 : Fin 2) * 2000 + p.val) :
    ((cfg3.win 0).blk t).view.emb (ix2 p k) = ix2 (row i) k := by
  obtain ⟨e00, e01, -⟩ := idx_facts t
  funext a; apply Fin.ext
  match a with
  | ⟨0, _⟩ => show win3_0.index t (0 : Fin 2) * 2000 + 1 * p.val = (i 0).val; omega
  | ⟨1, _⟩ => show win3_0.index t (1 : Fin 2) * 128 + 1 * k.val = k.val; omega
theorem emb1 (t : Fin cfg3.N) (p : Fin 2000) (i : S50000x128.Idx)
    (hi : (i 0).val = win3_5.index t (0 : Fin 2) * 2000 + p.val) :
    ((cfg3.win 1).blk t).view.emb (ix2 p (0 : Fin 1)) = ix2 (row i) (0 : Fin 1) := by
  obtain ⟨-, -, e10, e11, -⟩ := idx_facts t
  funext a; apply Fin.ext
  match a with
  | ⟨0, _⟩ => show win3_1.index t (0 : Fin 2) * 2000 + 1 * p.val = (i 0).val; omega
  | ⟨1, _⟩ => show win3_1.index t (1 : Fin 2) * 1 + 1 * 0 = 0; omega
theorem emb2 (t : Fin cfg3.N) (p : Fin 2000) (i : S50000x128.Idx)
    (hi : (i 0).val = win3_5.index t (0 : Fin 2) * 2000 + p.val) :
    ((cfg3.win 2).blk t).view.emb (ix2 p (0 : Fin 1)) = ix2 (row i) (0 : Fin 1) := by
  obtain ⟨-, -, -, -, e20, e21, -⟩ := idx_facts t
  funext a; apply Fin.ext
  match a with
  | ⟨0, _⟩ => show win3_2.index t (0 : Fin 2) * 2000 + 1 * p.val = (i 0).val; omega
  | ⟨1, _⟩ => show win3_2.index t (1 : Fin 2) * 1 + 1 * 0 = 0; omega
theorem emb3 (t : Fin cfg3.N) (k : Fin 128) (q : Fin 128) (i : S50000x128.Idx) (hi : (i 1).val = q.val) :
    ((cfg3.win 3).blk t).view.emb (ix2 k q) = ix2 k (col i) := by
  obtain ⟨-, -, -, -, -, -, e30, e31, -⟩ := idx_facts t
  funext a; apply Fin.ext
  match a with
  | ⟨0, _⟩ => show win3_3.index t (0 : Fin 2) * 128 + 1 * k.val = k.val; omega
  | ⟨1, _⟩ => show win3_3.index t (1 : Fin 2) * 128 + 1 * q.val = (i 1).val; omega
theorem emb4 (t : Fin cfg3.N) (q : Fin 128) (i : S50000x128.Idx) (hi : (i 1).val = q.val) :
    ((cfg3.win 4).blk t).view.emb (ix2 (0 : Fin 1) q) = ix2 (0 : Fin 1) (col i) := by
  obtain ⟨-, -, -, -, -, -, -, -, e40, e41, -⟩ := idx_facts t
  funext a; apply Fin.ext
  match a with
  | ⟨0, _⟩ => show win3_4.index t (0 : Fin 2) * 1 + 1 * 0 = 0; omega
  | ⟨1, _⟩ => show win3_4.index t (1 : Fin 2) * 128 + 1 * q.val = (i 1).val; omega
theorem emb5_0 (t : Fin cfg3.N) (p : Fin 2000) (q : Fin 128) :
    ((((cfg3.win 5).blk t).view.emb (ix2 p q)) 0).val = win3_5.index t (0 : Fin 2) * 2000 + p.val := by
  show win3_5.index t (0 : Fin 2) * 2000 + 1 * p.val = _; omega
theorem emb5_1 (t : Fin cfg3.N) (p : Fin 2000) (q : Fin 128) :
    ((((cfg3.win 5).blk t).view.emb (ix2 p q)) 1).val = q.val := by
  obtain ⟨-, -, -, -, -, -, -, -, -, -, e51, -⟩ := idx_facts t
  show win3_5.index t (1 : Fin 2) * 128 + 1 * q.val = _; omega
theorem emb6_0 (t : Fin cfg3.N) (p : Fin 2000) (q : Fin 128) :
    ((((cfg3.win 6).blk t).view.emb (ix2 p q)) 0).val = win3_5.index t (0 : Fin 2) * 2000 + p.val := by
  obtain ⟨-, -, -, -, -, -, -, -, -, -, -, -, e60, e61⟩ := idx_facts t
  show win3_6.index t (0 : Fin 2) * 2000 + 1 * p.val = _; omega
theorem emb6_1 (t : Fin cfg3.N) (p : Fin 2000) (q : Fin 128) :
    ((((cfg3.win 6).blk t).view.emb (ix2 p q)) 1).val = q.val := by
  obtain ⟨-, -, -, -, -, -, -, -, -, -, -, -, e60, e61⟩ := idx_facts t
  show win3_6.index t (1 : Fin 2) * 128 + 1 * q.val = _; omega

/-! ## What a point writes back -/

/-- The rectified value of the blocks at point `t`, at `(p, q)`, is the whole-array function at the entry's place. -/
theorem relu_blk (c : Dev nD) (t : Fin cfg3.N) (p : Fin 2000) (q : Fin 128) (i : S50000x128.Idx)
    (h0 : (i 0).val = win3_5.index t (0 : Fin 2) * 2000 + p.val) (h1 : (i 1).val = q.val) :
    k3_pay1 (iblk V c 0 t) (iblk V c 1 t) (iblk V c 3 t) (iblk V c 4 t) (ix2 p q)
      = reluArr (arr0 V c) (arr1 V c) (arr3 V c) (arr4 V c) i := by
  refine (Pay.relu3_at _ _ _ _ p q).trans ?_
  unfold reluArr
  refine congrArg₂ max (congrArg₂ (· + ·) (Finset.sum_congr rfl fun k _ => ?_) ?_) rfl
  · show (arr0 V c (((cfg3.win 0).blk t).view.emb (ix2 p k)) * arr1 V c (((cfg3.win 1).blk t).view.emb (ix2 p (0 : Fin 1))))
        * arr3 V c (((cfg3.win 3).blk t).view.emb (ix2 k q)) = _
    rw [emb0 t p k i h0, emb1 t p i h0, emb3 t k q i h1]
  · show arr4 V c (((cfg3.win 4).blk t).view.emb (ix2 (0 : Fin 1) q)) = _
    rw [emb4 t q i h1]

theorem flushed5_eq (c : Dev nD) (t : Fin cfg3.N) :
    (dat V c).flushed 5 t = ((cfg3.win 5).blk t).view.read (Elt Ideal) (reluArr (arr0 V c) (arr1 V c) (arr3 V c) (arr4 V c)) := by
  show (cfg3.win 5).cut (grid3.coords t) ((dat V c).after 5 t) = _
  rw [after_5]
  unfold outRelu
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact relu_blk V c t p q _ (emb5_0 t p q) (emb5_1 t p q)

theorem flushed6_eq (c : Dev nD) (t : Fin cfg3.N) :
    (dat V c).flushed 6 t = ((cfg3.win 6).blk t).view.read (Elt Ideal) (msgArr (arr0 V c) (arr1 V c) (arr3 V c) (arr4 V c) (arr2 V c)) := by
  show (cfg3.win 6).cut (grid3.coords t) ((dat V c).after 6 t) = _
  rw [after_6]
  unfold outMsg
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Pay.msg3_at _ _ _ _ _ p q).trans ?_
  show _ = msgArr _ _ _ _ _ (((cfg3.win 6).blk t).view.emb (ix2 p q))
  unfold msgArr
  refine congrArg₂ (· * ·) (relu_blk V c t p q _ (emb6_0 t p q) (emb6_1 t p q)) ?_
  show arr2 V c (((cfg3.win 2).blk t).view.emb (ix2 p (0 : Fin 1))) = _
  rw [emb2 t p _ (emb6_0 t p q)]

/-! ## The blocks cover the arrays -/

theorem mem_blk5 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v96_0).slice (win3_5.rect t)).set ↔ _
  rw [View.set_slice_whole, Rect.mem_set_unit]
  exact Iff.rfl
theorem mem_blk6 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v96_1).slice (win3_6.rect t)).set ↔ _
  rw [View.set_slice_whole, Rect.mem_set_unit]
  exact Iff.rfl

theorem cover5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht, -⟩ := idx_onto ⟨(i 0).val / 2000, by omega⟩
  have q0 : win3_5.index t (0 : Fin 2) = (i 0).val / 2000 := congrFun ht 0
  have q1 : win3_5.index t (1 : Fin 2) = 0 := congrFun ht 1
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega
theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, -, ht⟩ := idx_onto ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_blk6]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-! ## The arrays after the launch -/

theorem final5 (c : Dev nD) : (dat V c).arrAt 5 cfg3.N = reluArr (arr0 V c) (arr1 V c) (arr3 V c) (arr4 V c) :=
  (dat V c).arrAt_eq_of_cover 5 _ (fun t _ => flushed5_eq V c t) cover5
theorem final6 (c : Dev nD) : (dat V c).arrAt 6 cfg3.N = msgArr (arr0 V c) (arr1 V c) (arr3 V c) (arr4 V c) (arr2 V c) :=
  (dat V c).arrAt_eq_of_cover 6 _ (fun t _ => flushed6_eq V c t) cover6

end Cert.KernelIdeal.Conv3

end
-- ==== Proof.KernelIdeal.Block4.lean ====
import proofs.«142413_j67980742361104_2_alg».proof.Proof.KernelIdeal.Conv4
import proofs.«142413_j67980742361104_2_alg».proof.Proof.KernelIdeal.Pay

/-!
# Layer 5: what the launch leaves in its two output arrays

The 25 grid points write back the 25 row blocks of each output, and block `t` of either output depends only on
rows `2000·t … 2000·t + 1999` of the row-blocked inputs and on the whole weight matrix and bias. So after the launch
the rectified output holds, at `(r, j)`, `max (∑ₖ (agg r k · n_dst r) · W k j + b j, 0)` of the arrays found at entry,
and the message output that value times `n_src r`.
-/

set_option maxRecDepth 16384

noncomputable section

namespace Cert.KernelIdeal.Conv4

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The five operand arrays as the layer finds them, as functions into the extended reals. -/
abbrev arr0 (c : Dev nD) : S50000x128.Idx → EReal := V c main_v107
abbrev arr1 (c : Dev nD) : S50000x1.Idx → EReal := V c main_v108
abbrev arr2 (c : Dev nD) : S50000x1.Idx → EReal := V c main_v109
abbrev arr3 (c : Dev nD) : S128x128.Idx → EReal := V c main_v110
abbrev arr4 (c : Dev nD) : S1x128.Idx → EReal := V c main_v111

/-- The row and the column of an entry of a `50000 × 128` array. -/
abbrev row (i : S50000x128.Idx) : Fin 50000 := ⟨(i 0).val, (i 0).isLt⟩
abbrev col (i : S50000x128.Idx) : Fin 128 := ⟨(i 1).val, (i 1).isLt⟩

/-- The rectified output as one function of the aggregated features, the destination normalisations (a column), the
    weights and the bias (a row). -/
def reluArr (A : S50000x128.Idx → EReal) (nd : S50000x1.Idx → EReal) (W : S128x128.Idx → EReal) (b : S1x128.Idx → EReal) : S50000x128.Idx → EReal :=
  fun i => max ((∑ k : Fin 128, (A (ix2 (row i) k) * nd (ix2 (row i) (0 : Fin 1))) * W (ix2 k (col i))) + b (ix2 (0 : Fin 1) (col i)))
    (Ideal.ofBits .f32 0x00000000#32)

/-- The message output: the rectified output scaled row by row by the source normalisations (a column). -/
def msgArr (A : S50000x128.Idx → EReal) (nd : S50000x1.Idx → EReal) (W : S128x128.Idx → EReal) (b : S1x128.Idx → EReal) (ns : S50000x1.Idx → EReal) : S50000x128.Idx → EReal :=
  fun i => reluArr A nd W b i * ns (ix2 (row i) (0 : Fin 1))

/-- The block index maps over the grid: the row-blocked operands move with the outputs, on axis 0 only; the weights and the
    bias stay at block `(0, 0)`. -/
theorem idx_facts : ∀ t : Fin cfg4.N,
    win4_0.index t (0 : Fin 2) = win4_5.index t (0 : Fin 2) ∧ win4_0.index t (1 : Fin 2) = 0
    ∧ win4_1.index t (0 : Fin 2) = win4_5.index t (0 : Fin 2) ∧ win4_1.index t (1 : Fin 2) = 0
    ∧ win4_2.index t (0 : Fin 2) = win4_5.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (1 : Fin 2) = 0 ∧ win4_5.index t (0 : Fin 2) ≤ 24
    ∧ win4_6.index t (0 : Fin 2) = win4_5.index t (0 : Fin 2) ∧ win4_6.index t (1 : Fin 2) = 0 :=
  (by decide +kernel : ∀ t : Fin grid4.N, _)

/-- Every one of the 25 row blocks is some point's. -/
theorem idx_onto : ∀ q0 : Fin 25, ∃ t : Fin cfg4.N, win4_5.index t = ![q0.val, 0] ∧ win4_6.index t = ![q0.val, 0] :=
  (by decide +kernel : ∀ q0 : Fin 25, ∃ t : Fin grid4.N, win4_5.index t = ![q0.val, 0] ∧ win4_6.index t = ![q0.val, 0])

/-! ## Where an entry of a block sits in its array -/

theorem emb0 (t : Fin cfg4.N) (p : Fin 2000) (k : Fin 128) (i : S50000x128.Idx)
    (hi : (i 0).val = win4_5.index t (0 : Fin 2) * 2000 + p.val) :
    ((cfg4.win 0).blk t).view.emb (ix2 p k) = ix2 (row i) k := by
  obtain ⟨e00, e01, -⟩ := idx_facts t
  funext a; apply Fin.ext
  match a with
  | ⟨0, _⟩ => show win4_0.index t (0 : Fin 2) * 2000 + 1 * p.val = (i 0).val; omega
  | ⟨1, _⟩ => show win4_0.index t (1 : Fin 2) * 128 + 1 * k.val = k.val; omega
theorem emb1 (t : Fin cfg4.N) (p : Fin 2000) (i : S50000x128.Idx)
    (hi : (i 0).val = win4_5.index t (0 : Fin 2) * 2000 + p.val) :
    ((cfg4.win 1).blk t).view.emb (ix2 p (0 : Fin 1)) = ix2 (row i) (0 : Fin 1) := by
  obtain ⟨-, -, e10, e11, -⟩ := idx_facts t
  funext a; apply Fin.ext
  match a with
  | ⟨0, _⟩ => show win4_1.index t (0 : Fin 2) * 2000 + 1 * p.val = (i 0).val; omega
  | ⟨1, _⟩ => show win4_1.index t (1 : Fin 2) * 1 + 1 * 0 = 0; omega
theorem emb2 (t : Fin cfg4.N) (p : Fin 2000) (i : S50000x128.Idx)
    (hi : (i 0).val = win4_5.index t (0 : Fin 2) * 2000 + p.val) :
    ((cfg4.win 2).blk t).view.emb (ix2 p (0 : Fin 1)) = ix2 (row i) (0 : Fin 1) := by
  obtain ⟨-, -, -, -, e20, e21, -⟩ := idx_facts t
  funext a; apply Fin.ext
  match a with
  | ⟨0, _⟩ => show win4_2.index t (0 : Fin 2) * 2000 + 1 * p.val = (i 0).val; omega
  | ⟨1, _⟩ => show win4_2.index t (1 : Fin 2) * 1 + 1 * 0 = 0; omega
theorem emb3 (t : Fin cfg4.N) (k : Fin 128) (q : Fin 128) (i : S50000x128.Idx) (hi : (i 1).val = q.val) :
    ((cfg4.win 3).blk t).view.emb (ix2 k q) = ix2 k (col i) := by
  obtain ⟨-, -, -, -, -, -, e30, e31, -⟩ := idx_facts t
  funext a; apply Fin.ext
  match a with
  | ⟨0, _⟩ => show win4_3.index t (0 : Fin 2) * 128 + 1 * k.val = k.val; omega
  | ⟨1, _⟩ => show win4_3.index t (1 : Fin 2) * 128 + 1 * q.val = (i 1).val; omega
theorem emb4 (t : Fin cfg4.N) (q : Fin 128) (i : S50000x128.Idx) (hi : (i 1).val = q.val) :
    ((cfg4.win 4).blk t).view.emb (ix2 (0 : Fin 1) q) = ix2 (0 : Fin 1) (col i) := by
  obtain ⟨-, -, -, -, -, -, -, -, e40, e41, -⟩ := idx_facts t
  funext a; apply Fin.ext
  match a with
  | ⟨0, _⟩ => show win4_4.index t (0 : Fin 2) * 1 + 1 * 0 = 0; omega
  | ⟨1, _⟩ => show win4_4.index t (1 : Fin 2) * 128 + 1 * q.val = (i 1).val; omega
theorem emb5_0 (t : Fin cfg4.N) (p : Fin 2000) (q : Fin 128) :
    ((((cfg4.win 5).blk t).view.emb (ix2 p q)) 0).val = win4_5.index t (0 : Fin 2) * 2000 + p.val := by
  show win4_5.index t (0 : Fin 2) * 2000 + 1 * p.val = _; omega
theorem emb5_1 (t : Fin cfg4.N) (p : Fin 2000) (q : Fin 128) :
    ((((cfg4.win 5).blk t).view.emb (ix2 p q)) 1).val = q.val := by
  obtain ⟨-, -, -, -, -, -, -, -, -, -, e51, -⟩ := idx_facts t
  show win4_5.index t (1 : Fin 2) * 128 + 1 * q.val = _; omega
theorem emb6_0 (t : Fin cfg4.N) (p : Fin 2000) (q : Fin 128) :
    ((((cfg4.win 6).blk t).view.emb (ix2 p q)) 0).val = win4_5.index t (0 : Fin 2) * 2000 + p.val := by
  obtain ⟨-, -, -, -, -, -, -, -, -, -, -, -, e60, e61⟩ := idx_facts t
  show win4_6.index t (0 : Fin 2) * 2000 + 1 * p.val = _; omega
theorem emb6_1 (t : Fin cfg4.N) (p : Fin 2000) (q : Fin 128) :
    ((((cfg4.win 6).blk t).view.emb (ix2 p q)) 1).val = q.val := by
  obtain ⟨-, -, -, -, -, -, -, -, -, -, -, -, e60, e61⟩ := idx_facts t
  show win4_6.index t (1 : Fin 2) * 128 + 1 * q.val = _; omega

/-! ## What a point writes back -/

/-- The rectified value of the blocks at point `t`, at `(p, q)`, is the whole-array function at the entry's place. -/
theorem relu_blk (c : Dev nD) (t : Fin cfg4.N) (p : Fin 2000) (q : Fin 128) (i : S50000x128.Idx)
    (h0 : (i 0).val = win4_5.index t (0 : Fin 2) * 2000 + p.val) (h1 : (i 1).val = q.val) :
    k4_pay1 (iblk V c 0 t) (iblk V c 1 t) (iblk V c 3 t) (iblk V c 4 t) (ix2 p q)
      = reluArr (arr0 V c) (arr1 V c) (arr3 V c) (arr4 V c) i := by
  refine (Pay.relu4_at _ _ _ _ p q).trans ?_
  unfold reluArr
  refine congrArg₂ max (congrArg₂ (· + ·) (Finset.sum_congr rfl fun k _ => ?_) ?_) rfl
  · show (arr0 V c (((cfg4.win 0).blk t).view.emb (ix2 p k)) * arr1 V c (((cfg4.win 1).blk t).view.emb (ix2 p (0 : Fin 1))))
        * arr3 V c (((cfg4.win 3).blk t).view.emb (ix2 k q)) = _
    rw [emb0 t p k i h0, emb1 t p i h0, emb3 t k q i h1]
  · show arr4 V c (((cfg4.win 4).blk t).view.emb (ix2 (0 : Fin 1) q)) = _
    rw [emb4 t q i h1]

theorem flushed5_eq (c : Dev nD) (t : Fin cfg4.N) :
    (dat V c).flushed 5 t = ((cfg4.win 5).blk t).view.read (Elt Ideal) (reluArr (arr0 V c) (arr1 V c) (arr3 V c) (arr4 V c)) := by
  show (cfg4.win 5).cut (grid4.coords t) ((dat V c).after 5 t) = _
  rw [after_5]
  unfold outRelu
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  exact relu_blk V c t p q _ (emb5_0 t p q) (emb5_1 t p q)

theorem flushed6_eq (c : Dev nD) (t : Fin cfg4.N) :
    (dat V c).flushed 6 t = ((cfg4.win 6).blk t).view.read (Elt Ideal) (msgArr (arr0 V c) (arr1 V c) (arr3 V c) (arr4 V c) (arr2 V c)) := by
  show (cfg4.win 6).cut (grid4.coords t) ((dat V c).after 6 t) = _
  rw [after_6]
  unfold outMsg
  rw [View.canon_unit_zero hz]
  simp only [View.ld_unit_zero (S := S2000x128) hz, View.ld_unit_zero (S := S2000x1) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (Pay.msg4_at _ _ _ _ _ p q).trans ?_
  show _ = msgArr _ _ _ _ _ (((cfg4.win 6).blk t).view.emb (ix2 p q))
  unfold msgArr
  refine congrArg₂ (· * ·) (relu_blk V c t p q _ (emb6_0 t p q) (emb6_1 t p q)) ?_
  show arr2 V c (((cfg4.win 2).blk t).view.emb (ix2 p (0 : Fin 1))) = _
  rw [emb2 t p _ (emb6_0 t p q)]

/-! ## The blocks cover the arrays -/

theorem mem_blk5 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v112_0).slice (win4_5.rect t)).set ↔ _
  rw [View.set_slice_whole, Rect.mem_set_unit]
  exact Iff.rfl
theorem mem_blk6 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v112_1).slice (win4_6.rect t)).set ↔ _
  rw [View.set_slice_whole, Rect.mem_set_unit]
  exact Iff.rfl

theorem cover5 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht, -⟩ := idx_onto ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk5]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega
theorem cover6 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, -, ht⟩ := idx_onto ⟨(i 0).val / 2000, by omega⟩
  have q0 : win4_6.index t (0 : Fin 2) = (i 0).val / 2000 := congrFun ht 0
  have q1 : win4_6.index t (1 : Fin 2) = 0 := congrFun ht 1
  refine ⟨t, flush4_6 t, ?_⟩
  rw [mem_blk6]
  intro a
  match a with
  | ⟨0, _⟩ => show win4_6.index t (0 : Fin 2) * 2000 ≤ (i 0).val ∧ (i 0).val < win4_6.index t (0 : Fin 2) * 2000 + 2000; omega
  | ⟨1, _⟩ => show win4_6.index t (1 : Fin 2) * 128 ≤ (i 1).val ∧ (i 1).val < win4_6.index t (1 : Fin 2) * 128 + 128; omega

/-! ## The arrays after the launch -/

theorem final5 (c : Dev nD) : (dat V c).arrAt 5 cfg4.N = reluArr (arr0 V c) (arr1 V c) (arr3 V c) (arr4 V c) :=
  (dat V c).arrAt_eq_of_cover 5 _ (fun t _ => flushed5_eq V c t) cover5
theorem final6 (c : Dev nD) : (dat V c).arrAt 6 cfg4.N = msgArr (arr0 V c) (arr1 V c) (arr3 V c) (arr4 V c) (arr2 V c) :=
  (dat V c).arrAt_eq_of_cover 6 _ (fun t _ => flushed6_eq V c t) cover6

end Cert.KernelIdeal.Conv4

end
-- ==== Proof.RefAt.lean ====
import proofs.«142413_j67980742361104_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
# The reference's dense step and message scaling, entry by entry, over the extended reals

`core A nd W b` at `(r, j)` is `max (∑ₖ (A r k · nd r) · W k j + b j, 0)`: the host's matrix product is the plain sum
over the contracted axis, the two broadcasts of `nd` read it at the row, the two of `b` at the column. `msgOf H ns`
at `(r, j)` is `H r j · ns r`.
-/

noncomputable section

namespace Cert.Spec

open Idealize.ShloMosaic Idealize.ShloMosaic.ValueIdx Cert.ReferenceIdeal Cert.ReferenceIdeal.Gen

abbrev DR8 := dot_S50000x8_S8x128_S50000x128_1_0_0_1_n_n
abbrev DR128 := dot_S50000x128_S128x128_S50000x128_1_0_0_1_n_n

theorem lhsR8_0 (i : S50000x128.Idx) (q : DR8.contr.Idx) : (DR8.lhsIdx i q 0).val = (i 0).val := by
  unfold DotDims.lhsIdx
  rw [dif_neg (show ¬(0 : Fin S50000x8.rank) ∈ DR8.lhsBatch by decide), dif_pos (show (0 : Fin S50000x8.rank) ∈ DR8.lhsNonContracting by decide)]
  rfl
theorem lhsR8_1 (i : S50000x128.Idx) (q : DR8.contr.Idx) : (DR8.lhsIdx i q 1).val = (q ⟨0, by decide⟩).val :=
  DR8.lhsIdx_val_of_single rfl i q
theorem rhsR8_0 (i : S50000x128.Idx) (q : DR8.contr.Idx) : (DR8.rhsIdx i q 0).val = (q ⟨0, by decide⟩).val :=
  DR8.rhsIdx_val_of_single rfl i q
theorem rhsR8_1 (i : S50000x128.Idx) (q : DR8.contr.Idx) : (DR8.rhsIdx i q 1).val = (i 1).val := by
  unfold DotDims.rhsIdx
  rw [dif_neg (show ¬(1 : Fin S8x128.rank) ∈ DR8.rhsBatch by decide), dif_pos (show (1 : Fin S8x128.rank) ∈ DR8.rhsNonContracting by decide)]
  rfl

/-- The host's matrix product at `(r, j)`: the sum over the 8 contracted positions. -/
theorem dot8_at (l : FVec Ideal S50000x8 .f32) (w : FVec Ideal S8x128 .f32) (r : Fin 50000) (j : Fin 128) :
    Host.dotGeneral DR8 none l w (ix2 r j) = ∑ k : Fin 8, l (ix2 r k) * w (ix2 k j) := by
  simp only [Host.dotGeneral]
  rw [Ideal.dotGeneral_apply, ← Equiv.sum_comp (ValueIdx.contrEquiv1 DR8 8 rfl rfl).symm]
  refine Finset.sum_congr rfl fun k _ => ?_
  have hk := ValueIdx.contrEquiv1_symm_val DR8 8 rfl rfl k
  have el : DR8.lhsIdx (ix2 r j) ((ValueIdx.contrEquiv1 DR8 8 rfl rfl).symm k) = ix2 r k := funext fun a => Fin.ext (by
    match a with
    | ⟨0, _⟩ => exact lhsR8_0 _ _
    | ⟨1, _⟩ => exact (lhsR8_1 _ _).trans hk)
  have er : DR8.rhsIdx (ix2 r j) ((ValueIdx.contrEquiv1 DR8 8 rfl rfl).symm k) = ix2 k j := funext fun a => Fin.ext (by
    match a with
    | ⟨0, _⟩ => exact (rhsR8_0 _ _).trans hk
    | ⟨1, _⟩ => exact rhsR8_1 _ _)
  rw [el, er]

theorem lhsR128_0 (i : S50000x128.Idx) (q : DR128.contr.Idx) : (DR128.lhsIdx i q 0).val = (i 0).val := by
  unfold DotDims.lhsIdx
  rw [dif_neg (show ¬(0 : Fin S50000x128.rank) ∈ DR128.lhsBatch by decide), dif_pos (show (0 : Fin S50000x128.rank) ∈ DR128.lhsNonContracting by decide)]
  rfl
theorem lhsR128_1 (i : S50000x128.Idx) (q : DR128.contr.Idx) : (DR128.lhsIdx i q 1).val = (q ⟨0, by decide⟩).val :=
  DR128.lhsIdx_val_of_single rfl i q
theorem rhsR128_0 (i : S50000x128.Idx) (q : DR128.contr.Idx) : (DR128.rhsIdx i q 0).val = (q ⟨0, by decide⟩).val :=
  DR128.rhsIdx_val_of_single rfl i q
theorem rhsR128_1 (i : S50000x128.Idx) (q : DR128.contr.Idx) : (DR128.rhsIdx i q 1).val = (i 1).val := by
  unfold DotDims.rhsIdx
  rw [dif_neg (show ¬(1 : Fin S128x128.rank) ∈ DR128.rhsBatch by decide), dif_pos (show (1 : Fin S128x128.rank) ∈ DR128.rhsNonContracting by decide)]
  rfl

/-- The host's matrix product at `(r, j)`: the sum over the 128 contracted positions. -/
theorem dot128_at (l : FVec Ideal S50000x128 .f32) (w : FVec Ideal S128x128 .f32) (r : Fin 50000) (j : Fin 128) :
    Host.dotGeneral DR128 none l w (ix2 r j) = ∑ k : Fin 128, l (ix2 r k) * w (ix2 k j) := by
  simp only [Host.dotGeneral]
  rw [Ideal.dotGeneral_apply, ← Equiv.sum_comp (ValueIdx.contrEquiv1 DR128 128 rfl rfl).symm]
  refine Finset.sum_congr rfl fun k _ => ?_
  have hk := ValueIdx.contrEquiv1_symm_val DR128 128 rfl rfl k
  have el : DR128.lhsIdx (ix2 r j) ((ValueIdx.contrEquiv1 DR128 128 rfl rfl).symm k) = ix2 r k := funext fun a => Fin.ext (by
    match a with
    | ⟨0, _⟩ => exact lhsR128_0 _ _
    | ⟨1, _⟩ => exact (lhsR128_1 _ _).trans hk)
  have er : DR128.rhsIdx (ix2 r j) ((ValueIdx.contrEquiv1 DR128 128 rfl rfl).symm k) = ix2 k j := funext fun a => Fin.ext (by
    match a with
    | ⟨0, _⟩ => exact (rhsR128_0 _ _).trans hk
    | ⟨1, _⟩ => exact rhsR128_1 _ _)
  rw [el, er]

/-! ## The broadcasts at an entry -/

/-- A per-node vector broadcast to a column and then across `n` columns reads, at `(r, k)`, the vector at `r`. -/
theorem rows8_at (v : S50000.Idx → EReal) (r : Fin 50000) (k : Fin 8) :
    broadcastInDim S50000x8 ![0, 1] bcast_S50000x1_S50000x8_0_1 (broadcastInDim S50000x1 ![0] bcast_S50000_S50000x1_0 v) (ix2 r k) = v (ix1 r) := by
  refine (broadcastInDim_apply _ bcast_S50000x1_S50000x8_0_1 _ (ix2 r k) (ix2 r (0 : Fin 1)) (fun a => ?_)).trans
    (broadcastInDim_apply _ bcast_S50000_S50000x1_0 v (ix2 r (0 : Fin 1)) (ix1 r) (fun a => ?_))
  · match a with
    | ⟨0, _⟩ => show r.val = if (50000 : Nat) = 1 then 0 else r.val; rw [if_neg (by decide)]
    | ⟨1, _⟩ => rfl
  · match a with
    | ⟨0, _⟩ => show r.val = if (50000 : Nat) = 1 then 0 else r.val; rw [if_neg (by decide)]
theorem rows128_at (v : S50000.Idx → EReal) (r : Fin 50000) (k : Fin 128) :
    broadcastInDim S50000x128 ![0, 1] bcast_S50000x1_S50000x128_0_1 (broadcastInDim S50000x1 ![0] bcast_S50000_S50000x1_0 v) (ix2 r k) = v (ix1 r) := by
  refine (broadcastInDim_apply _ bcast_S50000x1_S50000x128_0_1 _ (ix2 r k) (ix2 r (0 : Fin 1)) (fun a => ?_)).trans
    (broadcastInDim_apply _ bcast_S50000_S50000x1_0 v (ix2 r (0 : Fin 1)) (ix1 r) (fun a => ?_))
  · match a with
    | ⟨0, _⟩ => show r.val = if (50000 : Nat) = 1 then 0 else r.val; rw [if_neg (by decide)]
    | ⟨1, _⟩ => rfl
  · match a with
    | ⟨0, _⟩ => show r.val = if (50000 : Nat) = 1 then 0 else r.val; rw [if_neg (by decide)]
/-- The bias broadcast to a row and then down the 50000 rows reads, at `(r, j)`, the bias at `j`. -/
theorem bias_at (b : S128.Idx → EReal) (r : Fin 50000) (j : Fin 128) :
    broadcastInDim S50000x128 ![0, 1] bcast_S1x128_S50000x128_0_1 (broadcastInDim S1x128 ![1] bcast_S128_S1x128_1 b) (ix2 r j) = b (ix1 j) := by
  refine (broadcastInDim_apply _ bcast_S1x128_S50000x128_0_1 _ (ix2 r j) (ix2 (0 : Fin 1) j) (fun a => ?_)).trans
    (broadcastInDim_apply _ bcast_S128_S1x128_1 b (ix2 (0 : Fin 1) j) (ix1 j) (fun a => ?_))
  · match a with
    | ⟨0, _⟩ => rfl
    | ⟨1, _⟩ => show j.val = if (128 : Nat) = 1 then 0 else j.val; rw [if_neg (by decide)]
  · match a with
    | ⟨0, _⟩ => show j.val = if (128 : Nat) = 1 then 0 else j.val; rw [if_neg (by decide)]
/-- The zero splat at any entry. -/
theorem zeros_at (i : S50000x128.Idx) :
    broadcastInDim S50000x128 ![] bcast_S_S50000x128 (constant (F := Ideal) S_ .f32 0x00000000#32) i = Ideal.ofBits .f32 0x00000000#32 :=
  broadcastInDim_apply _ bcast_S_S50000x128 _ i ix0 (fun a => a.elim0)

/-! ## The dense steps and the message scaling at an entry -/

theorem core8_at (A : FVec Ideal S50000x8 .f32) (nd : FVec Ideal S50000 .f32) (W : FVec Ideal S8x128 .f32) (b : FVec Ideal S128 .f32) (r : Fin 50000) (j : Fin 128) :
    core8 (F := Ideal) A nd W b (ix2 r j)
      = max ((∑ k : Fin 8, (A (ix2 r k) * nd (ix1 r)) * W (ix2 k j)) + b (ix1 j)) (Ideal.ofBits .f32 0x00000000#32) := by
  unfold core8
  refine congrArg₂ max (congrArg₂ (· + ·) ?_ (bias_at b r j)) (zeros_at _)
  refine (dot8_at _ _ r j).trans (Finset.sum_congr rfl fun k _ => congrArg₂ (· * ·) ?_ rfl)
  exact congrArg (A (ix2 r k) * ·) (rows8_at nd r k)
theorem core128_at (A : FVec Ideal S50000x128 .f32) (nd : FVec Ideal S50000 .f32) (W : FVec Ideal S128x128 .f32) (b : FVec Ideal S128 .f32) (r : Fin 50000) (j : Fin 128) :
    core128 (F := Ideal) A nd W b (ix2 r j)
      = max ((∑ k : Fin 128, (A (ix2 r k) * nd (ix1 r)) * W (ix2 k j)) + b (ix1 j)) (Ideal.ofBits .f32 0x00000000#32) := by
  unfold core128
  refine congrArg₂ max (congrArg₂ (· + ·) ?_ (bias_at b r j)) (zeros_at _)
  refine (dot128_at _ _ r j).trans (Finset.sum_congr rfl fun k _ => congrArg₂ (· * ·) ?_ rfl)
  exact congrArg (A (ix2 r k) * ·) (rows128_at nd r k)
theorem msgOf_at (H : FVec Ideal S50000x128 .f32) (ns : FVec Ideal S50000 .f32) (r : Fin 50000) (j : Fin 128) :
    msgOf (F := Ideal) H ns (ix2 r j) = H (ix2 r j) * ns (ix1 r) := by
  unfold msgOf
  exact congrArg (H (ix2 r j) * ·) (rows128_at ns r j)
theorem x0_at (ft : FVec Ideal S50000x8 .f32) (ns : FVec Ideal S50000 .f32) (r : Fin 50000) (k : Fin 8) :
    mulf ft (broadcastInDim S50000x8 ![0, 1] bcast_S50000x1_S50000x8_0_1 (broadcastInDim S50000x1 ![0] bcast_S50000_S50000x1_0 ns)) (ix2 r k) = ft (ix2 r k) * ns (ix1 r) :=
  congrArg (ft (ix2 r k) * ·) (rows8_at ns r k)

end Cert.Spec

end
-- ==== Proof.Meet.lean ====
import proofs.«142413_j67980742361104_2_alg».proof.Proof.KernelIdeal.Block0
import proofs.«142413_j67980742361104_2_alg».proof.Proof.KernelIdeal.Block1
import proofs.«142413_j67980742361104_2_alg».proof.Proof.KernelIdeal.Block2
import proofs.«142413_j67980742361104_2_alg».proof.Proof.KernelIdeal.Block3
import proofs.«142413_j67980742361104_2_alg».proof.Proof.KernelIdeal.Block4
import proofs.«142413_j67980742361104_2_alg».proof.Proof.RefAt

/-!
# One launch computes one dense step of the reference

A launch's two output arrays, as functions of the operand arrays it finds — the aggregated features, the normalisations
laid out as columns, the weights rounded to bf16, the bias as a row — are the reference's dense step `core` of the same
data and its row scaling `msgOf`: entry by entry both are `max (∑ₖ (A r k · n_dst r) · W k j + b j, 0)`, and that times
`n_src r`. No law of arithmetic is used: the two sides are the same expression.
-/

noncomputable section

namespace Cert.Meet

open Idealize.ShloMosaic Idealize.ShloMosaic.ValueIdx

/-- A vector `[a]` laid out as a column `[a, 1]` reads, at `(r, u)`, the vector at `r`. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- Layer 1: the rectified output is the reference's dense step. -/
theorem relu_0 (A : FVec Ideal Cert.KernelIdeal.S50000x8 .f32) (nd : FVec Ideal Cert.KernelIdeal.S50000 .f32) (W : FVec Ideal Cert.KernelIdeal.S8x128 .f32) (b : FVec Ideal Cert.KernelIdeal.S128 .f32) :
    Cert.KernelIdeal.Conv0.reluArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
      = Cert.Spec.core8 (F := Ideal) A nd W b := by
  funext i
  obtain ⟨r, j, rfl⟩ : ∃ (r : Fin 50000) (j : Fin 128), i = ix2 r j := ⟨i 0, i 1, eq_ix2 i⟩
  refine Eq.trans ?_ (Cert.Spec.core8_at A nd W b r j).symm
  unfold Cert.KernelIdeal.Conv0.reluArr
  refine congrArg₂ max (congrArg₂ (· + ·) (Finset.sum_congr rfl fun k _ => congrArg₂ (· * ·) (congrArg (A (ix2 r k) * ·) ?_) rfl) ?_) rfl
  · exact shapeCast_a_a1_apply nd _ r 0
  · exact shapeCast_a_1a_apply b _ 0 j

/-- Layer 1: the message output is the dense step scaled row by row by `n_src`. -/
theorem msg_0 (A : FVec Ideal Cert.KernelIdeal.S50000x8 .f32) (nd ns : FVec Ideal Cert.KernelIdeal.S50000 .f32) (W : FVec Ideal Cert.KernelIdeal.S8x128 .f32) (b : FVec Ideal Cert.KernelIdeal.S128 .f32) :
    Cert.KernelIdeal.Conv0.msgArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
        (shapeCast Cert.KernelIdeal.S50000x1 ns Cert.KernelIdeal.Gen.shapeCasts_S50000_S50000x1)
      = Cert.Spec.msgOf (F := Ideal) (Cert.Spec.core8 (F := Ideal) A nd W b) ns := by
  funext i
  obtain ⟨r, j, rfl⟩ : ∃ (r : Fin 50000) (j : Fin 128), i = ix2 r j := ⟨i 0, i 1, eq_ix2 i⟩
  refine Eq.trans ?_ (Cert.Spec.msgOf_at _ ns r j).symm
  unfold Cert.KernelIdeal.Conv0.msgArr
  exact congrArg₂ (· * ·) (congrFun (relu_0 A nd W b) (ix2 r j)) (shapeCast_a_a1_apply ns _ r 0)

/-- Layer 2: the rectified output is the reference's dense step. -/
theorem relu_1 (A : FVec Ideal Cert.KernelIdeal.S50000x128 .f32) (nd : FVec Ideal Cert.KernelIdeal.S50000 .f32) (W : FVec Ideal Cert.KernelIdeal.S128x128 .f32) (b : FVec Ideal Cert.KernelIdeal.S128 .f32) :
    Cert.KernelIdeal.Conv1.reluArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
      = Cert.Spec.core128 (F := Ideal) A nd W b := by
  funext i
  obtain ⟨r, j, rfl⟩ : ∃ (r : Fin 50000) (j : Fin 128), i = ix2 r j := ⟨i 0, i 1, eq_ix2 i⟩
  refine Eq.trans ?_ (Cert.Spec.core128_at A nd W b r j).symm
  unfold Cert.KernelIdeal.Conv1.reluArr
  refine congrArg₂ max (congrArg₂ (· + ·) (Finset.sum_congr rfl fun k _ => congrArg₂ (· * ·) (congrArg (A (ix2 r k) * ·) ?_) rfl) ?_) rfl
  · exact shapeCast_a_a1_apply nd _ r 0
  · exact shapeCast_a_1a_apply b _ 0 j

/-- Layer 2: the message output is the dense step scaled row by row by `n_src`. -/
theorem msg_1 (A : FVec Ideal Cert.KernelIdeal.S50000x128 .f32) (nd ns : FVec Ideal Cert.KernelIdeal.S50000 .f32) (W : FVec Ideal Cert.KernelIdeal.S128x128 .f32) (b : FVec Ideal Cert.KernelIdeal.S128 .f32) :
    Cert.KernelIdeal.Conv1.msgArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
        (shapeCast Cert.KernelIdeal.S50000x1 ns Cert.KernelIdeal.Gen.shapeCasts_S50000_S50000x1)
      = Cert.Spec.msgOf (F := Ideal) (Cert.Spec.core128 (F := Ideal) A nd W b) ns := by
  funext i
  obtain ⟨r, j, rfl⟩ : ∃ (r : Fin 50000) (j : Fin 128), i = ix2 r j := ⟨i 0, i 1, eq_ix2 i⟩
  refine Eq.trans ?_ (Cert.Spec.msgOf_at _ ns r j).symm
  unfold Cert.KernelIdeal.Conv1.msgArr
  exact congrArg₂ (· * ·) (congrFun (relu_1 A nd W b) (ix2 r j)) (shapeCast_a_a1_apply ns _ r 0)

/-- Layer 3: the rectified output is the reference's dense step. -/
theorem relu_2 (A : FVec Ideal Cert.KernelIdeal.S50000x128 .f32) (nd : FVec Ideal Cert.KernelIdeal.S50000 .f32) (W : FVec Ideal Cert.KernelIdeal.S128x128 .f32) (b : FVec Ideal Cert.KernelIdeal.S128 .f32) :
    Cert.KernelIdeal.Conv2.reluArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
      = Cert.Spec.core128 (F := Ideal) A nd W b := by
  funext i
  obtain ⟨r, j, rfl⟩ : ∃ (r : Fin 50000) (j : Fin 128), i = ix2 r j := ⟨i 0, i 1, eq_ix2 i⟩
  refine Eq.trans ?_ (Cert.Spec.core128_at A nd W b r j).symm
  unfold Cert.KernelIdeal.Conv2.reluArr
  refine congrArg₂ max (congrArg₂ (· + ·) (Finset.sum_congr rfl fun k _ => congrArg₂ (· * ·) (congrArg (A (ix2 r k) * ·) ?_) rfl) ?_) rfl
  · exact shapeCast_a_a1_apply nd _ r 0
  · exact shapeCast_a_1a_apply b _ 0 j

/-- Layer 3: the message output is the dense step scaled row by row by `n_src`. -/
theorem msg_2 (A : FVec Ideal Cert.KernelIdeal.S50000x128 .f32) (nd ns : FVec Ideal Cert.KernelIdeal.S50000 .f32) (W : FVec Ideal Cert.KernelIdeal.S128x128 .f32) (b : FVec Ideal Cert.KernelIdeal.S128 .f32) :
    Cert.KernelIdeal.Conv2.msgArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
        (shapeCast Cert.KernelIdeal.S50000x1 ns Cert.KernelIdeal.Gen.shapeCasts_S50000_S50000x1)
      = Cert.Spec.msgOf (F := Ideal) (Cert.Spec.core128 (F := Ideal) A nd W b) ns := by
  funext i
  obtain ⟨r, j, rfl⟩ : ∃ (r : Fin 50000) (j : Fin 128), i = ix2 r j := ⟨i 0, i 1, eq_ix2 i⟩
  refine Eq.trans ?_ (Cert.Spec.msgOf_at _ ns r j).symm
  unfold Cert.KernelIdeal.Conv2.msgArr
  exact congrArg₂ (· * ·) (congrFun (relu_2 A nd W b) (ix2 r j)) (shapeCast_a_a1_apply ns _ r 0)

/-- Layer 4: the rectified output is the reference's dense step. -/
theorem relu_3 (A : FVec Ideal Cert.KernelIdeal.S50000x128 .f32) (nd : FVec Ideal Cert.KernelIdeal.S50000 .f32) (W : FVec Ideal Cert.KernelIdeal.S128x128 .f32) (b : FVec Ideal Cert.KernelIdeal.S128 .f32) :
    Cert.KernelIdeal.Conv3.reluArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
      = Cert.Spec.core128 (F := Ideal) A nd W b := by
  funext i
  obtain ⟨r, j, rfl⟩ : ∃ (r : Fin 50000) (j : Fin 128), i = ix2 r j := ⟨i 0, i 1, eq_ix2 i⟩
  refine Eq.trans ?_ (Cert.Spec.core128_at A nd W b r j).symm
  unfold Cert.KernelIdeal.Conv3.reluArr
  refine congrArg₂ max (congrArg₂ (· + ·) (Finset.sum_congr rfl fun k _ => congrArg₂ (· * ·) (congrArg (A (ix2 r k) * ·) ?_) rfl) ?_) rfl
  · exact shapeCast_a_a1_apply nd _ r 0
  · exact shapeCast_a_1a_apply b _ 0 j

/-- Layer 4: the message output is the dense step scaled row by row by `n_src`. -/
theorem msg_3 (A : FVec Ideal Cert.KernelIdeal.S50000x128 .f32) (nd ns : FVec Ideal Cert.KernelIdeal.S50000 .f32) (W : FVec Ideal Cert.KernelIdeal.S128x128 .f32) (b : FVec Ideal Cert.KernelIdeal.S128 .f32) :
    Cert.KernelIdeal.Conv3.msgArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
        (shapeCast Cert.KernelIdeal.S50000x1 ns Cert.KernelIdeal.Gen.shapeCasts_S50000_S50000x1)
      = Cert.Spec.msgOf (F := Ideal) (Cert.Spec.core128 (F := Ideal) A nd W b) ns := by
  funext i
  obtain ⟨r, j, rfl⟩ : ∃ (r : Fin 50000) (j : Fin 128), i = ix2 r j := ⟨i 0, i 1, eq_ix2 i⟩
  refine Eq.trans ?_ (Cert.Spec.msgOf_at _ ns r j).symm
  unfold Cert.KernelIdeal.Conv3.msgArr
  exact congrArg₂ (· * ·) (congrFun (relu_3 A nd W b) (ix2 r j)) (shapeCast_a_a1_apply ns _ r 0)

/-- Layer 5: the rectified output is the reference's dense step. -/
theorem relu_4 (A : FVec Ideal Cert.KernelIdeal.S50000x128 .f32) (nd : FVec Ideal Cert.KernelIdeal.S50000 .f32) (W : FVec Ideal Cert.KernelIdeal.S128x128 .f32) (b : FVec Ideal Cert.KernelIdeal.S128 .f32) :
    Cert.KernelIdeal.Conv4.reluArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
      = Cert.Spec.core128 (F := Ideal) A nd W b := by
  funext i
  obtain ⟨r, j, rfl⟩ : ∃ (r : Fin 50000) (j : Fin 128), i = ix2 r j := ⟨i 0, i 1, eq_ix2 i⟩
  refine Eq.trans ?_ (Cert.Spec.core128_at A nd W b r j).symm
  unfold Cert.KernelIdeal.Conv4.reluArr
  refine congrArg₂ max (congrArg₂ (· + ·) (Finset.sum_congr rfl fun k _ => congrArg₂ (· * ·) (congrArg (A (ix2 r k) * ·) ?_) rfl) ?_) rfl
  · exact shapeCast_a_a1_apply nd _ r 0
  · exact shapeCast_a_1a_apply b _ 0 j

/-- Layer 5: the message output is the dense step scaled row by row by `n_src`. -/
theorem msg_4 (A : FVec Ideal Cert.KernelIdeal.S50000x128 .f32) (nd ns : FVec Ideal Cert.KernelIdeal.S50000 .f32) (W : FVec Ideal Cert.KernelIdeal.S128x128 .f32) (b : FVec Ideal Cert.KernelIdeal.S128 .f32) :
    Cert.KernelIdeal.Conv4.msgArr A (shapeCast Cert.KernelIdeal.S50000x1 nd Cert.KernelIdeal.Gen.shapeCasts_S50000_S50000x1)
        (truncf .bf16 W Cert.KernelIdeal.Gen.bitsLt_bf16_f32) (shapeCast Cert.KernelIdeal.S1x128 b Cert.KernelIdeal.Gen.shapeCasts_S128_S1x128)
        (shapeCast Cert.KernelIdeal.S50000x1 ns Cert.KernelIdeal.Gen.shapeCasts_S50000_S50000x1)
      = Cert.Spec.msgOf (F := Ideal) (Cert.Spec.core128 (F := Ideal) A nd W b) ns := by
  funext i
  obtain ⟨r, j, rfl⟩ : ∃ (r : Fin 50000) (j : Fin 128), i = ix2 r j := ⟨i 0, i 1, eq_ix2 i⟩
  refine Eq.trans ?_ (Cert.Spec.msgOf_at _ ns r j).symm
  unfold Cert.KernelIdeal.Conv4.msgArr
  exact congrArg₂ (· * ·) (congrFun (relu_4 A nd W b) (ix2 r j)) (shapeCast_a_a1_apply ns _ r 0)

end Cert.Meet

end
-- ==== Proof.KernelIdeal.Walk.lean ====
import proofs.«142413_j67980742361104_2_alg».proof.Proof.KernelIdeal.Chain
import proofs.«142413_j67980742361104_2_alg».proof.Proof.KernelIdeal.HostRead
import proofs.«142413_j67980742361104_2_alg».proof.Proof.Meet

/-!
# The idealized kernel's three results are the network's named pieces

Walking the chain of boundary contents: after the first launch its two outputs hold layer 1 and its messages; each
host stretch aggregates the messages and each later launch applies the next dense step; after the fifth launch the
node embeddings are `h5`, and the last stretches pool them and apply the read-out. Buffers that nothing later writes
(the arguments, the two normalisation vectors) are carried along unchanged.
-/

set_option maxRecDepth 16384

noncomputable section

namespace Cert.KernelIdeal.Chain

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-! ## What a boundary keeps from the one before -/
theorem step1 (c : Dev nD) (b : Ref sig .tc) (h : b ∉ hostOps0_W) : W1 m ρ c (Proc.devRef .tc b) = W0 m ρ c (Proc.devRef .tc b) :=
  StableHlo.after_of_writes_sub hostOps0 _ hostOps0_writes h
theorem step2 (c : Dev nD) (b : Ref sig .tc) (h : ∀ w, Pipeline.arrRef spec0 w ≠ b) : W2 m ρ c (Proc.devRef .tc b) = W1 m ρ c (Proc.devRef .tc b) :=
  W2_of_ne m ρ c b h
theorem step3 (c : Dev nD) (b : Ref sig .tc) (h : b ∉ hostOps1_W) : W3 m ρ c (Proc.devRef .tc b) = W2 m ρ c (Proc.devRef .tc b) :=
  StableHlo.after_of_writes_sub hostOps1 _ hostOps1_writes h
theorem step4 (c : Dev nD) (b : Ref sig .tc) (h : ∀ w, Pipeline.arrRef spec1 w ≠ b) : W4 m ρ c (Proc.devRef .tc b) = W3 m ρ c (Proc.devRef .tc b) :=
  W4_of_ne m ρ c b h
theorem step5 (c : Dev nD) (b : Ref sig .tc) (h : b ∉ hostOps2_W) : W5 m ρ c (Proc.devRef .tc b) = W4 m ρ c (Proc.devRef .tc b) :=
  StableHlo.after_of_writes_sub hostOps2 _ hostOps2_writes h
theorem step6 (c : Dev nD) (b : Ref sig .tc) (h : ∀ w, Pipeline.arrRef spec2 w ≠ b) : W6 m ρ c (Proc.devRef .tc b) = W5 m ρ c (Proc.devRef .tc b) :=
  W6_of_ne m ρ c b h
theorem step7 (c : Dev nD) (b : Ref sig .tc) (h : b ∉ hostOps3_W) : W7 m ρ c (Proc.devRef .tc b) = W6 m ρ c (Proc.devRef .tc b) :=
  StableHlo.after_of_writes_sub hostOps3 _ hostOps3_writes h
theorem step8 (c : Dev nD) (b : Ref sig .tc) (h : ∀ w, Pipeline.arrRef spec3 w ≠ b) : W8 m ρ c (Proc.devRef .tc b) = W7 m ρ c (Proc.devRef .tc b) :=
  W8_of_ne m ρ c b h
theorem step9 (c : Dev nD) (b : Ref sig .tc) (h : b ∉ hostOps4_W) : W9 m ρ c (Proc.devRef .tc b) = W8 m ρ c (Proc.devRef .tc b) :=
  StableHlo.after_of_writes_sub hostOps4 _ hostOps4_writes h
theorem step10 (c : Dev nD) (b : Ref sig .tc) (h : ∀ w, Pipeline.arrRef spec4 w ≠ b) : W10 m ρ c (Proc.devRef .tc b) = W9 m ρ c (Proc.devRef .tc b) :=
  W10_of_ne m ρ c b h
theorem step11 (c : Dev nD) (b : Ref sig .tc) (h : b ∉ hostOps5_W) : W11 m ρ c (Proc.devRef .tc b) = W10 m ρ c (Proc.devRef .tc b) :=
  StableHlo.after_of_writes_sub hostOps5 _ hostOps5_writes h
theorem step12 (c : Dev nD) (b : Ref sig .tc) (h : b ∉ hostOps5_1_W) : W12 m ρ c (Proc.devRef .tc b) = W11 m ρ c (Proc.devRef .tc b) :=
  StableHlo.after_of_writes_sub hostOps5_1 _ hostOps5_1_writes h
theorem step13 (c : Dev nD) (b : Ref sig .tc) (h : b ∉ hostOps5_2_W) : W13 m ρ c (Proc.devRef .tc b) = W12 m ρ c (Proc.devRef .tc b) :=
  StableHlo.after_of_writes_sub hostOps5_2 _ hostOps5_2_writes h

/-- A buffer written by no host stretch after the first and by no launch holds, at every boundary up to the last launch's exit, what it held after the first stretch. -/
theorem to1_2 (c : Dev nD) (b : Ref sig .tc) (h2 : ∀ w, Pipeline.arrRef spec0 w ≠ b) : W2 m ρ c (Proc.devRef .tc b) = W1 m ρ c (Proc.devRef .tc b) :=
  step2 m ρ c b h2
theorem to1_3 (c : Dev nD) (b : Ref sig .tc) (h2 : ∀ w, Pipeline.arrRef spec0 w ≠ b) (h3 : b ∉ hostOps1_W) : W3 m ρ c (Proc.devRef .tc b) = W1 m ρ c (Proc.devRef .tc b) :=
  (step3 m ρ c b h3).trans (to1_2 m ρ c b h2)
theorem to1_4 (c : Dev nD) (b : Ref sig .tc) (h2 : ∀ w, Pipeline.arrRef spec0 w ≠ b) (h3 : b ∉ hostOps1_W) (h4 : ∀ w, Pipeline.arrRef spec1 w ≠ b) : W4 m ρ c (Proc.devRef .tc b) = W1 m ρ c (Proc.devRef .tc b) :=
  (step4 m ρ c b h4).trans (to1_3 m ρ c b h2 h3)
theorem to1_5 (c : Dev nD) (b : Ref sig .tc) (h2 : ∀ w, Pipeline.arrRef spec0 w ≠ b) (h3 : b ∉ hostOps1_W) (h4 : ∀ w, Pipeline.arrRef spec1 w ≠ b) (h5 : b ∉ hostOps2_W) : W5 m ρ c (Proc.devRef .tc b) = W1 m ρ c (Proc.devRef .tc b) :=
  (step5 m ρ c b h5).trans (to1_4 m ρ c b h2 h3 h4)
theorem to1_6 (c : Dev nD) (b : Ref sig .tc) (h2 : ∀ w, Pipeline.arrRef spec0 w ≠ b) (h3 : b ∉ hostOps1_W) (h4 : ∀ w, Pipeline.arrRef spec1 w ≠ b) (h5 : b ∉ hostOps2_W) (h6 : ∀ w, Pipeline.arrRef spec2 w ≠ b) : W6 m ρ c (Proc.devRef .tc b) = W1 m ρ c (Proc.devRef .tc b) :=
  (step6 m ρ c b h6).trans (to1_5 m ρ c b h2 h3 h4 h5)
theorem to1_7 (c : Dev nD) (b : Ref sig .tc) (h2 : ∀ w, Pipeline.arrRef spec0 w ≠ b) (h3 : b ∉ hostOps1_W) (h4 : ∀ w, Pipeline.arrRef spec1 w ≠ b) (h5 : b ∉ hostOps2_W) (h6 : ∀ w, Pipeline.arrRef spec2 w ≠ b) (h7 : b ∉ hostOps3_W) : W7 m ρ c (Proc.devRef .tc b) = W1 m ρ c (Proc.devRef .tc b) :=
  (step7 m ρ c b h7).trans (to1_6 m ρ c b h2 h3 h4 h5 h6)
theorem to1_8 (c : Dev nD) (b : Ref sig .tc) (h2 : ∀ w, Pipeline.arrRef spec0 w ≠ b) (h3 : b ∉ hostOps1_W) (h4 : ∀ w, Pipeline.arrRef spec1 w ≠ b) (h5 : b ∉ hostOps2_W) (h6 : ∀ w, Pipeline.arrRef spec2 w ≠ b) (h7 : b ∉ hostOps3_W) (h8 : ∀ w, Pipeline.arrRef spec3 w ≠ b) : W8 m ρ c (Proc.devRef .tc b) = W1 m ρ c (Proc.devRef .tc b) :=
  (step8 m ρ c b h8).trans (to1_7 m ρ c b h2 h3 h4 h5 h6 h7)
theorem to1_9 (c : Dev nD) (b : Ref sig .tc) (h2 : ∀ w, Pipeline.arrRef spec0 w ≠ b) (h3 : b ∉ hostOps1_W) (h4 : ∀ w, Pipeline.arrRef spec1 w ≠ b) (h5 : b ∉ hostOps2_W) (h6 : ∀ w, Pipeline.arrRef spec2 w ≠ b) (h7 : b ∉ hostOps3_W) (h8 : ∀ w, Pipeline.arrRef spec3 w ≠ b) (h9 : b ∉ hostOps4_W) : W9 m ρ c (Proc.devRef .tc b) = W1 m ρ c (Proc.devRef .tc b) :=
  (step9 m ρ c b h9).trans (to1_8 m ρ c b h2 h3 h4 h5 h6 h7 h8)
theorem to1_10 (c : Dev nD) (b : Ref sig .tc) (h2 : ∀ w, Pipeline.arrRef spec0 w ≠ b) (h3 : b ∉ hostOps1_W) (h4 : ∀ w, Pipeline.arrRef spec1 w ≠ b) (h5 : b ∉ hostOps2_W) (h6 : ∀ w, Pipeline.arrRef spec2 w ≠ b) (h7 : b ∉ hostOps3_W) (h8 : ∀ w, Pipeline.arrRef spec3 w ≠ b) (h9 : b ∉ hostOps4_W) (h10 : ∀ w, Pipeline.arrRef spec4 w ≠ b) : W10 m ρ c (Proc.devRef .tc b) = W1 m ρ c (Proc.devRef .tc b) :=
  (step10 m ρ c b h10).trans (to1_9 m ρ c b h2 h3 h4 h5 h6 h7 h8 h9)

local macro "dd" : term => `(by decide)

/-! ## What the even boundaries keep -/
theorem kept2_arg0 (c : Dev nD) : W2 m ρ c (Proc.devRef .tc main_arg0) = W0 m ρ c (Proc.devRef .tc main_arg0) :=
  (to1_2 m ρ c main_arg0 dd).trans (step1 m ρ c main_arg0 dd)
theorem kept2_arg1 (c : Dev nD) : W2 m ρ c (Proc.devRef .tc main_arg1) = W0 m ρ c (Proc.devRef .tc main_arg1) :=
  (to1_2 m ρ c main_arg1 dd).trans (step1 m ρ c main_arg1 dd)
theorem kept2_arg2 (c : Dev nD) : W2 m ρ c (Proc.devRef .tc main_arg2) = W0 m ρ c (Proc.devRef .tc main_arg2) :=
  (to1_2 m ρ c main_arg2 dd).trans (step1 m ρ c main_arg2 dd)
theorem kept2_arg3 (c : Dev nD) : W2 m ρ c (Proc.devRef .tc main_arg3) = W0 m ρ c (Proc.devRef .tc main_arg3) :=
  (to1_2 m ρ c main_arg3 dd).trans (step1 m ρ c main_arg3 dd)
theorem kept2_arg4 (c : Dev nD) : W2 m ρ c (Proc.devRef .tc main_arg4) = W0 m ρ c (Proc.devRef .tc main_arg4) :=
  (to1_2 m ρ c main_arg4 dd).trans (step1 m ρ c main_arg4 dd)
theorem kept2_arg5 (c : Dev nD) : W2 m ρ c (Proc.devRef .tc main_arg5) = W0 m ρ c (Proc.devRef .tc main_arg5) :=
  (to1_2 m ρ c main_arg5 dd).trans (step1 m ρ c main_arg5 dd)
theorem kept2_arg6 (c : Dev nD) : W2 m ρ c (Proc.devRef .tc main_arg6) = W0 m ρ c (Proc.devRef .tc main_arg6) :=
  (to1_2 m ρ c main_arg6 dd).trans (step1 m ρ c main_arg6 dd)
theorem kept2_arg7 (c : Dev nD) : W2 m ρ c (Proc.devRef .tc main_arg7) = W0 m ρ c (Proc.devRef .tc main_arg7) :=
  (to1_2 m ρ c main_arg7 dd).trans (step1 m ρ c main_arg7 dd)
theorem kept2_arg8 (c : Dev nD) : W2 m ρ c (Proc.devRef .tc main_arg8) = W0 m ρ c (Proc.devRef .tc main_arg8) :=
  (to1_2 m ρ c main_arg8 dd).trans (step1 m ρ c main_arg8 dd)
theorem kept2_arg9 (c : Dev nD) : W2 m ρ c (Proc.devRef .tc main_arg9) = W0 m ρ c (Proc.devRef .tc main_arg9) :=
  (to1_2 m ρ c main_arg9 dd).trans (step1 m ρ c main_arg9 dd)
theorem kept2_arg10 (c : Dev nD) : W2 m ρ c (Proc.devRef .tc main_arg10) = W0 m ρ c (Proc.devRef .tc main_arg10) :=
  (to1_2 m ρ c main_arg10 dd).trans (step1 m ρ c main_arg10 dd)
theorem kept2_arg11 (c : Dev nD) : W2 m ρ c (Proc.devRef .tc main_arg11) = W0 m ρ c (Proc.devRef .tc main_arg11) :=
  (to1_2 m ρ c main_arg11 dd).trans (step1 m ρ c main_arg11 dd)
theorem kept2_arg12 (c : Dev nD) : W2 m ρ c (Proc.devRef .tc main_arg12) = W0 m ρ c (Proc.devRef .tc main_arg12) :=
  (to1_2 m ρ c main_arg12 dd).trans (step1 m ρ c main_arg12 dd)
theorem kept2_arg13 (c : Dev nD) : W2 m ρ c (Proc.devRef .tc main_arg13) = W0 m ρ c (Proc.devRef .tc main_arg13) :=
  (to1_2 m ρ c main_arg13 dd).trans (step1 m ρ c main_arg13 dd)
theorem kept2_arg14 (c : Dev nD) : W2 m ρ c (Proc.devRef .tc main_arg14) = W0 m ρ c (Proc.devRef .tc main_arg14) :=
  (to1_2 m ρ c main_arg14 dd).trans (step1 m ρ c main_arg14 dd)
theorem kept2_arg15 (c : Dev nD) : W2 m ρ c (Proc.devRef .tc main_arg15) = W0 m ρ c (Proc.devRef .tc main_arg15) :=
  (to1_2 m ρ c main_arg15 dd).trans (step1 m ρ c main_arg15 dd)
theorem kept2_arg16 (c : Dev nD) : W2 m ρ c (Proc.devRef .tc main_arg16) = W0 m ρ c (Proc.devRef .tc main_arg16) :=
  (to1_2 m ρ c main_arg16 dd).trans (step1 m ρ c main_arg16 dd)
theorem kept2_nd (c : Dev nD) : (W2 m ρ c (Proc.devRef .tc main_v30) : S50000.Idx → EReal) = (Cert.Spec.normD (F := Ideal) (W0 m ρ c (Proc.devRef .tc main_arg1))) :=
  (to1_2 m ρ c main_v30 dd).trans (HostRead.first_normD (W0 m ρ c))
theorem kept2_ns (c : Dev nD) : (W2 m ρ c (Proc.devRef .tc main_v26) : S50000.Idx → EReal) = (Cert.Spec.normS (F := Ideal) (W0 m ρ c (Proc.devRef .tc main_arg0))) :=
  (to1_2 m ρ c main_v26 dd).trans (HostRead.first_normS (W0 m ρ c))
theorem kept4_arg0 (c : Dev nD) : W4 m ρ c (Proc.devRef .tc main_arg0) = W0 m ρ c (Proc.devRef .tc main_arg0) :=
  (to1_4 m ρ c main_arg0 dd dd dd).trans (step1 m ρ c main_arg0 dd)
theorem kept4_arg1 (c : Dev nD) : W4 m ρ c (Proc.devRef .tc main_arg1) = W0 m ρ c (Proc.devRef .tc main_arg1) :=
  (to1_4 m ρ c main_arg1 dd dd dd).trans (step1 m ρ c main_arg1 dd)
theorem kept4_arg2 (c : Dev nD) : W4 m ρ c (Proc.devRef .tc main_arg2) = W0 m ρ c (Proc.devRef .tc main_arg2) :=
  (to1_4 m ρ c main_arg2 dd dd dd).trans (step1 m ρ c main_arg2 dd)
theorem kept4_arg3 (c : Dev nD) : W4 m ρ c (Proc.devRef .tc main_arg3) = W0 m ρ c (Proc.devRef .tc main_arg3) :=
  (to1_4 m ρ c main_arg3 dd dd dd).trans (step1 m ρ c main_arg3 dd)
theorem kept4_arg4 (c : Dev nD) : W4 m ρ c (Proc.devRef .tc main_arg4) = W0 m ρ c (Proc.devRef .tc main_arg4) :=
  (to1_4 m ρ c main_arg4 dd dd dd).trans (step1 m ρ c main_arg4 dd)
theorem kept4_arg5 (c : Dev nD) : W4 m ρ c (Proc.devRef .tc main_arg5) = W0 m ρ c (Proc.devRef .tc main_arg5) :=
  (to1_4 m ρ c main_arg5 dd dd dd).trans (step1 m ρ c main_arg5 dd)
theorem kept4_arg6 (c : Dev nD) : W4 m ρ c (Proc.devRef .tc main_arg6) = W0 m ρ c (Proc.devRef .tc main_arg6) :=
  (to1_4 m ρ c main_arg6 dd dd dd).trans (step1 m ρ c main_arg6 dd)
theorem kept4_arg7 (c : Dev nD) : W4 m ρ c (Proc.devRef .tc main_arg7) = W0 m ρ c (Proc.devRef .tc main_arg7) :=
  (to1_4 m ρ c main_arg7 dd dd dd).trans (step1 m ρ c main_arg7 dd)
theorem kept4_arg8 (c : Dev nD) : W4 m ρ c (Proc.devRef .tc main_arg8) = W0 m ρ c (Proc.devRef .tc main_arg8) :=
  (to1_4 m ρ c main_arg8 dd dd dd).trans (step1 m ρ c main_arg8 dd)
theorem kept4_arg9 (c : Dev nD) : W4 m ρ c (Proc.devRef .tc main_arg9) = W0 m ρ c (Proc.devRef .tc main_arg9) :=
  (to1_4 m ρ c main_arg9 dd dd dd).trans (step1 m ρ c main_arg9 dd)
theorem kept4_arg10 (c : Dev nD) : W4 m ρ c (Proc.devRef .tc main_arg10) = W0 m ρ c (Proc.devRef .tc main_arg10) :=
  (to1_4 m ρ c main_arg10 dd dd dd).trans (step1 m ρ c main_arg10 dd)
theorem kept4_arg11 (c : Dev nD) : W4 m ρ c (Proc.devRef .tc main_arg11) = W0 m ρ c (Proc.devRef .tc main_arg11) :=
  (to1_4 m ρ c main_arg11 dd dd dd).trans (step1 m ρ c main_arg11 dd)
theorem kept4_arg12 (c : Dev nD) : W4 m ρ c (Proc.devRef .tc main_arg12) = W0 m ρ c (Proc.devRef .tc main_arg12) :=
  (to1_4 m ρ c main_arg12 dd dd dd).trans (step1 m ρ c main_arg12 dd)
theorem kept4_arg13 (c : Dev nD) : W4 m ρ c (Proc.devRef .tc main_arg13) = W0 m ρ c (Proc.devRef .tc main_arg13) :=
  (to1_4 m ρ c main_arg13 dd dd dd).trans (step1 m ρ c main_arg13 dd)
theorem kept4_arg14 (c : Dev nD) : W4 m ρ c (Proc.devRef .tc main_arg14) = W0 m ρ c (Proc.devRef .tc main_arg14) :=
  (to1_4 m ρ c main_arg14 dd dd dd).trans (step1 m ρ c main_arg14 dd)
theorem kept4_arg15 (c : Dev nD) : W4 m ρ c (Proc.devRef .tc main_arg15) = W0 m ρ c (Proc.devRef .tc main_arg15) :=
  (to1_4 m ρ c main_arg15 dd dd dd).trans (step1 m ρ c main_arg15 dd)
theorem kept4_arg16 (c : Dev nD) : W4 m ρ c (Proc.devRef .tc main_arg16) = W0 m ρ c (Proc.devRef .tc main_arg16) :=
  (to1_4 m ρ c main_arg16 dd dd dd).trans (step1 m ρ c main_arg16 dd)
theorem kept4_nd (c : Dev nD) : (W4 m ρ c (Proc.devRef .tc main_v30) : S50000.Idx → EReal) = (Cert.Spec.normD (F := Ideal) (W0 m ρ c (Proc.devRef .tc main_arg1))) :=
  (to1_4 m ρ c main_v30 dd dd dd).trans (HostRead.first_normD (W0 m ρ c))
theorem kept4_ns (c : Dev nD) : (W4 m ρ c (Proc.devRef .tc main_v26) : S50000.Idx → EReal) = (Cert.Spec.normS (F := Ideal) (W0 m ρ c (Proc.devRef .tc main_arg0))) :=
  (to1_4 m ρ c main_v26 dd dd dd).trans (HostRead.first_normS (W0 m ρ c))
theorem kept6_arg0 (c : Dev nD) : W6 m ρ c (Proc.devRef .tc main_arg0) = W0 m ρ c (Proc.devRef .tc main_arg0) :=
  (to1_6 m ρ c main_arg0 dd dd dd dd dd).trans (step1 m ρ c main_arg0 dd)
theorem kept6_arg1 (c : Dev nD) : W6 m ρ c (Proc.devRef .tc main_arg1) = W0 m ρ c (Proc.devRef .tc main_arg1) :=
  (to1_6 m ρ c main_arg1 dd dd dd dd dd).trans (step1 m ρ c main_arg1 dd)
theorem kept6_arg2 (c : Dev nD) : W6 m ρ c (Proc.devRef .tc main_arg2) = W0 m ρ c (Proc.devRef .tc main_arg2) :=
  (to1_6 m ρ c main_arg2 dd dd dd dd dd).trans (step1 m ρ c main_arg2 dd)
theorem kept6_arg3 (c : Dev nD) : W6 m ρ c (Proc.devRef .tc main_arg3) = W0 m ρ c (Proc.devRef .tc main_arg3) :=
  (to1_6 m ρ c main_arg3 dd dd dd dd dd).trans (step1 m ρ c main_arg3 dd)
theorem kept6_arg4 (c : Dev nD) : W6 m ρ c (Proc.devRef .tc main_arg4) = W0 m ρ c (Proc.devRef .tc main_arg4) :=
  (to1_6 m ρ c main_arg4 dd dd dd dd dd).trans (step1 m ρ c main_arg4 dd)
theorem kept6_arg5 (c : Dev nD) : W6 m ρ c (Proc.devRef .tc main_arg5) = W0 m ρ c (Proc.devRef .tc main_arg5) :=
  (to1_6 m ρ c main_arg5 dd dd dd dd dd).trans (step1 m ρ c main_arg5 dd)
theorem kept6_arg6 (c : Dev nD) : W6 m ρ c (Proc.devRef .tc main_arg6) = W0 m ρ c (Proc.devRef .tc main_arg6) :=
  (to1_6 m ρ c main_arg6 dd dd dd dd dd).trans (step1 m ρ c main_arg6 dd)
theorem kept6_arg7 (c : Dev nD) : W6 m ρ c (Proc.devRef .tc main_arg7) = W0 m ρ c (Proc.devRef .tc main_arg7) :=
  (to1_6 m ρ c main_arg7 dd dd dd dd dd).trans (step1 m ρ c main_arg7 dd)
theorem kept6_arg8 (c : Dev nD) : W6 m ρ c (Proc.devRef .tc main_arg8) = W0 m ρ c (Proc.devRef .tc main_arg8) :=
  (to1_6 m ρ c main_arg8 dd dd dd dd dd).trans (step1 m ρ c main_arg8 dd)
theorem kept6_arg9 (c : Dev nD) : W6 m ρ c (Proc.devRef .tc main_arg9) = W0 m ρ c (Proc.devRef .tc main_arg9) :=
  (to1_6 m ρ c main_arg9 dd dd dd dd dd).trans (step1 m ρ c main_arg9 dd)
theorem kept6_arg10 (c : Dev nD) : W6 m ρ c (Proc.devRef .tc main_arg10) = W0 m ρ c (Proc.devRef .tc main_arg10) :=
  (to1_6 m ρ c main_arg10 dd dd dd dd dd).trans (step1 m ρ c main_arg10 dd)
theorem kept6_arg11 (c : Dev nD) : W6 m ρ c (Proc.devRef .tc main_arg11) = W0 m ρ c (Proc.devRef .tc main_arg11) :=
  (to1_6 m ρ c main_arg11 dd dd dd dd dd).trans (step1 m ρ c main_arg11 dd)
theorem kept6_arg12 (c : Dev nD) : W6 m ρ c (Proc.devRef .tc main_arg12) = W0 m ρ c (Proc.devRef .tc main_arg12) :=
  (to1_6 m ρ c main_arg12 dd dd dd dd dd).trans (step1 m ρ c main_arg12 dd)
theorem kept6_arg13 (c : Dev nD) : W6 m ρ c (Proc.devRef .tc main_arg13) = W0 m ρ c (Proc.devRef .tc main_arg13) :=
  (to1_6 m ρ c main_arg13 dd dd dd dd dd).trans (step1 m ρ c main_arg13 dd)
theorem kept6_arg14 (c : Dev nD) : W6 m ρ c (Proc.devRef .tc main_arg14) = W0 m ρ c (Proc.devRef .tc main_arg14) :=
  (to1_6 m ρ c main_arg14 dd dd dd dd dd).trans (step1 m ρ c main_arg14 dd)
theorem kept6_arg15 (c : Dev nD) : W6 m ρ c (Proc.devRef .tc main_arg15) = W0 m ρ c (Proc.devRef .tc main_arg15) :=
  (to1_6 m ρ c main_arg15 dd dd dd dd dd).trans (step1 m ρ c main_arg15 dd)
theorem kept6_arg16 (c : Dev nD) : W6 m ρ c (Proc.devRef .tc main_arg16) = W0 m ρ c (Proc.devRef .tc main_arg16) :=
  (to1_6 m ρ c main_arg16 dd dd dd dd dd).trans (step1 m ρ c main_arg16 dd)
theorem kept6_nd (c : Dev nD) : (W6 m ρ c (Proc.devRef .tc main_v30) : S50000.Idx → EReal) = (Cert.Spec.normD (F := Ideal) (W0 m ρ c (Proc.devRef .tc main_arg1))) :=
  (to1_6 m ρ c main_v30 dd dd dd dd dd).trans (HostRead.first_normD (W0 m ρ c))
theorem kept6_ns (c : Dev nD) : (W6 m ρ c (Proc.devRef .tc main_v26) : S50000.Idx → EReal) = (Cert.Spec.normS (F := Ideal) (W0 m ρ c (Proc.devRef .tc main_arg0))) :=
  (to1_6 m ρ c main_v26 dd dd dd dd dd).trans (HostRead.first_normS (W0 m ρ c))
theorem kept8_arg0 (c : Dev nD) : W8 m ρ c (Proc.devRef .tc main_arg0) = W0 m ρ c (Proc.devRef .tc main_arg0) :=
  (to1_8 m ρ c main_arg0 dd dd dd dd dd dd dd).trans (step1 m ρ c main_arg0 dd)
theorem kept8_arg1 (c : Dev nD) : W8 m ρ c (Proc.devRef .tc main_arg1) = W0 m ρ c (Proc.devRef .tc main_arg1) :=
  (to1_8 m ρ c main_arg1 dd dd dd dd dd dd dd).trans (step1 m ρ c main_arg1 dd)
theorem kept8_arg2 (c : Dev nD) : W8 m ρ c (Proc.devRef .tc main_arg2) = W0 m ρ c (Proc.devRef .tc main_arg2) :=
  (to1_8 m ρ c main_arg2 dd dd dd dd dd dd dd).trans (step1 m ρ c main_arg2 dd)
theorem kept8_arg3 (c : Dev nD) : W8 m ρ c (Proc.devRef .tc main_arg3) = W0 m ρ c (Proc.devRef .tc main_arg3) :=
  (to1_8 m ρ c main_arg3 dd dd dd dd dd dd dd).trans (step1 m ρ c main_arg3 dd)
theorem kept8_arg4 (c : Dev nD) : W8 m ρ c (Proc.devRef .tc main_arg4) = W0 m ρ c (Proc.devRef .tc main_arg4) :=
  (to1_8 m ρ c main_arg4 dd dd dd dd dd dd dd).trans (step1 m ρ c main_arg4 dd)
theorem kept8_arg5 (c : Dev nD) : W8 m ρ c (Proc.devRef .tc main_arg5) = W0 m ρ c (Proc.devRef .tc main_arg5) :=
  (to1_8 m ρ c main_arg5 dd dd dd dd dd dd dd).trans (step1 m ρ c main_arg5 dd)
theorem kept8_arg6 (c : Dev nD) : W8 m ρ c (Proc.devRef .tc main_arg6) = W0 m ρ c (Proc.devRef .tc main_arg6) :=
  (to1_8 m ρ c main_arg6 dd dd dd dd dd dd dd).trans (step1 m ρ c main_arg6 dd)
theorem kept8_arg7 (c : Dev nD) : W8 m ρ c (Proc.devRef .tc main_arg7) = W0 m ρ c (Proc.devRef .tc main_arg7) :=
  (to1_8 m ρ c main_arg7 dd dd dd dd dd dd dd).trans (step1 m ρ c main_arg7 dd)
theorem kept8_arg8 (c : Dev nD) : W8 m ρ c (Proc.devRef .tc main_arg8) = W0 m ρ c (Proc.devRef .tc main_arg8) :=
  (to1_8 m ρ c main_arg8 dd dd dd dd dd dd dd).trans (step1 m ρ c main_arg8 dd)
theorem kept8_arg9 (c : Dev nD) : W8 m ρ c (Proc.devRef .tc main_arg9) = W0 m ρ c (Proc.devRef .tc main_arg9) :=
  (to1_8 m ρ c main_arg9 dd dd dd dd dd dd dd).trans (step1 m ρ c main_arg9 dd)
theorem kept8_arg10 (c : Dev nD) : W8 m ρ c (Proc.devRef .tc main_arg10) = W0 m ρ c (Proc.devRef .tc main_arg10) :=
  (to1_8 m ρ c main_arg10 dd dd dd dd dd dd dd).trans (step1 m ρ c main_arg10 dd)
theorem kept8_arg11 (c : Dev nD) : W8 m ρ c (Proc.devRef .tc main_arg11) = W0 m ρ c (Proc.devRef .tc main_arg11) :=
  (to1_8 m ρ c main_arg11 dd dd dd dd dd dd dd).trans (step1 m ρ c main_arg11 dd)
theorem kept8_arg12 (c : Dev nD) : W8 m ρ c (Proc.devRef .tc main_arg12) = W0 m ρ c (Proc.devRef .tc main_arg12) :=
  (to1_8 m ρ c main_arg12 dd dd dd dd dd dd dd).trans (step1 m ρ c main_arg12 dd)
theorem kept8_arg13 (c : Dev nD) : W8 m ρ c (Proc.devRef .tc main_arg13) = W0 m ρ c (Proc.devRef .tc main_arg13) :=
  (to1_8 m ρ c main_arg13 dd dd dd dd dd dd dd).trans (step1 m ρ c main_arg13 dd)
theorem kept8_arg14 (c : Dev nD) : W8 m ρ c (Proc.devRef .tc main_arg14) = W0 m ρ c (Proc.devRef .tc main_arg14) :=
  (to1_8 m ρ c main_arg14 dd dd dd dd dd dd dd).trans (step1 m ρ c main_arg14 dd)
theorem kept8_arg15 (c : Dev nD) : W8 m ρ c (Proc.devRef .tc main_arg15) = W0 m ρ c (Proc.devRef .tc main_arg15) :=
  (to1_8 m ρ c main_arg15 dd dd dd dd dd dd dd).trans (step1 m ρ c main_arg15 dd)
theorem kept8_arg16 (c : Dev nD) : W8 m ρ c (Proc.devRef .tc main_arg16) = W0 m ρ c (Proc.devRef .tc main_arg16) :=
  (to1_8 m ρ c main_arg16 dd dd dd dd dd dd dd).trans (step1 m ρ c main_arg16 dd)
theorem kept8_nd (c : Dev nD) : (W8 m ρ c (Proc.devRef .tc main_v30) : S50000.Idx → EReal) = (Cert.Spec.normD (F := Ideal) (W0 m ρ c (Proc.devRef .tc main_arg1))) :=
  (to1_8 m ρ c main_v30 dd dd dd dd dd dd dd).trans (HostRead.first_normD (W0 m ρ c))
theorem kept8_ns (c : Dev nD) : (W8 m ρ c (Proc.devRef .tc main_v26) : S50000.Idx → EReal) = (Cert.Spec.normS (F := Ideal) (W0 m ρ c (Proc.devRef .tc main_arg0))) :=
  (to1_8 m ρ c main_v26 dd dd dd dd dd dd dd).trans (HostRead.first_normS (W0 m ρ c))
theorem kept10_arg0 (c : Dev nD) : W10 m ρ c (Proc.devRef .tc main_arg0) = W0 m ρ c (Proc.devRef .tc main_arg0) :=
  (to1_10 m ρ c main_arg0 dd dd dd dd dd dd dd dd dd).trans (step1 m ρ c main_arg0 dd)
theorem kept10_arg1 (c : Dev nD) : W10 m ρ c (Proc.devRef .tc main_arg1) = W0 m ρ c (Proc.devRef .tc main_arg1) :=
  (to1_10 m ρ c main_arg1 dd dd dd dd dd dd dd dd dd).trans (step1 m ρ c main_arg1 dd)
theorem kept10_arg2 (c : Dev nD) : W10 m ρ c (Proc.devRef .tc main_arg2) = W0 m ρ c (Proc.devRef .tc main_arg2) :=
  (to1_10 m ρ c main_arg2 dd dd dd dd dd dd dd dd dd).trans (step1 m ρ c main_arg2 dd)
theorem kept10_arg3 (c : Dev nD) : W10 m ρ c (Proc.devRef .tc main_arg3) = W0 m ρ c (Proc.devRef .tc main_arg3) :=
  (to1_10 m ρ c main_arg3 dd dd dd dd dd dd dd dd dd).trans (step1 m ρ c main_arg3 dd)
theorem kept10_arg4 (c : Dev nD) : W10 m ρ c (Proc.devRef .tc main_arg4) = W0 m ρ c (Proc.devRef .tc main_arg4) :=
  (to1_10 m ρ c main_arg4 dd dd dd dd dd dd dd dd dd).trans (step1 m ρ c main_arg4 dd)
theorem kept10_arg5 (c : Dev nD) : W10 m ρ c (Proc.devRef .tc main_arg5) = W0 m ρ c (Proc.devRef .tc main_arg5) :=
  (to1_10 m ρ c main_arg5 dd dd dd dd dd dd dd dd dd).trans (step1 m ρ c main_arg5 dd)
theorem kept10_arg6 (c : Dev nD) : W10 m ρ c (Proc.devRef .tc main_arg6) = W0 m ρ c (Proc.devRef .tc main_arg6) :=
  (to1_10 m ρ c main_arg6 dd dd dd dd dd dd dd dd dd).trans (step1 m ρ c main_arg6 dd)
theorem kept10_arg7 (c : Dev nD) : W10 m ρ c (Proc.devRef .tc main_arg7) = W0 m ρ c (Proc.devRef .tc main_arg7) :=
  (to1_10 m ρ c main_arg7 dd dd dd dd dd dd dd dd dd).trans (step1 m ρ c main_arg7 dd)
theorem kept10_arg8 (c : Dev nD) : W10 m ρ c (Proc.devRef .tc main_arg8) = W0 m ρ c (Proc.devRef .tc main_arg8) :=
  (to1_10 m ρ c main_arg8 dd dd dd dd dd dd dd dd dd).trans (step1 m ρ c main_arg8 dd)
theorem kept10_arg9 (c : Dev nD) : W10 m ρ c (Proc.devRef .tc main_arg9) = W0 m ρ c (Proc.devRef .tc main_arg9) :=
  (to1_10 m ρ c main_arg9 dd dd dd dd dd dd dd dd dd).trans (step1 m ρ c main_arg9 dd)
theorem kept10_arg10 (c : Dev nD) : W10 m ρ c (Proc.devRef .tc main_arg10) = W0 m ρ c (Proc.devRef .tc main_arg10) :=
  (to1_10 m ρ c main_arg10 dd dd dd dd dd dd dd dd dd).trans (step1 m ρ c main_arg10 dd)
theorem kept10_arg11 (c : Dev nD) : W10 m ρ c (Proc.devRef .tc main_arg11) = W0 m ρ c (Proc.devRef .tc main_arg11) :=
  (to1_10 m ρ c main_arg11 dd dd dd dd dd dd dd dd dd).trans (step1 m ρ c main_arg11 dd)
theorem kept10_arg12 (c : Dev nD) : W10 m ρ c (Proc.devRef .tc main_arg12) = W0 m ρ c (Proc.devRef .tc main_arg12) :=
  (to1_10 m ρ c main_arg12 dd dd dd dd dd dd dd dd dd).trans (step1 m ρ c main_arg12 dd)
theorem kept10_arg13 (c : Dev nD) : W10 m ρ c (Proc.devRef .tc main_arg13) = W0 m ρ c (Proc.devRef .tc main_arg13) :=
  (to1_10 m ρ c main_arg13 dd dd dd dd dd dd dd dd dd).trans (step1 m ρ c main_arg13 dd)
theorem kept10_arg14 (c : Dev nD) : W10 m ρ c (Proc.devRef .tc main_arg14) = W0 m ρ c (Proc.devRef .tc main_arg14) :=
  (to1_10 m ρ c main_arg14 dd dd dd dd dd dd dd dd dd).trans (step1 m ρ c main_arg14 dd)
theorem kept10_arg15 (c : Dev nD) : W10 m ρ c (Proc.devRef .tc main_arg15) = W0 m ρ c (Proc.devRef .tc main_arg15) :=
  (to1_10 m ρ c main_arg15 dd dd dd dd dd dd dd dd dd).trans (step1 m ρ c main_arg15 dd)
theorem kept10_arg16 (c : Dev nD) : W10 m ρ c (Proc.devRef .tc main_arg16) = W0 m ρ c (Proc.devRef .tc main_arg16) :=
  (to1_10 m ρ c main_arg16 dd dd dd dd dd dd dd dd dd).trans (step1 m ρ c main_arg16 dd)
theorem kept10_nd (c : Dev nD) : (W10 m ρ c (Proc.devRef .tc main_v30) : S50000.Idx → EReal) = (Cert.Spec.normD (F := Ideal) (W0 m ρ c (Proc.devRef .tc main_arg1))) :=
  (to1_10 m ρ c main_v30 dd dd dd dd dd dd dd dd dd).trans (HostRead.first_normD (W0 m ρ c))
theorem kept10_ns (c : Dev nD) : (W10 m ρ c (Proc.devRef .tc main_v26) : S50000.Idx → EReal) = (Cert.Spec.normS (F := Ideal) (W0 m ρ c (Proc.devRef .tc main_arg0))) :=
  (to1_10 m ρ c main_v26 dd dd dd dd dd dd dd dd dd).trans (HostRead.first_normS (W0 m ρ c))

/-! ## Layer by layer -/

theorem nodes1 (c : Dev nD) : (W2 m ρ c (Proc.devRef .tc main_v48_0) : S50000x128.Idx → EReal) = (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4))) := by
  refine ((W2_arr m ρ c 5).trans (Conv0.final5 (V1 m ρ) c)).trans ?_
  show Conv0.reluArr (StableHlo.after hostOps0 (W0 m ρ c) (Proc.devRef .tc main_v43)) (StableHlo.after hostOps0 (W0 m ρ c) (Proc.devRef .tc main_v44))
      (StableHlo.after hostOps0 (W0 m ρ c) (Proc.devRef .tc main_v46)) (StableHlo.after hostOps0 (W0 m ρ c) (Proc.devRef .tc main_v47)) = _
  rw [HostRead.first_agg, HostRead.first_nd, HostRead.first_w, HostRead.first_b]
  exact Cert.Meet.relu_0 _ _ _ _
theorem msgs1 (c : Dev nD) : (W2 m ρ c (Proc.devRef .tc main_v48_1) : S50000x128.Idx → EReal) = Cert.Spec.msgOf (F := Ideal) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4))) (Cert.Spec.normS (F := Ideal) (W0 m ρ c (Proc.devRef .tc main_arg0))) := by
  refine ((W2_arr m ρ c 6).trans (Conv0.final6 (V1 m ρ) c)).trans ?_
  show Conv0.msgArr (StableHlo.after hostOps0 (W0 m ρ c) (Proc.devRef .tc main_v43)) (StableHlo.after hostOps0 (W0 m ρ c) (Proc.devRef .tc main_v44))
      (StableHlo.after hostOps0 (W0 m ρ c) (Proc.devRef .tc main_v46)) (StableHlo.after hostOps0 (W0 m ρ c) (Proc.devRef .tc main_v47))
      (StableHlo.after hostOps0 (W0 m ρ c) (Proc.devRef .tc main_v45)) = _
  rw [HostRead.first_agg, HostRead.first_nd, HostRead.first_w, HostRead.first_b, HostRead.first_ns]
  exact Cert.Meet.msg_0 _ _ _ _ _

theorem nodes2 (c : Dev nD) : (W4 m ρ c (Proc.devRef .tc main_v64_0) : S50000x128.Idx → EReal) = (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4)))) := by
  refine ((W4_arr m ρ c 5).trans (Conv1.final5 (V3 m ρ) c)).trans ?_
  show Conv1.reluArr (StableHlo.after hostOps1 (W2 m ρ c) (Proc.devRef .tc main_v59)) (StableHlo.after hostOps1 (W2 m ρ c) (Proc.devRef .tc main_v60))
      (StableHlo.after hostOps1 (W2 m ρ c) (Proc.devRef .tc main_v62)) (StableHlo.after hostOps1 (W2 m ρ c) (Proc.devRef .tc main_v63)) = _
  rw [HostRead.agg_1, HostRead.nd_1, HostRead.w_1, HostRead.b_1]
  rw [kept2_arg0 m ρ c, kept2_arg1 m ρ c, kept2_arg5 m ρ c, kept2_arg6 m ρ c, kept2_nd m ρ c, msgs1 m ρ c]
  exact Cert.Meet.relu_1 _ _ _ _
theorem msgs2 (c : Dev nD) : (W4 m ρ c (Proc.devRef .tc main_v64_1) : S50000x128.Idx → EReal) = Cert.Spec.msgOf (F := Ideal) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4)))) (Cert.Spec.normS (F := Ideal) (W0 m ρ c (Proc.devRef .tc main_arg0))) := by
  refine ((W4_arr m ρ c 6).trans (Conv1.final6 (V3 m ρ) c)).trans ?_
  show Conv1.msgArr (StableHlo.after hostOps1 (W2 m ρ c) (Proc.devRef .tc main_v59)) (StableHlo.after hostOps1 (W2 m ρ c) (Proc.devRef .tc main_v60))
      (StableHlo.after hostOps1 (W2 m ρ c) (Proc.devRef .tc main_v62)) (StableHlo.after hostOps1 (W2 m ρ c) (Proc.devRef .tc main_v63))
      (StableHlo.after hostOps1 (W2 m ρ c) (Proc.devRef .tc main_v61)) = _
  rw [HostRead.agg_1, HostRead.nd_1, HostRead.w_1, HostRead.b_1, HostRead.ns_1]
  rw [kept2_arg0 m ρ c, kept2_arg1 m ρ c, kept2_arg5 m ρ c, kept2_arg6 m ρ c, kept2_nd m ρ c, msgs1 m ρ c, kept2_ns m ρ c]
  exact Cert.Meet.msg_1 _ _ _ _ _

theorem nodes3 (c : Dev nD) : (W6 m ρ c (Proc.devRef .tc main_v80_0) : S50000x128.Idx → EReal) = (Cert.Spec.hNext (F := Ideal) (W0 m ρ c (Proc.devRef .tc main_arg0)) (W0 m ρ c (Proc.devRef .tc main_arg1)) (W0 m ρ c (Proc.devRef .tc main_arg7)) (W0 m ρ c (Proc.devRef .tc main_arg8)) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4))))) := by
  refine ((W6_arr m ρ c 5).trans (Conv2.final5 (V5 m ρ) c)).trans ?_
  show Conv2.reluArr (StableHlo.after hostOps2 (W4 m ρ c) (Proc.devRef .tc main_v75)) (StableHlo.after hostOps2 (W4 m ρ c) (Proc.devRef .tc main_v76))
      (StableHlo.after hostOps2 (W4 m ρ c) (Proc.devRef .tc main_v78)) (StableHlo.after hostOps2 (W4 m ρ c) (Proc.devRef .tc main_v79)) = _
  rw [HostRead.agg_2, HostRead.nd_2, HostRead.w_2, HostRead.b_2]
  rw [kept4_arg0 m ρ c, kept4_arg1 m ρ c, kept4_arg7 m ρ c, kept4_arg8 m ρ c, kept4_nd m ρ c, msgs2 m ρ c]
  exact Cert.Meet.relu_2 _ _ _ _
theorem msgs3 (c : Dev nD) : (W6 m ρ c (Proc.devRef .tc main_v80_1) : S50000x128.Idx → EReal) = Cert.Spec.msgOf (F := Ideal) (Cert.Spec.hNext (F := Ideal) (W0 m ρ c (Proc.devRef .tc main_arg0)) (W0 m ρ c (Proc.devRef .tc main_arg1)) (W0 m ρ c (Proc.devRef .tc main_arg7)) (W0 m ρ c (Proc.devRef .tc main_arg8)) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4))))) (Cert.Spec.normS (F := Ideal) (W0 m ρ c (Proc.devRef .tc main_arg0))) := by
  refine ((W6_arr m ρ c 6).trans (Conv2.final6 (V5 m ρ) c)).trans ?_
  show Conv2.msgArr (StableHlo.after hostOps2 (W4 m ρ c) (Proc.devRef .tc main_v75)) (StableHlo.after hostOps2 (W4 m ρ c) (Proc.devRef .tc main_v76))
      (StableHlo.after hostOps2 (W4 m ρ c) (Proc.devRef .tc main_v78)) (StableHlo.after hostOps2 (W4 m ρ c) (Proc.devRef .tc main_v79))
      (StableHlo.after hostOps2 (W4 m ρ c) (Proc.devRef .tc main_v77)) = _
  rw [HostRead.agg_2, HostRead.nd_2, HostRead.w_2, HostRead.b_2, HostRead.ns_2]
  rw [kept4_arg0 m ρ c, kept4_arg1 m ρ c, kept4_arg7 m ρ c, kept4_arg8 m ρ c, kept4_nd m ρ c, msgs2 m ρ c, kept4_ns m ρ c]
  exact Cert.Meet.msg_2 _ _ _ _ _

theorem nodes4 (c : Dev nD) : (W8 m ρ c (Proc.devRef .tc main_v96_0) : S50000x128.Idx → EReal) = (Cert.Spec.hNext (F := Ideal) (W0 m ρ c (Proc.devRef .tc main_arg0)) (W0 m ρ c (Proc.devRef .tc main_arg1)) (W0 m ρ c (Proc.devRef .tc main_arg9)) (W0 m ρ c (Proc.devRef .tc main_arg10)) (Cert.Spec.hNext (F := Ideal) (W0 m ρ c (Proc.devRef .tc main_arg0)) (W0 m ρ c (Proc.devRef .tc main_arg1)) (W0 m ρ c (Proc.devRef .tc main_arg7)) (W0 m ρ c (Proc.devRef .tc main_arg8)) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4)))))) := by
  refine ((W8_arr m ρ c 5).trans (Conv3.final5 (V7 m ρ) c)).trans ?_
  show Conv3.reluArr (StableHlo.after hostOps3 (W6 m ρ c) (Proc.devRef .tc main_v91)) (StableHlo.after hostOps3 (W6 m ρ c) (Proc.devRef .tc main_v92))
      (StableHlo.after hostOps3 (W6 m ρ c) (Proc.devRef .tc main_v94)) (StableHlo.after hostOps3 (W6 m ρ c) (Proc.devRef .tc main_v95)) = _
  rw [HostRead.agg_3, HostRead.nd_3, HostRead.w_3, HostRead.b_3]
  rw [kept6_arg0 m ρ c, kept6_arg1 m ρ c, kept6_arg9 m ρ c, kept6_arg10 m ρ c, kept6_nd m ρ c, msgs3 m ρ c]
  exact Cert.Meet.relu_3 _ _ _ _
theorem msgs4 (c : Dev nD) : (W8 m ρ c (Proc.devRef .tc main_v96_1) : S50000x128.Idx → EReal) = Cert.Spec.msgOf (F := Ideal) (Cert.Spec.hNext (F := Ideal) (W0 m ρ c (Proc.devRef .tc main_arg0)) (W0 m ρ c (Proc.devRef .tc main_arg1)) (W0 m ρ c (Proc.devRef .tc main_arg9)) (W0 m ρ c (Proc.devRef .tc main_arg10)) (Cert.Spec.hNext (F := Ideal) (W0 m ρ c (Proc.devRef .tc main_arg0)) (W0 m ρ c (Proc.devRef .tc main_arg1)) (W0 m ρ c (Proc.devRef .tc main_arg7)) (W0 m ρ c (Proc.devRef .tc main_arg8)) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4)))))) (Cert.Spec.normS (F := Ideal) (W0 m ρ c (Proc.devRef .tc main_arg0))) := by
  refine ((W8_arr m ρ c 6).trans (Conv3.final6 (V7 m ρ) c)).trans ?_
  show Conv3.msgArr (StableHlo.after hostOps3 (W6 m ρ c) (Proc.devRef .tc main_v91)) (StableHlo.after hostOps3 (W6 m ρ c) (Proc.devRef .tc main_v92))
      (StableHlo.after hostOps3 (W6 m ρ c) (Proc.devRef .tc main_v94)) (StableHlo.after hostOps3 (W6 m ρ c) (Proc.devRef .tc main_v95))
      (StableHlo.after hostOps3 (W6 m ρ c) (Proc.devRef .tc main_v93)) = _
  rw [HostRead.agg_3, HostRead.nd_3, HostRead.w_3, HostRead.b_3, HostRead.ns_3]
  rw [kept6_arg0 m ρ c, kept6_arg1 m ρ c, kept6_arg9 m ρ c, kept6_arg10 m ρ c, kept6_nd m ρ c, msgs3 m ρ c, kept6_ns m ρ c]
  exact Cert.Meet.msg_3 _ _ _ _ _

theorem nodes5 (c : Dev nD) : (W10 m ρ c (Proc.devRef .tc main_v112_0) : S50000x128.Idx → EReal) = (Cert.Spec.hNext (F := Ideal) (W0 m ρ c (Proc.devRef .tc main_arg0)) (W0 m ρ c (Proc.devRef .tc main_arg1)) (W0 m ρ c (Proc.devRef .tc main_arg11)) (W0 m ρ c (Proc.devRef .tc main_arg12)) (Cert.Spec.hNext (F := Ideal) (W0 m ρ c (Proc.devRef .tc main_arg0)) (W0 m ρ c (Proc.devRef .tc main_arg1)) (W0 m ρ c (Proc.devRef .tc main_arg9)) (W0 m ρ c (Proc.devRef .tc main_arg10)) (Cert.Spec.hNext (F := Ideal) (W0 m ρ c (Proc.devRef .tc main_arg0)) (W0 m ρ c (Proc.devRef .tc main_arg1)) (W0 m ρ c (Proc.devRef .tc main_arg7)) (W0 m ρ c (Proc.devRef .tc main_arg8)) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4))))))) := by
  refine ((W10_arr m ρ c 5).trans (Conv4.final5 (V9 m ρ) c)).trans ?_
  show Conv4.reluArr (StableHlo.after hostOps4 (W8 m ρ c) (Proc.devRef .tc main_v107)) (StableHlo.after hostOps4 (W8 m ρ c) (Proc.devRef .tc main_v108))
      (StableHlo.after hostOps4 (W8 m ρ c) (Proc.devRef .tc main_v110)) (StableHlo.after hostOps4 (W8 m ρ c) (Proc.devRef .tc main_v111)) = _
  rw [HostRead.agg_4, HostRead.nd_4, HostRead.w_4, HostRead.b_4]
  rw [kept8_arg0 m ρ c, kept8_arg1 m ρ c, kept8_arg11 m ρ c, kept8_arg12 m ρ c, kept8_nd m ρ c, msgs4 m ρ c]
  exact Cert.Meet.relu_4 _ _ _ _
theorem msgs5 (c : Dev nD) : (W10 m ρ c (Proc.devRef .tc main_v112_1) : S50000x128.Idx → EReal) = Cert.Spec.msgOf (F := Ideal) (Cert.Spec.hNext (F := Ideal) (W0 m ρ c (Proc.devRef .tc main_arg0)) (W0 m ρ c (Proc.devRef .tc main_arg1)) (W0 m ρ c (Proc.devRef .tc main_arg11)) (W0 m ρ c (Proc.devRef .tc main_arg12)) (Cert.Spec.hNext (F := Ideal) (W0 m ρ c (Proc.devRef .tc main_arg0)) (W0 m ρ c (Proc.devRef .tc main_arg1)) (W0 m ρ c (Proc.devRef .tc main_arg9)) (W0 m ρ c (Proc.devRef .tc main_arg10)) (Cert.Spec.hNext (F := Ideal) (W0 m ρ c (Proc.devRef .tc main_arg0)) (W0 m ρ c (Proc.devRef .tc main_arg1)) (W0 m ρ c (Proc.devRef .tc main_arg7)) (W0 m ρ c (Proc.devRef .tc main_arg8)) (Cert.Spec.hNext (F := Ideal) (W0 m ρ c (Proc.devRef .tc main_arg0)) (W0 m ρ c (Proc.devRef .tc main_arg1)) (W0 m ρ c (Proc.devRef .tc main_arg5)) (W0 m ρ c (Proc.devRef .tc main_arg6)) (Cert.Spec.h1 (F := Ideal) (W0 m ρ c (Proc.devRef .tc main_arg0)) (W0 m ρ c (Proc.devRef .tc main_arg1)) (W0 m ρ c (Proc.devRef .tc main_arg3)) (W0 m ρ c (Proc.devRef .tc main_arg4))))))) (Cert.Spec.normS (F := Ideal) (W0 m ρ c (Proc.devRef .tc main_arg0))) := by
  refine ((W10_arr m ρ c 6).trans (Conv4.final6 (V9 m ρ) c)).trans ?_
  show Conv4.msgArr (StableHlo.after hostOps4 (W8 m ρ c) (Proc.devRef .tc main_v107)) (StableHlo.after hostOps4 (W8 m ρ c) (Proc.devRef .tc main_v108))
      (StableHlo.after hostOps4 (W8 m ρ c) (Proc.devRef .tc main_v110)) (StableHlo.after hostOps4 (W8 m ρ c) (Proc.devRef .tc main_v111))
      (StableHlo.after hostOps4 (W8 m ρ c) (Proc.devRef .tc main_v109)) = _
  rw [HostRead.agg_4, HostRead.nd_4, HostRead.w_4, HostRead.b_4, HostRead.ns_4]
  rw [kept8_arg0 m ρ c, kept8_arg1 m ρ c, kept8_arg11 m ρ c, kept8_arg12 m ρ c, kept8_nd m ρ c, msgs4 m ρ c, kept8_ns m ρ c]
  exact Cert.Meet.msg_4 _ _ _ _ _

/-! ## The three results -/

/-- The node embeddings. -/
theorem result_nodes (c : Dev nD) : (W13 m ρ c (Proc.devRef .tc main_v112_0) : S50000x128.Idx → EReal) = (Cert.Spec.h5 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) :=
  (step13 m ρ c main_v112_0 dd).trans ((step12 m ρ c main_v112_0 dd).trans ((step11 m ρ c main_v112_0 dd).trans (nodes5 m ρ c)))
/-- The graph embeddings. -/
theorem result_graphs (c : Dev nD) : (W13 m ρ c (Proc.devRef .tc main_v122) : S50x128.Idx → EReal) = Cert.Spec.pool (F := Ideal) (W0 m ρ c (Proc.devRef .tc main_arg2)) (Cert.Spec.h5 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12))) := by
  refine (step13 m ρ c main_v122 dd).trans ((step12 m ρ c main_v122 dd).trans ?_)
  refine (HostRead.graphs (W10 m ρ c)).trans ?_
  rw [kept10_arg2 m ρ c, nodes5 m ρ c]
  rfl
/-- The predictions. -/
theorem result_pred (c : Dev nD) : (W13 m ρ c (Proc.devRef .tc main_v137) : S50x1.Idx → EReal)
    = Cert.Spec.head (F := Ideal) (Cert.Spec.pool (F := Ideal) (W0 m ρ c (Proc.devRef .tc main_arg2)) (Cert.Spec.h5 (F := Ideal) (W0 m ρ c (Proc.devRef .tc main_arg0)) (W0 m ρ c (Proc.devRef .tc main_arg1)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)))) (W0 m ρ c (Proc.devRef .tc main_arg13)) (W0 m ρ c (Proc.devRef .tc main_arg14)) (W0 m ρ c (Proc.devRef .tc main_arg15)) (W0 m ρ c (Proc.devRef .tc main_arg16)) := by
  refine (HostRead.pred (W10 m ρ c)).trans ?_
  rw [kept10_arg2 m ρ c, kept10_arg13 m ρ c, kept10_arg14 m ρ c, kept10_arg15 m ρ c, kept10_arg16 m ρ c, nodes5 m ρ c]
  rfl

end Cert.KernelIdeal.Chain

end
-- ==== Proof.SpecRes.lean ====
import proofs.«142413_j67980742361104_2_alg».proof.Proof.RefRun
import proofs.«142413_j67980742361104_2_alg».proof.Proof.Spec

/-!
# The reference's three results are the named pieces composed

The reference's run ends with its results at the composed terms of its operations; those terms are, piece by piece,
`h5`, `pool` and `head` of the argument arrays.
-/

set_option maxRecDepth 16384

noncomputable section

namespace Cert.Spec

open Idealize.ShloMosaic Idealize.ShloMosaic.TcCoe Idealize.SL.Sem Cert.ReferenceIdeal Cert.ReferenceIdeal.Gen

variable {F : FTy → Type} [FloatOps F]

theorem res_nodes (m : (ℓ : Loc nD τ sig) → Buf (Elt F) ℓ) (c : Dev nD) :
    Cert.ReferenceIdeal.Value.res_main_v135 m c = h5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := rfl

theorem res_graphs (m : (ℓ : Loc nD τ sig) → Buf (Elt F) ℓ) (c : Dev nD) :
    Cert.ReferenceIdeal.Value.res_main_v145 m c = pool (m ((c.tc : Thread nD τ).loc main_arg2)) (h5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := rfl

theorem res_pred (m : (ℓ : Loc nD τ sig) → Buf (Elt F) ℓ) (c : Dev nD) :
    Cert.ReferenceIdeal.Value.res_main_v160 m c
      = head (pool (m ((c.tc : Thread nD τ).loc main_arg2)) (h5 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))) (m ((c.tc : Thread nD τ).loc main_arg13)) (m ((c.tc : Thread nD τ).loc main_arg14)) (m ((c.tc : Thread nD τ).loc main_arg15)) (m ((c.tc : Thread nD τ).loc main_arg16)) := rfl

end Cert.Spec

end
-- ==== Proof.lean ====
/- A five-layer graph convolution network — degree features, five rounds of "scale by the source normalisation, gather
   along the edges, scatter-add into the destinations, scale by the destination normalisation, multiply by the weights,
   add the bias, rectify", a per-graph mean and a two-layer read-out — computed by a program whose five dense steps are
   tiled launches over 25 blocks of 2000 nodes, against the same network written with whole-array operations.

   Frames: each program runs to the end without fault and leaves its seventeen argument arrays as launched. For the
   tiled program this goes launch by launch: a launch's 25 grid points each read five operand blocks and write two,
   and every buffer outside the launch's seven operand arrays is untouched; the host stretches between launches write
   only their own results.

   Values, over the extended reals: a launch's rectified output at (r, j) is max (∑ₖ (A r k · n_dst r) · W k j + b j, 0)
   of the aggregated features A it is handed, and its message output that times n_src r; the whole-array dense step
   at (r, j) is the same expression. The roundings to bf16 around the launches are the identity there, so by induction
   over the five layers both programs end with the same node embeddings, and the same pooling and read-out applied to
   them give the other two results. No arithmetic law is used, hence neither is the finiteness of the inputs. -/
import proofs.«142413_j67980742361104_2_alg».proof.Defs
import proofs.«142413_j67980742361104_2_alg».proof.Proof.Gen.Kernel
import proofs.«142413_j67980742361104_2_alg».proof.Proof.Gen.KernelIdeal
import proofs.«142413_j67980742361104_2_alg».proof.Proof.Gen.ReferenceIdeal
import proofs.«142413_j67980742361104_2_alg».proof.Proof.Gen.Pre_finite_inputs
import proofs.«142413_j67980742361104_2_alg».proof.Proof.Kernel.Frame
import proofs.«142413_j67980742361104_2_alg».proof.Proof.KernelIdeal.Frame
import proofs.«142413_j67980742361104_2_alg».proof.Proof.KernelIdeal.Walk
import proofs.«142413_j67980742361104_2_alg».proof.Proof.RefRun
import proofs.«142413_j67980742361104_2_alg».proof.Proof.SpecRes
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Chain.frame m ρ
theorem frame_kernelIdeal : Cert.frame_KernelIdeal := fun m ρ _ => Cert.KernelIdeal.Chain.frame m ρ
/-- The reference's run, its results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with the read-out, the graph embeddings and the node embeddings of the launched arguments. -/
theorem algebraic : Cert.algebraic_KernelIdeal_ReferenceIdeal := by
  intro m ρ m' ρ' _ hagree
  refine ⟨fun c => (Cert.Spec.head (F := Ideal) (Cert.Spec.pool (F := Ideal) (m ((c.tc : Thread Cert.KernelIdeal.nD Cert.KernelIdeal.τ).loc Cert.KernelIdeal.main_arg2)) (Cert.Spec.h5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))), fun c => (Cert.Spec.pool (F := Ideal) (m ((c.tc : Thread Cert.KernelIdeal.nD Cert.KernelIdeal.τ).loc Cert.KernelIdeal.main_arg2)) (Cert.Spec.h5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)))), fun c => (Cert.Spec.h5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))), ?_, ?_⟩
  · exact Cert.KernelIdeal.Chain.run m ρ (fun s h c =>
      ⟨(h c _ (Cert.KernelIdeal.Chain.mem_uc Cert.KernelIdeal.main_v137 (by decide))).trans (Cert.KernelIdeal.Chain.result_pred m ρ c),
       (h c _ (Cert.KernelIdeal.Chain.mem_uc Cert.KernelIdeal.main_v122 (by decide))).trans (Cert.KernelIdeal.Chain.result_graphs m ρ c),
       (h c _ (Cert.KernelIdeal.Chain.mem_uc Cert.KernelIdeal.main_v112_0 (by decide))).trans (Cert.KernelIdeal.Chain.result_nodes m ρ c),
       (h c _ (Cert.KernelIdeal.Chain.mem_uc Cert.KernelIdeal.main_arg0 (by decide))).trans (Cert.KernelIdeal.Chain.W13_keep m ρ c Cert.KernelIdeal.main_arg0 (by decide) (by decide) (by decide) (by decide) (by decide) (by decide) (by decide) (by decide) (by decide) (by decide) (by decide) (by decide) (by decide)),
       (h c _ (Cert.KernelIdeal.Chain.mem_uc Cert.KernelIdeal.main_arg1 (by decide))).trans (Cert.KernelIdeal.Chain.W13_keep m ρ c Cert.KernelIdeal.main_arg1 (by decide) (by decide) (by decide) (by decide) (by decide) (by decide) (by decide) (by decide) (by decide) (by decide) (by decide) (by decide) (by decide)),
       (h c _ (Cert.KernelIdeal.Chain.mem_uc Cert.KernelIdeal.main_arg2 (by decide))).trans (Cert.KernelIdeal.Chain.W13_keep m ρ c Cert.KernelIdeal.main_arg2 (by decide) (by decide) (by decide) (by decide) (by decide) (by decide) (by decide) (by decide) (by decide) (by decide) (by decide) (by decide) (by decide)),
       (h c _ (Cert.KernelIdeal.Chain.mem_uc Cert.KernelIdeal.main_arg3 (by decide))).trans (Cert.KernelIdeal.Chain.W13_keep m ρ c Cert.KernelIdeal.main_arg3 (by decide) (by decide) (by decide) (by decide) (by decide) (by decide) (by decide) (by decide) (by decide) (by decide) (by decide) (by decide) (by decide)),
       (h c _ (Cert.KernelIdeal.Chain.mem_uc Cert.KernelIdeal.main_arg4 (by decide))).trans (Cert.KernelIdeal.Chain.W13_keep m ρ c Cert.KernelIdeal.main_arg4 (by decide) (by decide) (by decide) (by decide) (by decide) (by decide) (by decide) (by decide) (by decide) (by decide) (by decide) (by decide) (by decide)),
       (h c _ (Cert.KernelIdeal.Chain.mem_uc Cert.KernelIdeal.main_arg5 (by decide))).trans (Cert.KernelIdeal.Chain.W13_keep m ρ c Cert.KernelIdeal.main_arg5 (by decide) (by decide) (by decide) (by decide) (by decide) (by decide) (by decide) (by decide) (by decide) (by decide) (by decide) (by decide) (by decide)),
       (h c _ (Cert.KernelIdeal.Chain.mem_uc Cert.KernelIdeal.main_arg6 (by decide))).trans (Cert.KernelIdeal.Chain.W13_keep m ρ c Cert.KernelIdeal.main_arg6 (by decide) (by decide) (by decide) (by decide) (by decide) (by decide) (by decide) (by decide) (by decide) (by decide) (by decide) (by decide) (by decide)),
       (h c _ (Cert.KernelIdeal.Chain.mem_uc Cert.KernelIdeal.main_arg7 (by decide))).trans (Cert.KernelIdeal.Chain.W13_keep m ρ c Cert.KernelIdeal.main_arg7 (by decide) (by decide) (by decide) (by decide) (by decide) (by decide) (by decide) (by decide) (by decide) (by decide) (by decide) (by decide) (by decide)),
       (h c _ (Cert.KernelIdeal.Chain.mem_uc Cert.KernelIdeal.main_arg8 (by decide))).trans (Cert.KernelIdeal.Chain.W13_keep m ρ c Cert.KernelIdeal.main_arg8 (by decide) (by decide) (by decide) (by decide) (by decide) (by decide) (by decide) (by decide) (by decide) (by decide) (by decide) (by decide) (by decide)),
       (h c _ (Cert.KernelIdeal.Chain.mem_uc Cert.KernelIdeal.main_arg9 (by decide))).trans (Cert.KernelIdeal.Chain.W13_keep m ρ c Cert.KernelIdeal.main_arg9 (by decide) (by decide) (by decide) (by decide) (by decide) (by decide) (by decide) (by decide) (by decide) (by decide) (by decide) (by decide) (by decide)),
       (h c _ (Cert.KernelIdeal.Chain.mem_uc Cert.KernelIdeal.main_arg10 (by decide))).trans (Cert.KernelIdeal.Chain.W13_keep m ρ c Cert.KernelIdeal.main_arg10 (by decide) (by decide) (by decide) (by decide) (by decide) (by decide) (by decide) (by decide) (by decide) (by decide) (by decide) (by decide) (by decide)),
       (h c _ (Cert.KernelIdeal.Chain.mem_uc Cert.KernelIdeal.main_arg11 (by decide))).trans (Cert.KernelIdeal.Chain.W13_keep m ρ c Cert.KernelIdeal.main_arg11 (by decide) (by decide) (by decide) (by decide) (by decide) (by decide) (by decide) (by decide) (by decide) (by decide) (by decide) (by decide) (by decide)),
       (h c _ (Cert.KernelIdeal.Chain.mem_uc Cert.KernelIdeal.main_arg12 (by decide))).trans (Cert.KernelIdeal.Chain.W13_keep m ρ c Cert.KernelIdeal.main_arg12 (by decide) (by decide) (by decide) (by decide) (by decide) (by decide) (by decide) (by decide) (by decide) (by decide) (by decide) (by decide) (by decide)),
       (h c _ (Cert.KernelIdeal.Chain.mem_uc Cert.KernelIdeal.main_arg13 (by decide))).trans (Cert.KernelIdeal.Chain.W13_keep m ρ c Cert.KernelIdeal.main_arg13 (by decide) (by decide) (by decide) (by decide) (by decide) (by decide) (by decide) (by decide) (by decide) (by decide) (by decide) (by decide) (by decide)),
       (h c _ (Cert.KernelIdeal.Chain.mem_uc Cert.KernelIdeal.main_arg14 (by decide))).trans (Cert.KernelIdeal.Chain.W13_keep m ρ c Cert.KernelIdeal.main_arg14 (by decide) (by decide) (by decide) (by decide) (by decide) (by decide) (by decide) (by decide) (by decide) (by decide) (by decide) (by decide) (by decide)),
       (h c _ (Cert.KernelIdeal.Chain.mem_uc Cert.KernelIdeal.main_arg15 (by decide))).trans (Cert.KernelIdeal.Chain.W13_keep m ρ c Cert.KernelIdeal.main_arg15 (by decide) (by decide) (by decide) (by decide) (by decide) (by decide) (by decide) (by decide) (by decide) (by decide) (by decide) (by decide) (by decide)),
       (h c _ (Cert.KernelIdeal.Chain.mem_uc Cert.KernelIdeal.main_arg16 (by decide))).trans (Cert.KernelIdeal.Chain.W13_keep m ρ c Cert.KernelIdeal.main_arg16 (by decide) (by decide) (by decide) (by decide) (by decide) (by decide) (by decide) (by decide) (by decide) (by decide) (by decide) (by decide) (by decide))⟩)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · rw [Cert.Spec.res_pred]
      obtain ⟨e0, e1, e2, e3, e4, e5, e6, e7, e8, e9, e10, e11, e12, e13, e14, e15, e16⟩ := hagree c
      rw [e0, e1, e2, e3, e4, e5, e6, e7, e8, e9, e10, e11, e12, e13, e14, e15, e16]
    · rw [Cert.Spec.res_graphs]
      obtain ⟨e0, e1, e2, e3, e4, e5, e6, e7, e8, e9, e10, e11, e12, e13, e14, e15, e16⟩ := hagree c
      rw [e0, e1, e2, e3, e4, e5, e6, e7, e8, e9, e10, e11, e12]
    · rw [Cert.Spec.res_nodes]
      obtain ⟨e0, e1, e2, e3, e4, e5, e6, e7, e8, e9, e10, e11, e12, e13, e14, e15, e16⟩ := hagree c
      rw [e0, e1, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
